-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part7 {F : FTy → Type} [FloatOps F] (main_arg25 : FVec F S128 .f32) (main_v118 : IVec S_ 1) (main_v119 : FVec F S256x128 .f32) : IVec S_ 1 :=
  let main_cst_46 : FVec F S_ .f32 := constant S_ .f32 0x7F800000#32
  let main_v120 : FVec F S256x128 .f32 := broadcastInDim S256x128 ![] bcast_S_S256x128 main_cst_46
  let main_v121 : IVec S256x128 1 := cmpf .olt main_v119 main_v120
  let main_c_47 : IVec S_ 1 := constantI S_ 1 1#1
  let main_v122 : IVec S_ 1 := (fun x v => Host.reduce IntOp.andi x v reducesTo_S256x128_S_d0_1 h_S_) main_v121 main_c_47
  let main_v123 : IVec S_ 1 := andi main_v118 main_v122
  let main_v124 : FVec F S128 .f32 := Host.absf main_arg25
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  main_v128

def fn_part6 {F : FTy → Type} [FloatOps F] (main_arg21 : FVec F S128 .f32) (main_arg22 : FVec F S256x128 .f32) (main_arg23 : FVec F S128 .f32) (main_arg24 : FVec F S256x128 .f32) (main_arg25 : FVec F S128 .f32) (main_v98 : IVec S_ 1) (main_v101 : IVec S256x128 1) (main_c_39 : IVec S_ 1) : IVec S_ 1 :=
  let main_v102 : IVec S_ 1 := (fun x v => Host.reduce IntOp.andi x v reducesTo_S256x128_S_d0_1 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S256x128 .f32 := Host.absf main_arg22
  let main_cst_42 : FVec F S_ .f32 := constant S_ .f32 0x7F800000#32
  let main_v110 : FVec F S256x128 .f32 := broadcastInDim S256x128 ![] bcast_S_S256x128 main_cst_42
  let main_v111 : IVec S256x128 1 := cmpf .olt main_v109 main_v110
  let main_c_43 : IVec S_ 1 := constantI S_ 1 1#1
  let main_v112 : IVec S_ 1 := (fun x v => Host.reduce IntOp.andi x v reducesTo_S256x128_S_d0_1 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S256x128 .f32 := Host.absf main_arg24
  fn_part7 (F := F) main_arg25 main_v118 main_v119

def fn_part5 {F : FTy → Type} [FloatOps F] (main_arg18 : FVec F S256x128 .f32) (main_arg19 : FVec F S128 .f32) (main_arg20 : FVec F S256x128 .f32) (main_arg21 : FVec F S128 .f32) (main_arg22 : FVec F S256x128 .f32) (main_arg23 : FVec F S128 .f32) (main_arg24 : FVec F S256x128 .f32) (main_arg25 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S256x128 .f32 := Host.absf main_arg18
  let main_cst_34 : FVec F S_ .f32 := constant S_ .f32 0x7F800000#32
  let main_v90 : FVec F S256x128 .f32 := broadcastInDim S256x128 ![] bcast_S_S256x128 main_cst_34
  let main_v91 : IVec S256x128 1 := cmpf .olt main_v89 main_v90
  let main_c_35 : IVec S_ 1 := constantI S_ 1 1#1
  let main_v92 : IVec S_ 1 := (fun x v => Host.reduce IntOp.andi x v reducesTo_S256x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S256x128 .f32 := Host.absf main_arg20
  let main_cst_38 : FVec F S_ .f32 := constant S_ .f32 0x7F800000#32
  let main_v100 : FVec F S256x128 .f32 := broadcastInDim S256x128 ![] bcast_S_S256x128 main_cst_38
  let main_v101 : IVec S256x128 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S128x128 .f32) (main_arg15 : FVec F S128 .f32) (main_arg16 : FVec F S128x128 .f32) (main_arg17 : FVec F S128 .f32) (main_arg18 : FVec F S256x128 .f32) (main_arg19 : FVec F S128 .f32) (main_arg20 : FVec F S256x128 .f32) (main_arg21 : FVec F S128 .f32) (main_arg22 : FVec F S256x128 .f32) (main_arg23 : FVec F S128 .f32) (main_arg24 : FVec F S256x128 .f32) (main_arg25 : FVec F S128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S256x128 .f32) (main_arg19 : FVec F S128 .f32) (main_arg20 : FVec F S256x128 .f32) (main_arg21 : FVec F S128 .f32) (main_arg22 : FVec F S256x128 .f32) (main_arg23 : FVec F S128 .f32) (main_arg24 : FVec F S256x128 .f32) (main_arg25 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S256x128 .f32) (main_arg19 : FVec F S128 .f32) (main_arg20 : FVec F S256x128 .f32) (main_arg21 : FVec F S128 .f32) (main_arg22 : FVec F S256x128 .f32) (main_arg23 : FVec F S128 .f32) (main_arg24 : FVec F S256x128 .f32) (main_arg25 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S10000x10000 .f32) (main_arg5 : FVec F S10000x10000 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S256x128 .f32) (main_arg19 : FVec F S128 .f32) (main_arg20 : FVec F S256x128 .f32) (main_arg21 : FVec F S128 .f32) (main_arg22 : FVec F S256x128 .f32) (main_arg23 : FVec F S128 .f32) (main_arg24 : FVec F S256x128 .f32) (main_arg25 : FVec F S128 .f32) (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  let main_v19 : FVec F S10000x10000 .f32 := Host.absf main_arg4
  let main_cst_6 : FVec F S_ .f32 := constant S_ .f32 0x7F800000#32
  let main_v20 : FVec F S10000x10000 .f32 := broadcastInDim S10000x10000 ![] bcast_S_S10000x10000 main_cst_6
  let main_v21 : IVec S10000x10000 1 := cmpf .olt main_v19 main_v20
  let main_c_7 : IVec S_ 1 := constantI S_ 1 1#1
  let main_v22 : IVec S_ 1 := (fun x v => Host.reduce IntOp.andi x v reducesTo_S10000x10000_S_d0_1 h_S_) main_v21 main_c_7
  let main_v23 : IVec S_ 1 := andi main_v18 main_v22
  let main_v24 : FVec F S10000x10000 .f32 := Host.absf main_arg5
  let main_cst_8 : FVec F S_ .f32 := constant S_ .f32 0x7F800000#32
  let main_v25 : FVec F S10000x10000 .f32 := broadcastInDim S10000x10000 ![] bcast_S_S10000x10000 main_cst_8
  let main_v26 : IVec S10000x10000 1 := cmpf .olt main_v24 main_v25
  let main_c_9 : IVec S_ 1 := constantI S_ 1 1#1
  let main_v27 : IVec S_ 1 := (fun x v => Host.reduce IntOp.andi x v reducesTo_S10000x10000_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S10000x128 .f32) (main_arg1 : FVec F S10000x128 .f32) (main_arg2 : FVec F S10000x10000 .f32) (main_arg3 : FVec F S10000x10000 .f32) (main_arg4 : FVec F S10000x10000 .f32) (main_arg5 : FVec F S10000x10000 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S256x128 .f32) (main_arg19 : FVec F S128 .f32) (main_arg20 : FVec F S256x128 .f32) (main_arg21 : FVec F S128 .f32) (main_arg22 : FVec F S256x128 .f32) (main_arg23 : FVec F S128 .f32) (main_arg24 : FVec F S256x128 .f32) (main_arg25 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x10000 .f32 := Host.absf main_arg3
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x128 : Shape := ⟨2, ![256, 128]⟩
abbrev S2000x128 : Shape := ⟨2, ![2000, 128]⟩
abbrev S128x256 : Shape := ⟨2, ![128, 256]⟩
abbrev S1x128 : Shape := ⟨2, ![1, 128]⟩
abbrev S10000x256 : Shape := ⟨2, ![10000, 256]⟩
abbrev S200x10000 : Shape := ⟨2, ![200, 10000]⟩
abbrev S200x256 : Shape := ⟨2, ![200, 256]⟩
abbrev S200x128 : Shape := ⟨2, ![200, 128]⟩
abbrev S256 : Shape := ⟨1, ![256]⟩
abbrev S1x256 : Shape := ⟨2, ![1, 256]⟩
abbrev S_ : Shape := ⟨0, ![]⟩

abbrev nBuf : Space → Nat
  | .hbm => 76
  | .vmem => 50
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S10000x10000, .f32⟩
  | .hbm, ⟨4, _⟩ => ⟨S10000x10000, .f32⟩
  | .hbm, ⟨5, _⟩ => ⟨S10000x10000, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S256x128, .f32⟩
  | .hbm, ⟨19, _⟩ => ⟨S128, .f32⟩
  | .hbm, ⟨20, _⟩ => ⟨S256x128, .f32⟩
  | .hbm, ⟨21, _⟩ => ⟨S128, .f32⟩
  | .hbm, ⟨22, _⟩ => ⟨S256x128, .f32⟩
  | .hbm, ⟨23, _⟩ => ⟨S128, .f32⟩
  | .hbm, ⟨24, _⟩ => ⟨S256x128, .f32⟩
  | .hbm, ⟨25, _⟩ => ⟨S128, .f32⟩
  | .hbm, ⟨26, _⟩ => ⟨S128x128, .bf16⟩
  | .hbm, ⟨27, _⟩ => ⟨S128x128, .bf16⟩
  | .hbm, ⟨28, _⟩ => ⟨S10000x128, .bf16⟩
  | .hbm, ⟨29, _⟩ => ⟨S10000x128, .bf16⟩
  | .hbm, ⟨30, _⟩ => ⟨S128x256, .f32⟩
  | .hbm, ⟨31, _⟩ => ⟨S128x256, .bf16⟩
  | .hbm, ⟨32, _⟩ => ⟨S128x256, .f32⟩
  | .hbm, ⟨33, _⟩ => ⟨S128x256, .bf16⟩
  | .hbm, ⟨34, _⟩ => ⟨S1x128, .f32⟩
  | .hbm, ⟨35, _⟩ => ⟨S1x128, .f32⟩
  | .hbm, ⟨36, _⟩ => ⟨S10000x256, .bf16⟩
  | .hbm, ⟨37, _⟩ => ⟨S10000x256, .bf16⟩
  | .hbm, ⟨38, _⟩ => ⟨S256, .f32⟩
  | .hbm, ⟨39, _⟩ => ⟨S1x256, .f32⟩
  | .hbm, ⟨40, _⟩ => ⟨S256, .f32⟩
  | .hbm, ⟨41, _⟩ => ⟨S1x256, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S128x128, .f32⟩
  | .hbm, ⟨59, _⟩ => ⟨S128x128, .bf16⟩
  | .hbm, ⟨60, _⟩ => ⟨S128x128, .f32⟩
  | .hbm, ⟨61, _⟩ => ⟨S128x128, .bf16⟩
  | .hbm, ⟨62, _⟩ => ⟨S128x128, .f32⟩
  | .hbm, ⟨63, _⟩ => ⟨S128x128, .bf16⟩
  | .hbm, ⟨64, _⟩ => ⟨S128x128, .f32⟩
  | .hbm, ⟨65, _⟩ => ⟨S128x128, .bf16⟩
  | .hbm, ⟨66, _⟩ => ⟨S128x128, .f32⟩
  | .hbm, ⟨67, _⟩ => ⟨S128x128, .bf16⟩
  | .hbm, ⟨68, _⟩ => ⟨S128x128, .f32⟩
  | .hbm, ⟨69, _⟩ => ⟨S128x128, .bf16⟩
  | .hbm, ⟨70, _⟩ => ⟨S128x128, .f32⟩
  | .hbm, ⟨71, _⟩ => ⟨S128x128, .bf16⟩
  | .hbm, ⟨72, _⟩ => ⟨S128x128, .f32⟩
  | .hbm, ⟨73, _⟩ => ⟨S128x128, .bf16⟩
  | .hbm, ⟨74, _⟩ => ⟨S10000x128, .f32⟩
  | .hbm, ⟨75, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .bf16⟩
  | .local _ .vmem, ⟨5, _⟩ => ⟨S128x128, .bf16⟩
  | .local _ .vmem, ⟨6, _⟩ => ⟨S2000x128, .bf16⟩
  | .local _ .vmem, ⟨7, _⟩ => ⟨S2000x128, .bf16⟩
  | .local _ .vmem, ⟨8, _⟩ => ⟨S2000x128, .bf16⟩
  | .local _ .vmem, ⟨9, _⟩ => ⟨S2000x128, .bf16⟩
  | .local _ .vmem, ⟨10, _⟩ => ⟨S200x10000, .f32⟩
  | .local _ .vmem, ⟨11, _⟩ => ⟨S200x10000, .f32⟩
  | .local _ .vmem, ⟨12, _⟩ => ⟨S200x10000, .f32⟩
  | .local _ .vmem, ⟨13, _⟩ => ⟨S200x10000, .f32⟩
  | .local _ .vmem, ⟨14, _⟩ => ⟨S10000x128, .bf16⟩
  | .local _ .vmem, ⟨15, _⟩ => ⟨S10000x128, .bf16⟩
  | .local _ .vmem, ⟨16, _⟩ => ⟨S1x128, .f32⟩
  | .local _ .vmem, ⟨17, _⟩ => ⟨S1x128, .f32⟩
  | .local _ .vmem, ⟨18, _⟩ => ⟨S128x256, .bf16⟩
  | .local _ .vmem, ⟨19, _⟩ => ⟨S128x256, .bf16⟩
  | .local _ .vmem, ⟨20, _⟩ => ⟨S200x256, .bf16⟩
  | .local _ .vmem, ⟨21, _⟩ => ⟨S200x256, .bf16⟩
  | .local _ .vmem, ⟨22, _⟩ => ⟨S200x256, .bf16⟩
  | .local _ .vmem, ⟨23, _⟩ => ⟨S200x256, .bf16⟩
  | .local _ .vmem, ⟨24, _⟩ => ⟨S200x10000, .f32⟩
  | .local _ .vmem, ⟨25, _⟩ => ⟨S200x10000, .f32⟩
  | .local _ .vmem, ⟨26, _⟩ => ⟨S200x10000, .f32⟩
  | .local _ .vmem, ⟨27, _⟩ => ⟨S200x10000, .f32⟩
  | .local _ .vmem, ⟨28, _⟩ => ⟨S10000x256, .bf16⟩
  | .local _ .vmem, ⟨29, _⟩ => ⟨S10000x256, .bf16⟩
  | .local _ .vmem, ⟨30, _⟩ => ⟨S1x256, .f32⟩
  | .local _ .vmem, ⟨31, _⟩ => ⟨S1x256, .f32⟩
  | .local _ .vmem, ⟨32, _⟩ => ⟨S128x128, .bf16⟩
  | .local _ .vmem, ⟨33, _⟩ => ⟨S128x128, .bf16⟩
  | .local _ .vmem, ⟨34, _⟩ => ⟨S128x128, .bf16⟩
  | .local _ .vmem, ⟨35, _⟩ => ⟨S128x128, .bf16⟩
  | .local _ .vmem, ⟨36, _⟩ => ⟨S200x128, .f32⟩
  | .local _ .vmem, ⟨37, _⟩ => ⟨S200x128, .f32⟩
  | .local _ .vmem, ⟨38, _⟩ => ⟨S200x128, .f32⟩
  | .local _ .vmem, ⟨39, _⟩ => ⟨S200x128, .f32⟩
  | .local _ .vmem, ⟨40, _⟩ => ⟨S128x128, .bf16⟩
  | .local _ .vmem, ⟨41, _⟩ => ⟨S128x128, .bf16⟩
  | .local _ .vmem, ⟨42, _⟩ => ⟨S128x128, .bf16⟩
  | .local _ .vmem, ⟨43, _⟩ => ⟨S128x128, .bf16⟩
  | .local _ .vmem, ⟨44, _⟩ => ⟨S1x128, .f32⟩
  | .local _ .vmem, ⟨45, _⟩ => ⟨S1x128, .f32⟩
  | .local _ .vmem, ⟨46, _⟩ => ⟨S200x128, .f32⟩
  | .local _ .vmem, ⟨47, _⟩ => ⟨S200x128, .f32⟩
  | .local _ .vmem, ⟨48, _⟩ => ⟨S200x128, .f32⟩
  | .local _ .vmem, ⟨49, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2_0 : Ref sig .tc := ⟨.hbm, 28, rfl⟩
abbrev main_v2_1 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9_0 : Ref sig .tc := ⟨.hbm, 36, rfl⟩
abbrev main_v9_1 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst : Ref sig .tc := ⟨.hbm, 42, rfl⟩
abbrev main_v14 : Ref sig .tc := ⟨.hbm, 43, rfl⟩
abbrev main_v15 : Ref sig .tc := ⟨.hbm, 44, rfl⟩
abbrev main_cst_0 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_1 : Ref sig .tc := ⟨.hbm, 50, rfl⟩
abbrev main_v20 : Ref sig .tc := ⟨.hbm, 51, rfl⟩
abbrev main_v21 : Ref sig .tc := ⟨.hbm, 52, rfl⟩
abbrev main_cst_2 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42_0 : Ref sig .tc := ⟨.hbm, 74, rfl⟩
abbrev main_v42_1 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg10_1 : Ref sig .tc := ⟨.vmem, 37, rfl⟩
abbrev cc2_stg11_0 : Ref sig .tc := ⟨.vmem, 38, rfl⟩
abbrev cc2_stg11_1 : Ref sig .tc := ⟨.vmem, 39, rfl⟩
abbrev cc2_stg12_0 : Ref sig .tc := ⟨.vmem, 40, rfl⟩
abbrev cc2_stg13_0 : Ref sig .tc := ⟨.vmem, 41, rfl⟩
abbrev cc2_stg14_0 : Ref sig .tc := ⟨.vmem, 42, rfl⟩
abbrev cc2_stg15_0 : Ref sig .tc := ⟨.vmem, 43, rfl⟩
abbrev cc2_stg16_0 : Ref sig .tc := ⟨.vmem, 44, rfl⟩
abbrev cc2_stg17_0 : Ref sig .tc := ⟨.vmem, 45, rfl⟩
abbrev cc2_stg18_0 : Ref sig .tc := ⟨.vmem, 46, rfl⟩
abbrev cc2_stg18_1 : Ref sig .tc := ⟨.vmem, 47, rfl⟩
abbrev cc2_stg19_0 : Ref sig .tc := ⟨.vmem, 48, rfl⟩
abbrev cc2_stg19_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem10_1 : DmaSem sig := 37
abbrev cc2_sem11_0 : DmaSem sig := 38
abbrev cc2_sem11_1 : DmaSem sig := 39
abbrev cc2_sem12_0 : DmaSem sig := 40
abbrev cc2_sem13_0 : DmaSem sig := 41
abbrev cc2_sem14_0 : DmaSem sig := 42
abbrev cc2_sem15_0 : DmaSem sig := 43
abbrev cc2_sem16_0 : DmaSem sig := 44
abbrev cc2_sem17_0 : DmaSem sig := 45
abbrev cc2_sem18_0 : DmaSem sig := 46
abbrev cc2_sem18_1 : DmaSem sig := 47
abbrev cc2_sem19_0 : DmaSem sig := 48
abbrev cc2_sem19_1 : DmaSem sig := 49

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10000x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S200x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S200x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_19 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x10000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S10000x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S200x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S200x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 1 → Memref sig .tc .vmem S128x128 .bf16 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S128x128 .bf16 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128x128 .bf16 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128x128 .bf16 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S1x128 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 2 → Memref sig .tc .vmem S200x128 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true]

abbrev stage2_19 : Fin 2 → Memref sig .tc .vmem S200x128 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true]

class Facts₀ : Prop where
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S2000x128_S2000x128_0_0 : (Rect.unit (s := S2000x128) ![0, 0] S2000x128.size inb_S2000x128_S2000x128_0_0).PackedRows (EltTy.packing .bf16)
  concatenates_S128x128_S128x128_S128x256_d1 : Shape.Concatenates [S128x128, S128x128] S128x256 1
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S200x256_S200x256_0_0 : ∀ a, (![0, 0] : Fin 2 → Nat) a + S200x256.size a ≤ S200x256.size a
  h_S200x256 : 0 < S200x256.numel
  packedbf16_S200x256_S200x256_0_0 : (Rect.unit (s := S200x256) ![0, 0] S200x256.size inb_S200x256_S200x256_0_0).PackedRows (EltTy.packing .bf16)
  concatenates_S128_S128_S256_d0 : Shape.Concatenates [S128, S128] S256 0
  shapeCasts_S256_S1x256 : S256.ShapeCasts S1x256
  bcast_S_S128 : S_.BroadcastsInDim S128 (![] : Fin 0 → Fin S128.rank)
  slices_S256x128_S128x128_0_0 : S256x128.Slices ![0, 0] S128x128
  slices_S256x128_S128x128_128_0 : S256x128.Slices ![128, 0] S128x128
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S200x128_S200x128_0_0 : ∀ a, (![0, 0] : Fin 2 → Nat) a + S200x128.size a ≤ S200x128.size a
  h_S200x128 : 0 < S200x128.numel
  slices_S200x256_o0_0_S200x128 : S200x256.Slices ![0, 0] S200x128
  slices_S200x256_o0_128_S200x128 : S200x256.Slices ![0, 128] S200x128
  dot_S2000x128_S128x128_S2000x128_1_0_0_1_n_n_wf : DotDims.WF S2000x128 S128x128 S2000x128 [1] [0] [0] [1] [] []
  dot_S200x10000_S10000x128_S200x128_1_0_0_1_n_n_wf : DotDims.WF S200x10000 S10000x128 S200x128 [1] [0] [0] [1] [] []
  dot_S200x128_S128x256_S200x256_1_0_0_1_n_n_wf : DotDims.WF S200x128 S128x256 S200x256 [1] [0] [0] [1] [] []
  dot_S200x10000_S10000x256_S200x256_1_0_0_1_n_n_wf : DotDims.WF S200x10000 S10000x256 S200x256 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S10000x128.size a
  hwx0_1 : ∀ i : grid0.Coords, EltTy.bits .f32 = 32 ∨ (Rect.block (s := S10000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S10000x128.size a
  hwx0_4 : ∀ i : grid0.Coords, EltTy.bits .bf16 = 32 ∨ (Rect.block (s := S10000x128) S2000x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S10000x128.size a
  hwx0_5 : ∀ i : grid0.Coords, EltTy.bits .bf16 = 32 ∨ (Rect.block (s := S10000x128) S2000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .bf16 = 32 ∨ (Rect.block (s := S10000x128) S10000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S10000x128.size a
  hwx1_3 : ∀ i : grid1.Coords, EltTy.bits .bf16 = 32 ∨ (Rect.block (s := S10000x128) S10000x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .bf16 = 32 ∨ (Rect.block (s := S128x256) S128x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x256.size a ≤ S128x256.size a
  hwx1_7 : ∀ i : grid1.Coords, EltTy.bits .bf16 = 32 ∨ (Rect.block (s := S128x256) S128x256.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S200x256.size a ≤ S10000x256.size a
  hwx1_8 : ∀ i : grid1.Coords, EltTy.bits .bf16 = 32 ∨ (Rect.block (s := S10000x256) S200x256.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S200x256.size a ≤ S10000x256.size a
  hwx1_9 : ∀ i : grid1.Coords, EltTy.bits .bf16 = 32 ∨ (Rect.block (s := S10000x256) S200x256.size (cc1_transform_9 i) (hinb1_9 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S200x10000.size a ≤ S10000x10000.size a
  hwx2_1 : ∀ i : grid2.Coords, EltTy.bits .f32 = 32 ∨ (Rect.block (s := S10000x10000) S200x10000.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10000x256.size a ≤ S10000x256.size a
  hwx2_2 : ∀ i : grid2.Coords, EltTy.bits .bf16 = 32 ∨ (Rect.block (s := S10000x256) S10000x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S10000x256.size a ≤ S10000x256.size a
  hwx2_3 : ∀ i : grid2.Coords, EltTy.bits .bf16 = 32 ∨ (Rect.block (s := S10000x256) S10000x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .bf16 = 32 ∨ (Rect.block (s := S128x128) S128x128.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .bf16 = 32 ∨ (Rect.block (s := S128x128) S128x128.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .bf16 = 32 ∨ (Rect.block (s := S128x128) S128x128.size (cc2_transform_8 i) (hinb2_8 i)).WholeWords (EltTy.packing .bf16)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .bf16 = 32 ∨ (Rect.block (s := S128x128) S128x128.size (cc2_transform_9 i) (hinb2_9 i)).WholeWords (EltTy.packing .bf16)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S200x128.size a ≤ S10000x128.size a
  hwx2_10 : ∀ i : grid2.Coords, EltTy.bits .f32 = 32 ∨ (Rect.block (s := S10000x128) S200x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S200x128.size a ≤ S10000x128.size a
  hwx2_11 : ∀ i : grid2.Coords, EltTy.bits .f32 = 32 ∨ (Rect.block (s := S10000x128) S200x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128x128.size a ≤ S128x128.size a
  hwx2_12 : ∀ i : grid2.Coords, EltTy.bits .bf16 = 32 ∨ (Rect.block (s := S128x128) S128x128.size (cc2_transform_12 i) (hinb2_12 i)).WholeWords (EltTy.packing .bf16)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S128x128.size a ≤ S128x128.size a
  hwx2_13 : ∀ i : grid2.Coords, EltTy.bits .bf16 = 32 ∨ (Rect.block (s := S128x128) S128x128.size (cc2_transform_13 i) (hinb2_13 i)).WholeWords (EltTy.packing .bf16)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S128x128.size a ≤ S128x128.size a
  hwx2_14 : ∀ i : grid2.Coords, EltTy.bits .bf16 = 32 ∨ (Rect.block (s := S128x128) S128x128.size (cc2_transform_14 i) (hinb2_14 i)).WholeWords (EltTy.packing .bf16)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S128x128.size a ≤ S128x128.size a
  hwx2_15 : ∀ i : grid2.Coords, EltTy.bits .bf16 = 32 ∨ (Rect.block (s := S128x128) S128x128.size (cc2_transform_15 i) (hinb2_15 i)).WholeWords (EltTy.packing .bf16)
  hstage2_16 : ∀ j, (stage2_16 j).IsWhole
  nbuf2_16 : grid2.bufCount reads2_16 true = 1
  hreads2_16 : ∀ i i' : grid2.Coords, (∀ a, reads2_16 a = true → i a = i' a) → cc2_transform_16 i = cc2_transform_16 i'
  hinb2_16 : ∀ (i : grid2.Coords) a, (cc2_transform_16 i a + 1) * S1x128.size a ≤ S1x128.size a
  hwx2_16 : ∀ i : grid2.Coords, EltTy.bits .f32 = 32 ∨ (Rect.block (s := S1x128) S1x128.size (cc2_transform_16 i) (hinb2_16 i)).WholeWords (EltTy.packing .f32)
  hstage2_17 : ∀ j, (stage2_17 j).IsWhole
  nbuf2_17 : grid2.bufCount reads2_17 true = 1
  hreads2_17 : ∀ i i' : grid2.Coords, (∀ a, reads2_17 a = true → i a = i' a) → cc2_transform_17 i = cc2_transform_17 i'
  hinb2_17 : ∀ (i : grid2.Coords) a, (cc2_transform_17 i a + 1) * S1x128.size a ≤ S1x128.size a
  hwx2_17 : ∀ i : grid2.Coords, EltTy.bits .f32 = 32 ∨ (Rect.block (s := S1x128) S1x128.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S200x128.size a ≤ S10000x128.size a
  hwx2_18 : ∀ i : grid2.Coords, EltTy.bits .f32 = 32 ∨ (Rect.block (s := S10000x128) S200x128.size (cc2_transform_18 i) (hinb2_18 i)).WholeWords (EltTy.packing .f32)
  hstage2_19 : ∀ j, (stage2_19 j).IsWhole
  nbuf2_19 : grid2.bufCount reads2_19 false = 2
  hreads2_19 : ∀ i i' : grid2.Coords, (∀ a, reads2_19 a = true → i a = i' a) → cc2_transform_19 i = cc2_transform_19 i'
  hinb2_19 : ∀ (i : grid2.Coords) a, (cc2_transform_19 i a + 1) * S200x128.size a ≤ S10000x128.size a
  hwx2_19 : ∀ i : grid2.Coords, EltTy.bits .f32 = 32 ∨ (Rect.block (s := S10000x128) S200x128.size (cc2_transform_19 i) (hinb2_19 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x256_S200x256_1_0_0_1_n_n : DotDims S200x128 S128x256 S200x256 where
  lhsContracting := [1]
  rhsContracting := [0]
  lhsNonContracting := [0]
  rhsNonContracting := [1]
  lhsBatch := []
  rhsBatch := []
  wf := dot_S200x128_S128x256_S200x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg3) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S10000x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S128x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v9_0) S200x256.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v9_1) S200x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg2) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S200x10000.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9_0) S10000x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9_1) S10000x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v13) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v31) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v33) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg0) S200x128.size cc2_transform_10 reads2_10 false false 2 stage2_10 sem2_10
    hrank2 hreads2_10 hinb2_10 nbuf2_10 (Memref.isWhole_whole _) hwx2_10 hstage2_10

abbrev win2_11 : Pipeline.Window sig grid2 :=
  Pipeline.Window.ofSpec (Memref.whole main_arg1) S200x128.size cc2_transform_11 reads2_11 false false 2 stage2_11 sem2_11
    hrank2 hreads2_11 hinb2_11 nbuf2_11 (Memref.isWhole_whole _) hwx2_11 hstage2_11

abbrev win2_12 : Pipeline.Window sig grid2 :=
  Pipeline.Window.ofSpec (Memref.whole main_v35) S128x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v37) S128x128.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v39) S128x128.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v41) S128x128.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v19) S1x128.size cc2_transform_16 reads2_16 false true 1 stage2_16 sem2_16
    hrank2 hreads2_16 hinb2_16 nbuf2_16 (Memref.isWhole_whole _) hwx2_16 hstage2_16

abbrev win2_17 : Pipeline.Window sig grid2 :=
  Pipeline.Window.ofSpec (Memref.whole main_v25) S1x128.size cc2_transform_17 reads2_17 false true 1 stage2_17 sem2_17
    hrank2 hreads2_17 hinb2_17 nbuf2_17 (Memref.isWhole_whole _) hwx2_17 hstage2_17

abbrev win2_18 : Pipeline.Window sig grid2 :=
  Pipeline.Window.ofSpec (Memref.whole main_v42_0) S200x128.size cc2_transform_18 reads2_18 true false 2 stage2_18 sem2_18
    hrank2 hreads2_18 hinb2_18 nbuf2_18 (Memref.isWhole_whole _) hwx2_18 hstage2_18

abbrev win2_19 : Pipeline.Window sig grid2 :=
  Pipeline.Window.ofSpec (Memref.whole main_v42_1) S200x128.size cc2_transform_19 reads2_19 true false 2 stage2_19 sem2_19
    hrank2 hreads2_19 hinb2_19 nbuf2_19 (Memref.isWhole_whole _) hwx2_19 hstage2_19

abbrev win2 : Fin 20 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | ⟨_ + 20, h⟩ => absurd h (Nat.not_lt.2 (Nat.le_add_left _ _))
abbrev spec2 : Fin 20 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S_ : Shape := ⟨0, ![]⟩
abbrev S10000x256 : Shape := ⟨2, ![10000, 256]⟩

abbrev nBuf : Space → Nat
  | .hbm => 138
  | .vmem => 0
  | .smem => 0
  | _ => 0

abbrev hbmTy0_0 (i : Nat) : BufTy := match i % 128 with
  | 0 => ⟨S10000x128, .f32⟩
  | 1 => ⟨S10000x128, .f32⟩
  | 2 => ⟨S10000x10000, .f32⟩
  | 3 => ⟨S10000x10000, .f32⟩
  | 4 => ⟨S10000x10000, .f32⟩
  | 5 => ⟨S10000x10000, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S256x128, .f32⟩
  | 19 => ⟨S128, .f32⟩
  | 20 => ⟨S256x128, .f32⟩
  | 21 => ⟨S128, .f32⟩
  | 22 => ⟨S256x128, .f32⟩
  | 23 => ⟨S128, .f32⟩
  | 24 => ⟨S256x128, .f32⟩
  | 25 => ⟨S128, .f32⟩
  | 26 => ⟨S10000x128, .f32⟩
  | 27 => ⟨S10000x128, .f32⟩
  | 28 => ⟨S1x128, .f32⟩
  | 29 => ⟨S10000x128, .f32⟩
  | 30 => ⟨S10000x128, .f32⟩
  | 31 => ⟨S_, .f32⟩
  | 32 => ⟨S_, .f32⟩
  | 33 => ⟨S10000x128, .f32⟩
  | 34 => ⟨S10000x128, .i1⟩
  | 35 => ⟨S_, .f32⟩
  | 36 => ⟨S10000x128, .f32⟩
  | 37 => ⟨S10000x128, .f32⟩
  | 38 => ⟨S10000x128, .f32⟩
  | 39 => ⟨S10000x128, .f32⟩
  | 40 => ⟨S10000x128, .f32⟩
  | 41 => ⟨S1x128, .f32⟩
  | 42 => ⟨S10000x128, .f32⟩
  | 43 => ⟨S10000x128, .f32⟩
  | 44 => ⟨S_, .f32⟩
  | 45 => ⟨S_, .f32⟩
  | 46 => ⟨S10000x128, .f32⟩
  | 47 => ⟨S10000x128, .i1⟩
  | 48 => ⟨S_, .f32⟩
  | 49 => ⟨S10000x128, .f32⟩
  | 50 => ⟨S10000x128, .f32⟩
  | 51 => ⟨S10000x128, .f32⟩
  | 52 => ⟨S10000x128, .f32⟩
  | 53 => ⟨S10000x128, .f32⟩
  | 54 => ⟨S1x128, .f32⟩
  | 55 => ⟨S10000x128, .f32⟩
  | 56 => ⟨S10000x128, .f32⟩
  | 57 => ⟨S_, .f32⟩
  | 58 => ⟨S_, .f32⟩
  | 59 => ⟨S10000x128, .f32⟩
  | 60 => ⟨S10000x128, .i1⟩
  | 61 => ⟨S_, .f32⟩
  | 62 => ⟨S10000x128, .f32⟩
  | 63 => ⟨S10000x128, .f32⟩
  | 64 => ⟨S10000x128, .f32⟩
  | 65 => ⟨S10000x256, .f32⟩
  | 66 => ⟨S10000x128, .f32⟩
  | 67 => ⟨S1x128, .f32⟩
  | 68 => ⟨S10000x128, .f32⟩
  | 69 => ⟨S10000x128, .f32⟩
  | 70 => ⟨S10000x256, .f32⟩
  | 71 => ⟨S10000x128, .f32⟩
  | 72 => ⟨S1x128, .f32⟩
  | 73 => ⟨S10000x128, .f32⟩
  | 74 => ⟨S10000x128, .f32⟩
  | 75 => ⟨S10000x128, .f32⟩
  | 76 => ⟨S10000x128, .f32⟩
  | 77 => ⟨S1x128, .f32⟩
  | 78 => ⟨S10000x128, .f32⟩
  | 79 => ⟨S10000x128, .f32⟩
  | 80 => ⟨S_, .f32⟩
  | 81 => ⟨S_, .f32⟩
  | 82 => ⟨S10000x128, .f32⟩
  | 83 => ⟨S10000x128, .i1⟩
  | 84 => ⟨S_, .f32⟩
  | 85 => ⟨S10000x128, .f32⟩
  | 86 => ⟨S10000x128, .f32⟩
  | 87 => ⟨S10000x128, .f32⟩
  | 88 => ⟨S10000x128, .f32⟩
  | 89 => ⟨S10000x128, .f32⟩
  | 90 => ⟨S1x128, .f32⟩
  | 91 => ⟨S10000x128, .f32⟩
  | 92 => ⟨S10000x128, .f32⟩
  | 93 => ⟨S_, .f32⟩
  | 94 => ⟨S_, .f32⟩
  | 95 => ⟨S10000x128, .f32⟩
  | 96 => ⟨S10000x128, .i1⟩
  | 97 => ⟨S_, .f32⟩
  | 98 => ⟨S10000x128, .f32⟩
  | 99 => ⟨S10000x128, .f32⟩
  | 100 => ⟨S10000x128, .f32⟩
  | 101 => ⟨S10000x128, .f32⟩
  | 102 => ⟨S10000x128, .f32⟩
  | 103 => ⟨S1x128, .f32⟩
  | 104 => ⟨S10000x128, .f32⟩
  | 105 => ⟨S10000x128, .f32⟩
  | 106 => ⟨S_, .f32⟩
  | 107 => ⟨S_, .f32⟩
  | 108 => ⟨S10000x128, .f32⟩
  | 109 => ⟨S10000x128, .i1⟩
  | 110 => ⟨S_, .f32⟩
  | 111 => ⟨S10000x128, .f32⟩
  | 112 => ⟨S10000x128, .f32⟩
  | 113 => ⟨S10000x128, .f32⟩
  | 114 => ⟨S10000x256, .f32⟩
  | 115 => ⟨S10000x128, .f32⟩
  | 116 => ⟨S1x128, .f32⟩
  | 117 => ⟨S10000x128, .f32⟩
  | 118 => ⟨S10000x128, .f32⟩
  | 119 => ⟨S10000x256, .f32⟩
  | 120 => ⟨S10000x128, .f32⟩
  | 121 => ⟨S1x128, .f32⟩
  | 122 => ⟨S10000x128, .f32⟩
  | 123 => ⟨S10000x128, .f32⟩
  | 124 => ⟨S_, .f32⟩
  | 125 => ⟨S10000x128, .f32⟩
  | 126 => ⟨S10000x128, .f32⟩
  | 127 => ⟨S_, .f32⟩
  | _ => ⟨S10000x128, .f32⟩

abbrev hbmTy0_1 (i : Nat) : BufTy := match i % 128 with
  | 0 => ⟨S10000x128, .f32⟩
  | 1 => ⟨S10000x128, .f32⟩
  | 2 => ⟨S10000x128, .f32⟩
  | 3 => ⟨S_, .f32⟩
  | 4 => ⟨S10000x128, .f32⟩
  | 5 => ⟨S10000x128, .f32⟩
  | 6 => ⟨S_, .f32⟩
  | 7 => ⟨S10000x128, .f32⟩
  | 8 => ⟨S10000x128, .f32⟩
  | 9 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst_0 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_call2_cst : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_cst_2 : Ref sig .tc := ⟨.hbm, 80, rfl⟩
abbrev main_call3_cst : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_cst_3 : Ref sig .tc := ⟨.hbm, 93, rfl⟩
abbrev main_call4_cst : Ref sig .tc := ⟨.hbm, 94, rfl⟩
abbrev main_call4_v0 : Ref sig .tc := ⟨.hbm, 95, rfl⟩
abbrev main_call4_v1 : Ref sig .tc := ⟨.hbm, 96, rfl⟩
abbrev main_call4_v2 : Ref sig .tc := ⟨.hbm, 97, rfl⟩
abbrev main_call4_v3 : Ref sig .tc := ⟨.hbm, 98, rfl⟩
abbrev main_call4_v4 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_cst_4 : Ref sig .tc := ⟨.hbm, 106, rfl⟩
abbrev main_call5_cst : Ref sig .tc := ⟨.hbm, 107, rfl⟩
abbrev main_call5_v0 : Ref sig .tc := ⟨.hbm, 108, rfl⟩
abbrev main_call5_v1 : Ref sig .tc := ⟨.hbm, 109, rfl⟩
abbrev main_call5_v2 : Ref sig .tc := ⟨.hbm, 110, rfl⟩
abbrev main_call5_v3 : Ref sig .tc := ⟨.hbm, 111, rfl⟩
abbrev main_call5_v4 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_cst_5 : Ref sig .tc := ⟨.hbm, 124, rfl⟩
abbrev main_v56 : Ref sig .tc := ⟨.hbm, 125, rfl⟩
abbrev main_v57 : Ref sig .tc := ⟨.hbm, 126, rfl⟩
abbrev main_cst_6 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_cst_7 : Ref sig .tc := ⟨.hbm, 131, rfl⟩
abbrev main_v61 : Ref sig .tc := ⟨.hbm, 132, rfl⟩
abbrev main_v62 : Ref sig .tc := ⟨.hbm, 133, rfl⟩
abbrev main_cst_8 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  concatenates_S10000x128_S10000x128_S10000x256_d1 : Shape.Concatenates [S10000x128, S10000x128] S10000x256 1
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.KRun.lean ====
/-
  The idealized kernel program's run, with every buffer named.

  @main is three kernel regions among stretches of host operations.  Running it from a launch memory `m`, every
  weakly fair execution terminates, nothing faults, and each unscoped buffer ends at the contents the last boundary
  of the run gives it: the fold `Gen.W6` of the host operations and of the regions' written-back arrays over the
  launch contents.  In particular the two result buffers end at that fold read at them, and each argument buffer
  ends as launched.
-/
import proofs.«174822_g77111842832928_cont_sun_m_99_16_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with every unscoped buffer of every core at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The same run with the two result buffers and the twenty-six argument buffers read: each result at the last
    boundary's contents, each argument as launched. -/
theorem run_out : θ_run defs (onTc (τ := τ) (main (F := F))) ⟨m, fun _ => 0, ρ⟩ (fun r => ∀ c : Dev nD,
      r.2.mem ((c.tc : Thread nD τ).loc main_v42_0) = W6 m ρ c (Proc.devRef .tc main_v42_0)
      ∧ r.2.mem ((c.tc : Thread nD τ).loc main_v42_1) = W6 m ρ c (Proc.devRef .tc main_v42_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨h c _ (mem_uc main_v42_0 (by decide)),
     h c _ (mem_uc main_v42_1 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c),
     (h c _ (mem_uc main_arg14 (by decide))).trans (W6_main_arg14 m ρ c),
     (h c _ (mem_uc main_arg15 (by decide))).trans (W6_main_arg15 m ρ c),
     (h c _ (mem_uc main_arg16 (by decide))).trans (W6_main_arg16 m ρ c),
     (h c _ (mem_uc main_arg17 (by decide))).trans (W6_main_arg17 m ρ c),
     (h c _ (mem_uc main_arg18 (by decide))).trans (W6_main_arg18 m ρ c),
     (h c _ (mem_uc main_arg19 (by decide))).trans (W6_main_arg19 m ρ c),
     (h c _ (mem_uc main_arg20 (by decide))).trans (W6_main_arg20 m ρ c),
     (h c _ (mem_uc main_arg21 (by decide))).trans (W6_main_arg21 m ρ c),
     (h c _ (mem_uc main_arg22 (by decide))).trans (W6_main_arg22 m ρ c),
     (h c _ (mem_uc main_arg23 (by decide))).trans (W6_main_arg23 m ρ c),
     (h c _ (mem_uc main_arg24 (by decide))).trans (W6_main_arg24 m ρ c),
     (h c _ (mem_uc main_arg25 (by decide))).trans (W6_main_arg25 m ρ c)⟩)
    (run_all m ρ)

end Cert.KernelIdeal.KValue

end
-- ==== Proof.KCarry.lean ====
/-
  What the host operations between the kernel regions leave alone, and what the regions leave alone.

  @main's three stretches of host operations write only their own result buffers; a kernel region rewrites only
  its output windows' arrays.  So a buffer that nothing writes before a boundary of the run holds there what the
  launch memory held, and an array that a region only reads through an input window is the same after the region.
  These are the carrying facts the value of the run is composed with; they hold for any float values.
-/
import proofs.«174822_g77111842832928_cont_sun_m_99_16_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The buffers the first stretch writes. -/
abbrev ops0_W : List (Ref sig .tc) := [main_v0, main_v1]
/-- The buffers the second stretch writes. -/
abbrev ops1_W : List (Ref sig .tc) := [main_v3, main_v4, main_v5, main_v6, main_v7, main_v8]
/-- The buffers the third stretch writes. -/
abbrev ops2_W : List (Ref sig .tc) := [main_v10, main_v11, main_v12, main_v13, main_cst, main_v14, main_v15, main_cst_0, main_v16, main_v17, main_v18, main_v19, main_cst_1, main_v20, main_v21, main_cst_2, main_v22, main_v23, main_v24, main_v25, main_v26, main_v27, main_v28, main_v29, main_v30, main_v31, main_v32, main_v33, main_v34, main_v35, main_v36, main_v37, main_v38, main_v39, main_v40, main_v41]

theorem ops0_writes : (hostOps0 : List (HloOp τ sig (Elt F))).Forall fun op => op.writes ⊆ (ops0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem ops1_writes : (hostOps1 : List (HloOp τ sig (Elt F))).Forall fun op => op.writes ⊆ (ops1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
theorem ops2_writes : (hostOps2 : List (HloOp τ sig (Elt F))).Forall fun op => op.writes ⊆ (ops2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## A buffer nothing has written holds its launch contents -/

/-- At the first region's entry. -/
theorem W1_launch (c : Dev nD) (b : Ref sig .tc) (h0 : b ∉ ops0_W) :
    W1 m ρ c (Proc.devRef .tc b) = m ((c : Thread nD τ).loc b) :=
  (StableHlo.after_of_writes_sub hostOps0 _ ops0_writes h0).trans rfl

/-- At the first region's exit, for a buffer that is none of its windows' arrays. -/
theorem W2_launch (c : Dev nD) (b : Ref sig .tc) (h0 : b ∉ ops0_W) (hw0 : ∀ w, Pipeline.arrRef spec0 w ≠ b) :
    W2 m ρ c (Proc.devRef .tc b) = m ((c : Thread nD τ).loc b) :=
  (W2_of_ne m ρ c b hw0).trans (W1_launch m ρ c b h0)

/-- At the second region's entry. -/
theorem W3_launch (c : Dev nD) (b : Ref sig .tc) (h0 : b ∉ ops0_W) (hw0 : ∀ w, Pipeline.arrRef spec0 w ≠ b)
    (h1 : b ∉ ops1_W) : W3 m ρ c (Proc.devRef .tc b) = m ((c : Thread nD τ).loc b) :=
  (StableHlo.after_of_writes_sub hostOps1 _ ops1_writes h1).trans (W2_launch m ρ c b h0 hw0)

/-- At the second region's exit, for a buffer that is none of its windows' arrays. -/
theorem W4_launch (c : Dev nD) (b : Ref sig .tc) (h0 : b ∉ ops0_W) (hw0 : ∀ w, Pipeline.arrRef spec0 w ≠ b)
    (h1 : b ∉ ops1_W) (hw1 : ∀ w, Pipeline.arrRef spec1 w ≠ b) :
    W4 m ρ c (Proc.devRef .tc b) = m ((c : Thread nD τ).loc b) :=
  (W4_of_ne m ρ c b hw1).trans (W3_launch m ρ c b h0 hw0 h1)

/-- At the third region's entry. -/
theorem W5_launch (c : Dev nD) (b : Ref sig .tc) (h0 : b ∉ ops0_W) (hw0 : ∀ w, Pipeline.arrRef spec0 w ≠ b)
    (h1 : b ∉ ops1_W) (hw1 : ∀ w, Pipeline.arrRef spec1 w ≠ b) (h2 : b ∉ ops2_W) :
    W5 m ρ c (Proc.devRef .tc b) = m ((c : Thread nD τ).loc b) :=
  (StableHlo.after_of_writes_sub hostOps2 _ ops2_writes h2).trans (W4_launch m ρ c b h0 hw0 h1 hw1)

/-! ## The two feature matrices, which the first region reads through input windows -/

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans
    (W1_launch m ρ c main_arg0 (by decide))
theorem W2_arg1 (c : Dev nD) : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans
    (W1_launch m ρ c main_arg1 (by decide))

theorem W5_arg0 (c : Dev nD) : W5 m ρ c (Proc.devRef .tc main_arg0) = m ((c : Thread nD τ).loc main_arg0) :=
  (StableHlo.after_of_writes_sub hostOps2 _ ops2_writes (by decide)).trans
    ((W4_of_ne m ρ c main_arg0 (by decide)).trans
      ((StableHlo.after_of_writes_sub hostOps1 _ ops1_writes (by decide)).trans (W2_arg0 m ρ c)))
theorem W5_arg1 (c : Dev nD) : W5 m ρ c (Proc.devRef .tc main_arg1) = m ((c : Thread nD τ).loc main_arg1) :=
  (StableHlo.after_of_writes_sub hostOps2 _ ops2_writes (by decide)).trans
    ((W4_of_ne m ρ c main_arg1 (by decide)).trans
      ((StableHlo.after_of_writes_sub hostOps1 _ ops1_writes (by decide)).trans (W2_arg1 m ρ c)))

/-! ## The regions' outputs, carried to where they are next read -/

/-- The first region's outputs at the second region's entry. -/
theorem W3_v2_0 (c : Dev nD) : W3 m ρ c (Proc.devRef .tc main_v2_0) = (dat0 (V1 m ρ) c).arrAt 4 cfg0.N :=
  (StableHlo.after_of_writes_sub hostOps1 _ ops1_writes (by decide)).trans (W2_arr m ρ c 4)
theorem W3_v2_1 (c : Dev nD) : W3 m ρ c (Proc.devRef .tc main_v2_1) = (dat0 (V1 m ρ) c).arrAt 5 cfg0.N :=
  (StableHlo.after_of_writes_sub hostOps1 _ ops1_writes (by decide)).trans (W2_arr m ρ c 5)

/-- The second region's outputs at the third region's entry. -/
theorem W5_v9_0 (c : Dev nD) : W5 m ρ c (Proc.devRef .tc main_v9_0) = (dat1 (V3 m ρ) c).arrAt 8 cfg1.N :=
  (StableHlo.after_of_writes_sub hostOps2 _ ops2_writes (by decide)).trans (W4_arr m ρ c 8)
theorem W5_v9_1 (c : Dev nD) : W5 m ρ c (Proc.devRef .tc main_v9_1) = (dat1 (V3 m ρ) c).arrAt 9 cfg1.N :=
  (StableHlo.after_of_writes_sub hostOps2 _ ops2_writes (by decide)).trans (W4_arr m ρ c 9)

/-- The third region's outputs at the end of the run. -/
theorem W6_v42_0 (c : Dev nD) : W6 m ρ c (Proc.devRef .tc main_v42_0) = (dat2 (V5 m ρ) c).arrAt 18 cfg2.N := W6_arr m ρ c 18
theorem W6_v42_1 (c : Dev nD) : W6 m ρ c (Proc.devRef .tc main_v42_1) = (dat2 (V5 m ρ) c).arrAt 19 cfg2.N := W6_arr m ρ c 19

end Cert.KernelIdeal.KValue

end
-- ==== Proof.LibMatProd.lean ====
/-
  GENERAL LEMMAS: a plain matrix product, written two ways, read at the ideal values.

  The product of an `R × K` matrix `X` with a `K × N` matrix `W` has entry `(r, q)` equal to
  `∑ k, X (r, k) · W (k, q)`, a sum of `K` products of extended reals (`matProd`).
  Both ways a program can write that product read, at `Ideal`, as this same sum:

  * a matrix unit's `matmul` accumulated into a zero splat (`matmul_zero_eq`), and
  * the host's `dot_general` (`dotGeneral_eq`),

  for ANY dimension record that contracts the left operand's axis 1 with the right operand's axis 0 and keeps
  the other two axes in order, whatever the operands' float formats, precision and schedule. That the record does
  so is stated as four equations of coordinate values (`Contracts`), which a literal record proves by unfolding
  (two by `DotDims.lhsIdx_val_of_single` / `rhsIdx_val_of_single`, two by `dif_neg` / `dif_pos` on its literal
  axis lists). Nothing here needs a finiteness hypothesis: the two sides are the same sum of the same products,
  term by term. Imports the library only.
-/
import Idealize.ShloMosaic.PureOps.Ideal.Laws
import Idealize.ShloMosaic.Lib.ValueIdx

noncomputable section

open scoped BigOperators

namespace Cert.Linear

open Idealize.ShloMosaic Idealize.ShloMosaic.ValueIdx

/-- The shape of a matrix of `a` rows and `b` columns. -/
abbrev Mat (a b : Nat) : Shape := ⟨2, ![a, b]⟩

/-- `X · W`, entry by entry: row `r` of `X` against column `q` of `W`. -/
def matProd {R K N : Nat} (X : (Mat R K).Idx → EReal) (W : (Mat K N).Idx → EReal) : (Mat R N).Idx → EReal :=
  fun i => ∑ k : Fin K, X (ix2 (n0 := R) (n1 := K) (i 0) k) * W (ix2 (n0 := K) (n1 := N) k (i 1))

/-- A dimension record for `[R,K] × [K,N] → [R,N]` that contracts the left operand's columns with the right
    operand's rows: one contracted axis of extent `K`, and at result index `i` and contraction index `q` the left
    operand is read at `(i 0, q)` and the right one at `(q, i 1)`. -/
structure Contracts {R K N : Nat} (d : DotDims (Mat R K) (Mat K N) (Mat R N)) : Prop where
  rank : d.contr.rank = 1
  size : d.contr.size ⟨0, by omega⟩ = K
  lhs0 : ∀ (i : (Mat R N).Idx) (q : d.contr.Idx), (d.lhsIdx i q 0).val = (i 0).val
  lhs1 : ∀ (i : (Mat R N).Idx) (q : d.contr.Idx), (d.lhsIdx i q 1).val = (q ⟨0, by omega⟩).val
  rhs0 : ∀ (i : (Mat R N).Idx) (q : d.contr.Idx), (d.rhsIdx i q 0).val = (q ⟨0, by omega⟩).val
  rhs1 : ∀ (i : (Mat R N).Idx) (q : d.contr.Idx), (d.rhsIdx i q 1).val = (i 1).val

/-- The sum over such a record's contraction index of the operands' products is the sum over `k < K` of
    `X (i 0, k) · W (k, i 1)`: the contraction index is its one coordinate. -/
theorem contraction_sum {R K N : Nat} {d : DotDims (Mat R K) (Mat K N) (Mat R N)} (h : Contracts d)
    (X : (Mat R K).Idx → EReal) (W : (Mat K N).Idx → EReal) (i : (Mat R N).Idx) :
    ∑ q : d.contr.Idx, X (d.lhsIdx i q) * W (d.rhsIdx i q) = matProd X W i := by
  unfold matProd
  rw [← Equiv.sum_comp (contrEquiv1 d K h.rank h.size).symm]
  refine Finset.sum_congr rfl fun k _ => ?_
  have hk := contrEquiv1_symm_val d K h.rank h.size k
  have el : d.lhsIdx i ((contrEquiv1 d K h.rank h.size).symm k) = ix2 (n0 := R) (n1 := K) (i 0) k :=
    funext fun a => Fin.ext (by
      match a with
      | ⟨0, _⟩ => exact h.lhs0 _ _
      | ⟨1, _⟩ => exact (h.lhs1 _ _).trans hk)
  have er : d.rhsIdx i ((contrEquiv1 d K h.rank h.size).symm k) = ix2 (n0 := K) (n1 := N) k (i 1) :=
    funext fun a => Fin.ext (by
      match a with
      | ⟨0, _⟩ => exact (h.rhs0 _ _).trans hk
      | ⟨1, _⟩ => exact h.rhs1 _ _)
  rw [el, er]

/-- A matrix unit's product accumulated into the zero splat is `X · W`, whatever the operands' float formats. -/
theorem matmul_zero_eq {R K N : Nat} {φ₁ φ₂ : FTy} {d : DotDims (Mat R K) (Mat K N) (Mat R N)} (h : Contracts d)
    (prec : Option ContractPrecision) (X : FVec Ideal (Mat R K) φ₁) (W : FVec Ideal (Mat K N) φ₂) :
    FloatOps.matmul d prec X W (constant (F := Ideal) (Mat R N) .f32 0x00000000#32) = matProd X W :=
  funext fun i => (Ideal.matmul_constant_zero_apply d prec X W i).trans (contraction_sum h X W i)

/-- The host's `dot_general` is `X · W`, whatever its precision and schedule. -/
theorem dotGeneral_eq {R K N : Nat} {φ₁ φ₂ : FTy} {d : DotDims (Mat R K) (Mat K N) (Mat R N)} (h : Contracts d)
    (prec : Option ContractPrecision) (sched : HostSchedule) (X : FVec Ideal (Mat R K) φ₁) (W : FVec Ideal (Mat K N) φ₂) :
    FloatOps.dotGeneral d prec sched X W = matProd X W :=
  funext fun i => (Ideal.dotGeneral_apply d prec sched X W i).trans (contraction_sum h X W i)

end Cert.Linear

end
-- ==== Proof.Spec.lean ====
/-
  The two-layer, two-graph convolution network, entry by entry, on the extended reals.

  A graph-convolution layer takes node features `S` (one row per node), an adjacency matrix `A` and a bias
  vector `b`, and returns `leaky (A · S + b)`: entry `(r, q)` is the slope function of
  `∑ j, A (r, j) · S (j, q) + b q`, where `leaky x` is `x` for `x ≥ 0` and `slope · x` otherwise.  A union layer
  joins a hidden array `H` and the raw features `X` side by side and applies one affine map:
  `[H | X] · W + b`, whose product over the joined columns is the sum of the products over the two runs of columns.

  The network is stated twice, as the two programs arrange it.

  * `refMean` / `refLogstd` — each side (source, target) has its own first layer, then a mean branch and a
    log-deviation branch with their own weights over the other adjacency, then a union layer; the two sides are
    blended with the weight one half each.
  * `kerMean` / `kerLogstd` — the two branches of a side share ONE second layer whose weights and biases are the
    branches' laid side by side (`catCols`, `catVec`), the mean branch reading the left half of its columns and the
    log-deviation branch the right half; the blend is applied to the products and the blended bias is added last.

  That the two arrangements are one function is the module Bridge's statement; nothing is proved here.
-/
import Idealize.ShloMosaic.PureOps.Ideal.Laws
import Idealize.ShloMosaic.Lib.ValueIdx
import proofs.«174822_g77111842832928_cont_sun_m_99_16_alg».proof.Proof.LibMatProd

noncomputable section

open scoped BigOperators

namespace Cert.Gcn

open Idealize.ShloMosaic Idealize.ShloMosaic.ValueIdx Cert.Linear

/-- The shape of a vector of `a` entries. -/
abbrev Vc (a : Nat) : Shape := ⟨1, ![a]⟩

/-- The slope of the negative half line, as both programs spell it (the single-precision word nearest 0.2). -/
abbrev slope : EReal := FloatOps.ofBits (F := Ideal) .f32 0x3E4CCCCD#32

/-- The blending weight, as both programs spell it (the single-precision word of one half). -/
abbrev half : EReal := FloatOps.ofBits (F := Ideal) .f32 0x3F000000#32

/-- `x` where `x ≥ 0`, `slope · x` elsewhere: the comparison, the product and the choice as the programs'
    elementwise operations read at one element. -/
def leaky (x : EReal) : EReal :=
  Scalar.select (FloatOps.cmpf (F := Ideal) (φ := .f32) .oge x (FloatOps.ofBits (F := Ideal) .f32 0x00000000#32)) x
    (FloatOps.mulf (F := Ideal) (φ := .f32) slope x)

/-- Two matrices of the same height laid side by side. -/
def catCols {r a b : Nat} (X : (Mat r a).Idx → EReal) (Y : (Mat r b).Idx → EReal) : (Mat r (a + b)).Idx → EReal :=
  fun i => Fin.addCases (fun k : Fin a => X (ix2 (n0 := r) (n1 := a) (i 0) k))
    (fun k : Fin b => Y (ix2 (n0 := r) (n1 := b) (i 0) k)) (i 1)

/-- Two vectors laid end to end. -/
def catVec {a b : Nat} (x : (Vc a).Idx → EReal) (y : (Vc b).Idx → EReal) : (Vc (a + b)).Idx → EReal :=
  fun i => Fin.addCases (fun k : Fin a => x (ix1 (n := a) k)) (fun k : Fin b => y (ix1 (n := b) k)) (i 0)

/-- One graph-convolution layer: the slope function of `A · S + b`, the bias read at the entry's column. -/
def layer {n e : Nat} (A : (Mat n n).Idx → EReal) (S : (Mat n e).Idx → EReal) (b : (Vc e).Idx → EReal) :
    (Mat n e).Idx → EReal :=
  fun i => leaky (matProd A S i + b (ix1 (n := e) (i 1)))

/-- A vector as a matrix of one row. -/
def rowOf {e : Nat} (b : (Vc e).Idx → EReal) : (Mat 1 e).Idx → EReal := fun i => b (ix1 (n := e) (i 1))

/-- The layer over ANY block of rows `A` of an adjacency matrix (`r` rows of `n` columns), its bias given as a
    matrix of one row: entry `(p, q)` is the slope function of `∑ j, A (p, j) · S (j, q) + b (0, q)`. -/
def layerRow {r n e : Nat} (A : (Mat r n).Idx → EReal) (S : (Mat n e).Idx → EReal) (b : (Mat 1 e).Idx → EReal) :
    (Mat r e).Idx → EReal :=
  fun i => leaky (matProd A S i + b (ix2 (n0 := 1) (n1 := e) (0 : Fin 1) (i 1)))

/-- The product `[H | X] · W` at an entry: the joined columns' sum, run by run. -/
def joinedProd {n d : Nat} (H X : (Mat n d).Idx → EReal) (W : (Mat (d + d) d).Idx → EReal) (i : (Mat n d).Idx) : EReal :=
  ∑ k : Fin d, H (ix2 (n0 := n) (n1 := d) (i 0) k) * W (ix2 (n0 := d + d) (n1 := d) (Fin.castAdd d k) (i 1))
    + ∑ k : Fin d, X (ix2 (n0 := n) (n1 := d) (i 0) k) * W (ix2 (n0 := d + d) (n1 := d) (Fin.natAdd d k) (i 1))

/-- One union layer: `[H | X] · W + b`. -/
def union {n d : Nat} (H X : (Mat n d).Idx → EReal) (W : (Mat (d + d) d).Idx → EReal) (b : (Vc d).Idx → EReal) :
    (Mat n d).Idx → EReal :=
  fun i => joinedProd H X W i + b (ix1 (n := d) (i 1))

/-- The left `d` columns of a matrix of `d + d` columns. -/
def leftCols {n d : Nat} (H : (Mat n (d + d)).Idx → EReal) : (Mat n d).Idx → EReal :=
  fun i => H (ix2 (n0 := n) (n1 := d + d) (i 0) (Fin.castAdd d (i 1)))

/-- The right `d` columns of a matrix of `d + d` columns. -/
def rightCols {n d : Nat} (H : (Mat n (d + d)).Idx → EReal) : (Mat n d).Idx → EReal :=
  fun i => H (ix2 (n0 := n) (n1 := d + d) (i 0) (Fin.natAdd d (i 1)))

/-- The network's twenty-six arrays: the two feature matrices, the four adjacency matrices, and per side the
    first layer's weights and bias, the two branches' weights and biases and the two union layers'. -/
structure Inputs where
  sx : (Mat 10000 128).Idx → EReal
  tx : (Mat 10000 128).Idx → EReal
  sUV : (Mat 10000 10000).Idx → EReal
  sVU : (Mat 10000 10000).Idx → EReal
  tUV : (Mat 10000 10000).Idx → EReal
  tVU : (Mat 10000 10000).Idx → EReal
  w1 : (Mat 128 128).Idx → EReal
  b1 : (Vc 128).Idx → EReal
  w3m : (Mat 128 128).Idx → EReal
  b3m : (Vc 128).Idx → EReal
  w3s : (Mat 128 128).Idx → EReal
  b3s : (Vc 128).Idx → EReal
  w2 : (Mat 128 128).Idx → EReal
  b2 : (Vc 128).Idx → EReal
  w4m : (Mat 128 128).Idx → EReal
  b4m : (Vc 128).Idx → EReal
  w4s : (Mat 128 128).Idx → EReal
  b4s : (Vc 128).Idx → EReal
  sumW : (Mat (128 + 128) 128).Idx → EReal
  sumB : (Vc 128).Idx → EReal
  ssdW : (Mat (128 + 128) 128).Idx → EReal
  ssdB : (Vc 128).Idx → EReal
  tumW : (Mat (128 + 128) 128).Idx → EReal
  tumB : (Vc 128).Idx → EReal
  tsdW : (Mat (128 + 128) 128).Idx → EReal
  tsdB : (Vc 128).Idx → EReal

namespace Inputs

variable (I : Inputs)

/-- The source side's first layer. -/
def sHo : (Mat 10000 128).Idx → EReal := layer I.sVU (matProd I.sx I.w1) I.b1
/-- The target side's first layer. -/
def tHo : (Mat 10000 128).Idx → EReal := layer I.tVU (matProd I.tx I.w2) I.b2

/-! ### The reference's arrangement -/

def sHm : (Mat 10000 128).Idx → EReal := layer I.sUV (matProd I.sHo I.w3m) I.b3m
def sHs : (Mat 10000 128).Idx → EReal := layer I.sUV (matProd I.sHo I.w3s) I.b3s
def tHm : (Mat 10000 128).Idx → EReal := layer I.tUV (matProd I.tHo I.w4m) I.b4m
def tHs : (Mat 10000 128).Idx → EReal := layer I.tUV (matProd I.tHo I.w4s) I.b4s

/-- The blended mean, as the reference arranges it. -/
def refMean : (Mat 10000 128).Idx → EReal :=
  fun i => half * union I.sHm I.sx I.sumW I.sumB i + half * union I.tHm I.tx I.tumW I.tumB i
/-- The blended log-deviation, as the reference arranges it. -/
def refLogstd : (Mat 10000 128).Idx → EReal :=
  fun i => half * union I.sHs I.sx I.ssdW I.ssdB i + half * union I.tHs I.tx I.tsdW I.tsdB i

/-! ### The kernel's arrangement -/

/-- The source side's two branches as ONE layer of twice the width. -/
def sHcat : (Mat 10000 (128 + 128)).Idx → EReal :=
  layer I.sUV (matProd I.sHo (catCols I.w3m I.w3s)) (catVec I.b3m I.b3s)
/-- The target side's two branches as one layer of twice the width. -/
def tHcat : (Mat 10000 (128 + 128)).Idx → EReal :=
  layer I.tUV (matProd I.tHo (catCols I.w4m I.w4s)) (catVec I.b4m I.b4s)

/-- The blended mean, as the kernel arranges it. -/
def kerMean : (Mat 10000 128).Idx → EReal :=
  fun i => (half * joinedProd (leftCols I.sHcat) I.sx I.sumW i + half * joinedProd (leftCols I.tHcat) I.tx I.tumW i)
    + (half * I.sumB (ix1 (n := 128) (i 1)) + half * I.tumB (ix1 (n := 128) (i 1)))
/-- The blended log-deviation, as the kernel arranges it. -/
def kerLogstd : (Mat 10000 128).Idx → EReal :=
  fun i => (half * joinedProd (rightCols I.sHcat) I.sx I.ssdW i + half * joinedProd (rightCols I.tHcat) I.tx I.tsdW i)
    + (half * I.ssdB (ix1 (n := 128) (i 1)) + half * I.tsdB (ix1 (n := 128) (i 1)))

end Inputs

end Cert.Gcn

end
-- ==== Proof.SpecTail.lean ====
/-
  The last kernel's arithmetic over whole arrays, and the pieces that relate it to the network's arrangement.

  The last kernel receives, per side, an adjacency matrix `A`, a wide support array `S` (two branches side by
  side), a wide bias as a matrix of one row, the top and the bottom halves of a union layer's weights, and the raw
  features, and the blended bias as a matrix of one row.  Its mean output is
  `(half · (L_s · Wm_s + X · Wb_s) + half · (L_t · Wm_t + Y · Wb_t)) + bm` with `L` the LEFT half of the columns of
  `leaky (A · S + b)`; its log-deviation output is the same with the RIGHT half.  Stated over any block of rows of
  the adjacency matrices and of the features, so that one grid point's block and the whole array are instances.
-/
import proofs.«174822_g77111842832928_cont_sun_m_99_16_alg».proof.Proof.Spec

noncomputable section

open scoped BigOperators

namespace Cert.Gcn

open Idealize.ShloMosaic Idealize.ShloMosaic.ValueIdx Cert.Linear

/-- The top `d` rows of a matrix of `d + d` rows. -/
def topRows {d e : Nat} (W : (Mat (d + d) e).Idx → EReal) : (Mat d e).Idx → EReal :=
  fun j => W (ix2 (n0 := d + d) (n1 := e) (Fin.castAdd d (j 0)) (j 1))

/-- The bottom `d` rows of a matrix of `d + d` rows. -/
def botRows {d e : Nat} (W : (Mat (d + d) e).Idx → EReal) : (Mat d e).Idx → EReal :=
  fun j => W (ix2 (n0 := d + d) (n1 := e) (Fin.natAdd d (j 0)) (j 1))

/-- The blend of two vectors with the weight one half each, as a matrix of one row. -/
def blendRow {d : Nat} (a b : (Vc d).Idx → EReal) : (Mat 1 d).Idx → EReal :=
  fun i => half * a (ix1 (n := d) (i 1)) + half * b (ix1 (n := d) (i 1))

/-- The last kernel's mean output over a block of `r` rows: the left halves of the two wide layers. -/
def tailLeft {r n d : Nat} (As At : (Mat r n).Idx → EReal) (Ss St : (Mat n (d + d)).Idx → EReal)
    (bs bt : (Mat 1 (d + d)).Idx → EReal) (Wms Wmt : (Mat d d).Idx → EReal) (X Y : (Mat r d).Idx → EReal)
    (Wbs Wbt : (Mat d d).Idx → EReal) (bm : (Mat 1 d).Idx → EReal) : (Mat r d).Idx → EReal :=
  fun i => (half * (matProd (leftCols (layerRow As Ss bs)) Wms i + matProd X Wbs i)
      + half * (matProd (leftCols (layerRow At St bt)) Wmt i + matProd Y Wbt i))
    + bm (ix2 (n0 := 1) (n1 := d) (0 : Fin 1) (i 1))

/-- The last kernel's log-deviation output over a block of `r` rows: the right halves of the two wide layers. -/
def tailRight {r n d : Nat} (As At : (Mat r n).Idx → EReal) (Ss St : (Mat n (d + d)).Idx → EReal)
    (bs bt : (Mat 1 (d + d)).Idx → EReal) (Wss Wst : (Mat d d).Idx → EReal) (X Y : (Mat r d).Idx → EReal)
    (Wbs Wbt : (Mat d d).Idx → EReal) (bm : (Mat 1 d).Idx → EReal) : (Mat r d).Idx → EReal :=
  fun i => (half * (matProd (rightCols (layerRow As Ss bs)) Wss i + matProd X Wbs i)
      + half * (matProd (rightCols (layerRow At St bt)) Wst i + matProd Y Wbt i))
    + bm (ix2 (n0 := 1) (n1 := d) (0 : Fin 1) (i 1))

end Cert.Gcn

end
-- ==== Proof.LibConcat2.lean ====
/-
  Two arrays of ONE shape laid side by side, read at an index.

  Joining `x0` and `x1` of shape `[R, C]` along the column axis gives an array of shape `[R, T]` (with `T = 2 · C`)
  whose entry at row `k` and column `n · C + j` (`n` = 0, 1 and `j < C`) is entry `(k, j)` of piece `n`. The index
  read is any index whose coordinates have those values. Each lemma is the general reading of a concatenation at the
  piece whose span holds the joined coordinate, with the extents before that piece summed: `0`, `C`.
-/
import Idealize.ShloMosaic.Lib.Pipeline.Value
import Idealize.ShloMosaic.Lib.ValueIdx

namespace Cert.Lib.Concat2

open Idealize.ShloMosaic Idealize.ShloMosaic.ValueIdx

variable {α : Type}

/-- A column in the FIRST piece's span: entry `(k, j)` of `x0`. -/
theorem cols_first {R C T : Nat} (x0 x1 : (⟨2, ![R, C]⟩ : Shape).Idx → α)
    (h : Shape.Concatenates (([⟨⟨2, ![R, C]⟩, x0⟩, ⟨⟨2, ![R, C]⟩, x1⟩] : List ((s : Shape) × (s.Idx → α))).map (·.1)) ⟨2, ![R, T]⟩ 1)
    (J : (⟨2, ![R, T]⟩ : Shape).Idx) (k : Fin R) (j : Fin C) (h0 : (J 0).val = k.val) (h1 : (J 1).val = j.val) :
    concatenate ⟨2, ![R, T]⟩ 1 [⟨⟨2, ![R, C]⟩, x0⟩, ⟨⟨2, ![R, C]⟩, x1⟩] h J = x0 (ix2 k j) :=
  concatenate_apply_piece 1 _ h J 0 (Nat.succ_le_succ (Nat.zero_le 1)) ⟨2, ![R, C]⟩ x0 rfl rfl 0 rfl (ix2 k j)
    (fun b hb => by
      match b with
      | ⟨0, _⟩ => exact h0.symm
      | ⟨1, _⟩ => exact absurd (Fin.ext rfl) hb)
    (by show 0 + j.val = (J 1).val; omega)

/-- A column in the SECOND piece's span: entry `(k, j)` of `x1`. -/
theorem cols_second {R C T : Nat} (x0 x1 : (⟨2, ![R, C]⟩ : Shape).Idx → α)
    (h : Shape.Concatenates (([⟨⟨2, ![R, C]⟩, x0⟩, ⟨⟨2, ![R, C]⟩, x1⟩] : List ((s : Shape) × (s.Idx → α))).map (·.1)) ⟨2, ![R, T]⟩ 1)
    (J : (⟨2, ![R, T]⟩ : Shape).Idx) (k : Fin R) (j : Fin C) (h0 : (J 0).val = k.val) (h1 : (J 1).val = C + j.val) :
    concatenate ⟨2, ![R, T]⟩ 1 [⟨⟨2, ![R, C]⟩, x0⟩, ⟨⟨2, ![R, C]⟩, x1⟩] h J = x1 (ix2 k j) :=
  concatenate_apply_piece 1 _ h J 1 (Nat.succ_le_succ (Nat.succ_le_succ (Nat.zero_le 0))) ⟨2, ![R, C]⟩ x1 rfl rfl C (by show C + 0 = C; omega) (ix2 k j)
    (fun b hb => by
      match b with
      | ⟨0, _⟩ => exact h0.symm
      | ⟨1, _⟩ => exact absurd (Fin.ext rfl) hb)
    (by show C + j.val = (J 1).val; omega)

end Cert.Lib.Concat2
-- ==== Proof.LibSelfLoop.lean ====
/-
  GENERAL LEMMAS: a graph convolution's self-loop combine, and a bias row added to every row, each written two ways.

  * `selfLoopMax A H D B z`: entry `(r, q)` is `max ((A (r, q) + H (r, q) · D (r, 0)) + B (0, q)) z` — an aggregated
    message matrix `A`, the node's own features `H` scaled by a per-row factor held as an `R × 1` column `D`, a
    `1 × K` bias row `B`, and the maximum with a constant `z`. `selfLoopMax_of_vector_ops` reads a kernel body's
    vector operations (each operand first cast to its own shape, the column and the row broadcast to the block) as it;
    `selfLoopMax_of_host_ops` reads the host's spelling (the column and a length-`K` bias vector spread by
    `broadcast_in_dim`, the constant splat) as it, at the vector reshaped to one row.
  * `rowBias A B`: entry `(r, q)` is `A (r, q) + B (0, q)`; `rowBias_of_vector_ops` and `rowBias_of_host_ops` read
    the two spellings of a bias added to every row.
  * `broadcastTo_a1_ab_apply`, `broadcastInDim_a1_ab_apply`, `broadcastInDim_b_1b_apply`,
    `broadcastInDim_1b_ab_apply`, `broadcastInDim_scalar_apply`: the layout forms these use, read at an index.

  Everything is over the extended reals with no finiteness hypothesis: the two spellings are the same expression entry
  by entry. Imports the library only.
-/
import Idealize.ShloMosaic.PureOps.Ideal.Laws
import Idealize.ShloMosaic.Lib.ValueIdx
import Idealize.ShloMosaic.Lib.ValueLayout
import Idealize.ShloMosaic.Lib.Pipeline.Value

noncomputable section

namespace Cert.SelfLoop

open Idealize.ShloMosaic Idealize.ShloMosaic.ValueIdx

/-- The shape of a matrix of `a` rows and `b` columns. -/
abbrev Mat (a b : Nat) : Shape := ⟨2, ![a, b]⟩
/-- The shape of a vector of `a` entries. -/
abbrev Vc (a : Nat) : Shape := ⟨1, ![a]⟩
/-- The shape of a scalar. -/
abbrev Sc : Shape := ⟨0, ![]⟩

variable {α : Type}

/-- An `[a, 1]` column broadcast to `[a, b]` reads, at `(p, q)`, the column's entry of row `p`. -/
theorem broadcastTo_a1_ab_apply {a b : ℕ} (v : (Mat a 1).Idx → α) (h : (Mat a 1).Broadcasts (Mat a b))
    (p : Fin a) (q : Fin b) : broadcastTo (Mat a b) v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a, 1]` column to `[a, b]` along both axes reads, at `(p, q)`, the column's
    entry of row `p`. -/
theorem broadcastInDim_a1_ab_apply {a b : ℕ} (v : (Mat a 1).Idx → α) (h : (Mat a 1).BroadcastsInDim (Mat a b) ![0, 1])
    (p : Fin a) (q : Fin b) : broadcastInDim (Mat a b) ![0, 1] h v (ix2 p q) = v (ix2 p (0 : Fin 1)) :=
  broadcastInDim_apply ![0, 1] h v (ix2 p q) (ix2 p (0 : Fin 1)) fun ax => by
    match ax with
    | ⟨0, _⟩ =>
      show p.val = if a = 1 then 0 else p.val
      split
      · have := p.isLt; omega
      · rfl
    | ⟨1, _⟩ => rfl

/-- The host's `broadcast_in_dim` of a length-`b` vector to one row `[1, b]` reads, at `(0, q)`, the vector at `q`. -/
theorem broadcastInDim_b_1b_apply {b : ℕ} (v : (Vc b).Idx → α) (h : (Vc b).BroadcastsInDim (Mat 1 b) ![1])
    (q : Fin b) : broadcastInDim (Mat 1 b) ![1] h v (ix2 (0 : Fin 1) q) = v (ix1 q) :=
  broadcastInDim_apply ![1] h v (ix2 (0 : Fin 1) q) (ix1 q) fun ax => by
    match ax with
    | ⟨0, _⟩ =>
      show q.val = if b = 1 then 0 else q.val
      split
      · have := q.isLt; omega
      · rfl

/-- The host's `broadcast_in_dim` of one row `[1, b]` to `[a, b]` along both axes reads, at `(p, q)`, the row at `q`. -/
theorem broadcastInDim_1b_ab_apply {a b : ℕ} (v : (Mat 1 b).Idx → α) (h : (Mat 1 b).BroadcastsInDim (Mat a b) ![0, 1])
    (p : Fin a) (q : Fin b) : broadcastInDim (Mat a b) ![0, 1] h v (ix2 p q) = v (ix2 (0 : Fin 1) q) :=
  broadcastInDim_apply ![0, 1] h v (ix2 p q) (ix2 (0 : Fin 1) q) fun ax => by
    match ax with
    | ⟨0, _⟩ => rfl
    | ⟨1, _⟩ =>
      show q.val = if b = 1 then 0 else q.val
      split
      · have := q.isLt; omega
      · rfl

/-- The host's splat of a scalar reads, at any index, the scalar. -/
theorem broadcastInDim_scalar_apply {t : Shape} (v : Sc.Idx → α) (h : Sc.BroadcastsInDim t ![]) (j : t.Idx) :
    broadcastInDim t ![] h v j = v ix0 :=
  broadcastInDim_apply ![] h v j ix0 fun ax => ax.elim0

/-! ## The self-loop combine -/

/-- `max ((A + H · D) + B) z`, entry by entry: `D` an `R × 1` column read at the entry's row, `B` a `1 × K` row
    read at the entry's column. -/
def selfLoopMax {R K : Nat} (A H : (Mat R K).Idx → EReal) (D : (Mat R 1).Idx → EReal) (B : (Mat 1 K).Idx → EReal) (z : EReal) :
    (Mat R K).Idx → EReal :=
  fun i => max ((A i + H i * D (ix2 (n0 := R) (n1 := 1) (i 0) 0)) + B (ix2 (n0 := 1) (n1 := K) 0 (i 1))) z

/-- A kernel body's vector operations `max ((a + h · broadcast d) + broadcast b) (splat z)` over `R × K` blocks `a`,
    `h`, an `R × 1` column `d` and a `1 × K` row `b` (each first cast to its own shape) are `selfLoopMax`. -/
theorem selfLoopMax_of_vector_ops {R K : Nat} (a h : FVec Ideal (Mat R K) .f32) (d : FVec Ideal (Mat R 1) .f32)
    (b : FVec Ideal (Mat 1 K) .f32) (z : Ideal .f32)
    (h1 : (Mat R K).ShapeCasts (Mat R K)) (h2 : (Mat R 1).ShapeCasts (Mat R 1)) (h3 : (Mat R 1).Broadcasts (Mat R K))
    (h4 : (Mat 1 K).ShapeCasts (Mat 1 K)) (h5 : (Mat 1 K).Broadcasts (Mat R K)) :
    maximumf (addf (addf (shapeCast (Mat R K) a h1)
        (mulf (shapeCast (Mat R K) h h1) (broadcastTo (Mat R K) (shapeCast (Mat R 1) d h2) h3)))
        (broadcastTo (Mat R K) (shapeCast (Mat 1 K) b h4) h5)) (broadcast (Mat R K) z)
      = selfLoopMax a h d b z := by
  rw [shapeCast_self, shapeCast_self, shapeCast_self, shapeCast_self]
  funext i
  obtain ⟨p, q, rfl⟩ : ∃ (p : Fin R) (q : Fin K), i = ix2 p q := ⟨i 0, i 1, eq_ix2 i⟩
  show max ((a (ix2 p q) + h (ix2 p q) * broadcastTo (Mat R K) d h3 (ix2 p q)) + broadcastTo (Mat R K) b h5 (ix2 p q)) z
    = max ((a (ix2 p q) + h (ix2 p q) * d (ix2 p (0 : Fin 1))) + b (ix2 (0 : Fin 1) q)) z
  rw [broadcastTo_a1_ab_apply d h3 p q, broadcastTo_1b_ab_apply b h5 p q]

/-- The host's spelling — the column spread over the columns and a length-`K` bias vector made a row and then `R` rows
    by `broadcast_in_dim`s, the sums, and the maximum with a splat constant — is `selfLoopMax` at the vector reshaped to
    one row. -/
theorem selfLoopMax_of_host_ops {R K : Nat} (A H : FVec Ideal (Mat R K) .f32) (D : FVec Ideal (Mat R 1) .f32)
    (b : FVec Ideal (Vc K) .f32) (zb : BitVec 32)
    (h1 : (Mat R 1).BroadcastsInDim (Mat R K) ![0, 1]) (h2 : (Vc K).BroadcastsInDim (Mat 1 K) ![1])
    (h3 : (Mat 1 K).BroadcastsInDim (Mat R K) ![0, 1]) (h4 : Sc.BroadcastsInDim (Mat R K) ![])
    (h5 : (Vc K).ShapeCasts (Mat 1 K)) :
    maximumf (addf (addf A (mulf H (broadcastInDim (Mat R K) ![0, 1] h1 D)))
        (broadcastInDim (Mat R K) ![0, 1] h3 (broadcastInDim (Mat 1 K) ![1] h2 b)))
        (broadcastInDim (Mat R K) ![] h4 (constant (F := Ideal) Sc .f32 zb))
      = selfLoopMax A H D (shapeCast (Mat 1 K) b h5) (Ideal.ofBits .f32 zb) := by
  funext i
  obtain ⟨p, q, rfl⟩ : ∃ (p : Fin R) (q : Fin K), i = ix2 p q := ⟨i 0, i 1, eq_ix2 i⟩
  show max ((A (ix2 p q) + H (ix2 p q) * broadcastInDim (Mat R K) ![0, 1] h1 D (ix2 p q))
        + broadcastInDim (Mat R K) ![0, 1] h3 (broadcastInDim (Mat 1 K) ![1] h2 b) (ix2 p q))
      (broadcastInDim (Mat R K) ![] h4 (constant (F := Ideal) Sc .f32 zb) (ix2 p q))
    = max ((A (ix2 p q) + H (ix2 p q) * D (ix2 p (0 : Fin 1))) + shapeCast (Mat 1 K) b h5 (ix2 (0 : Fin 1) q)) (Ideal.ofBits .f32 zb)
  rw [broadcastInDim_a1_ab_apply D h1 p q, broadcastInDim_1b_ab_apply _ h3 p q, broadcastInDim_b_1b_apply b h2 q,
    broadcastInDim_scalar_apply _ h4, shapeCast_a_1a_apply b h5 0 q]
  rfl

/-! ## A bias row added to every row -/

/-- `A + B`, the `1 × K` row `B` added to every row of `A`. -/
def rowBias {R K : Nat} (A : (Mat R K).Idx → EReal) (B : (Mat 1 K).Idx → EReal) : (Mat R K).Idx → EReal :=
  fun i => A i + B (ix2 (n0 := 1) (n1 := K) 0 (i 1))

/-- A kernel body's `x + broadcast b` over an `R × K` block and a `1 × K` row (cast twice to its own shape) is `rowBias`. -/
theorem rowBias_of_vector_ops {R K : Nat} (x : FVec Ideal (Mat R K) .f32) (b : FVec Ideal (Mat 1 K) .f32)
    (h1 h2 : (Mat 1 K).ShapeCasts (Mat 1 K)) (h3 : (Mat 1 K).Broadcasts (Mat R K)) :
    addf x (broadcastTo (Mat R K) (shapeCast (Mat 1 K) (shapeCast (Mat 1 K) b h1) h2) h3) = rowBias x b := by
  rw [shapeCast_self, shapeCast_self]
  funext i
  obtain ⟨p, q, rfl⟩ : ∃ (p : Fin R) (q : Fin K), i = ix2 p q := ⟨i 0, i 1, eq_ix2 i⟩
  show x (ix2 p q) + broadcastTo (Mat R K) b h3 (ix2 p q) = x (ix2 p q) + b (ix2 (0 : Fin 1) q)
  rw [broadcastTo_1b_ab_apply b h3 p q]

/-- The host's spelling — a length-`K` vector made a row and then `R` rows by two `broadcast_in_dim`s, added — is
    `rowBias` at the vector reshaped to one row. -/
theorem rowBias_of_host_ops {R K : Nat} (A : FVec Ideal (Mat R K) .f32) (b : FVec Ideal (Vc K) .f32)
    (h2 : (Vc K).BroadcastsInDim (Mat 1 K) ![1]) (h3 : (Mat 1 K).BroadcastsInDim (Mat R K) ![0, 1])
    (h5 : (Vc K).ShapeCasts (Mat 1 K)) :
    addf A (broadcastInDim (Mat R K) ![0, 1] h3 (broadcastInDim (Mat 1 K) ![1] h2 b))
      = rowBias A (shapeCast (Mat 1 K) b h5) := by
  funext i
  obtain ⟨p, q, rfl⟩ : ∃ (p : Fin R) (q : Fin K), i = ix2 p q := ⟨i 0, i 1, eq_ix2 i⟩
  show A (ix2 p q) + broadcastInDim (Mat R K) ![0, 1] h3 (broadcastInDim (Mat 1 K) ![1] h2 b) (ix2 p q)
    = A (ix2 p q) + shapeCast (Mat 1 K) b h5 (ix2 (0 : Fin 1) q)
  rw [broadcastInDim_1b_ab_apply _ h3 p q, broadcastInDim_b_1b_apply b h2 q, shapeCast_a_1a_apply b h5 0 q]

end Cert.SelfLoop

end
-- ==== Proof.KLayout.lean ====
/-
  The layout operations of the kernel program's host side, as the network's own pieces.

  Between its kernels the program only re-lays arrays: a bias vector becomes a matrix of one row, two weight
  matrices (two bias vectors) are laid side by side (end to end), a union layer's weight matrix is cut into its top
  and bottom halves, and two bias vectors are blended with the weight one half each and made a row.  Each is read
  here at an index, as the specification's function of the same name; nothing here needs the arrays finite.  Last,
  the kernel's arrangement of the network (`Inputs.kerMean`, `Inputs.kerLogstd`) is the last kernel's whole-array
  arithmetic (`tailLeft`, `tailRight`) at these pieces, by unfolding.
-/
import proofs.«174822_g77111842832928_cont_sun_m_99_16_alg».proof.Proof.Spec
import proofs.«174822_g77111842832928_cont_sun_m_99_16_alg».proof.Proof.SpecTail
import proofs.«174822_g77111842832928_cont_sun_m_99_16_alg».proof.Proof.LibConcat2
import proofs.«174822_g77111842832928_cont_sun_m_99_16_alg».proof.Proof.LibSelfLoop
import Idealize.ShloMosaic.Lib.ValueLayout
import Idealize.ShloMosaic.Lib.Pipeline.Value

noncomputable section

open scoped BigOperators

namespace Cert.Gcn

open Idealize.ShloMosaic Idealize.ShloMosaic.ValueIdx Cert.Linear

/-- A vector reshaped to a matrix of one row. -/
theorem shapeCast_eq_rowOf {e : Nat} (v : (Vc e).Idx → EReal) (h : (Vc e).ShapeCasts (Mat 1 e)) :
    shapeCast (Mat 1 e) v h = rowOf v := by
  funext i
  obtain ⟨u, q, rfl⟩ : ∃ (u : Fin 1) (q : Fin e), i = ix2 u q := ⟨i 0, i 1, eq_ix2 i⟩
  exact shapeCast_a_1a_apply v h u q

/-- Two matrices of one shape joined along the columns. -/
theorem concatenate_eq_catCols {r a : Nat} (X Y : (Mat r a).Idx → EReal)
    (h : Shape.Concatenates [Mat r a, Mat r a] (Mat r (a + a)) 1) :
    concatenate (Mat r (a + a)) 1 [⟨Mat r a, X⟩, ⟨Mat r a, Y⟩] h = catCols X Y := by
  funext i
  obtain ⟨p, j, rfl⟩ : ∃ (p : Fin r) (j : Fin (a + a)), i = ix2 p j := ⟨i 0, i 1, eq_ix2 i⟩
  refine Fin.addCases (fun k => ?_) (fun k => ?_) j
  · rw [Cert.Lib.Concat2.cols_first X Y h (ix2 p (Fin.castAdd a k)) p k rfl rfl]
    show X (ix2 p k) = Fin.addCases (fun k : Fin a => X (ix2 p k)) (fun k : Fin a => Y (ix2 p k)) (Fin.castAdd a k)
    rw [Fin.addCases_left]
  · rw [Cert.Lib.Concat2.cols_second X Y h (ix2 p (Fin.natAdd a k)) p k rfl rfl]
    show Y (ix2 p k) = Fin.addCases (fun k : Fin a => X (ix2 p k)) (fun k : Fin a => Y (ix2 p k)) (Fin.natAdd a k)
    rw [Fin.addCases_right]

/-- Two vectors of one length joined end to end. -/
theorem concatenate_eq_catVec {a : Nat} (x y : (Vc a).Idx → EReal)
    (h : Shape.Concatenates [Vc a, Vc a] (Vc (a + a)) 0) :
    concatenate (Vc (a + a)) 0 [⟨Vc a, x⟩, ⟨Vc a, y⟩] h = catVec x y := by
  funext i
  obtain ⟨j, rfl⟩ : ∃ j : Fin (a + a), i = ix1 j := ⟨i 0, eq_ix1 i⟩
  refine Fin.addCases (fun k => ?_) (fun k => ?_) j
  · rw [concatenate_pair_apply_left 0 x y h (ix1 (Fin.castAdd a k)) rfl (ix1 k)
      (fun b => by match b with | ⟨0, _⟩ => rfl)]
    show x (ix1 k) = Fin.addCases (fun k : Fin a => x (ix1 k)) (fun k : Fin a => y (ix1 k)) (Fin.castAdd a k)
    rw [Fin.addCases_left]
  · rw [concatenate_pair_apply_right 0 x y h (ix1 (Fin.natAdd a k)) rfl rfl (ix1 k)
      (fun b hb => by match b with | ⟨0, _⟩ => exact absurd rfl hb)
      (by show k.val + a = a + k.val; omega)]
    show y (ix1 k) = Fin.addCases (fun k : Fin a => x (ix1 k)) (fun k : Fin a => y (ix1 k)) (Fin.natAdd a k)
    rw [Fin.addCases_right]

/-- The first `d` rows of a matrix of `d + d` rows, cut out. -/
theorem slice_eq_topRows {d e : Nat} (W : (Mat (d + d) e).Idx → EReal)
    (h : (Mat (d + d) e).Slices ![0, 0] (Mat d e)) :
    extractStridedSlice (Mat d e) ![0, 0] W h = topRows W := by
  funext i
  obtain ⟨j, q, rfl⟩ : ∃ (j : Fin d) (q : Fin e), i = ix2 j q := ⟨i 0, i 1, eq_ix2 i⟩
  exact slice2_axis0_apply 0 W h j q (Fin.castAdd d j) (by show j.val = 0 + j.val; omega)

/-- The last `d` rows of a matrix of `d + d` rows, cut out. -/
theorem slice_eq_botRows {d e : Nat} (W : (Mat (d + d) e).Idx → EReal)
    (h : (Mat (d + d) e).Slices ![d, 0] (Mat d e)) :
    extractStridedSlice (Mat d e) ![d, 0] W h = botRows W := by
  funext i
  obtain ⟨j, q, rfl⟩ : ∃ (j : Fin d) (q : Fin e), i = ix2 j q := ⟨i 0, i 1, eq_ix2 i⟩
  exact slice2_axis0_apply d W h j q (Fin.natAdd d j) rfl

/-- Two vectors each multiplied by the splat of one half, added, and reshaped to one row. -/
theorem blend_eq_blendRow {d : Nat} (a b : (Vc d).Idx → EReal)
    (hb : (⟨0, ![]⟩ : Shape).BroadcastsInDim (Vc d) ![]) (hs : (Vc d).ShapeCasts (Mat 1 d)) :
    shapeCast (Mat 1 d)
        (addf (F := Ideal) (φ := .f32)
          (mulf (F := Ideal) (φ := .f32) (broadcastInDim (Vc d) ![] hb (constant (F := Ideal) (⟨0, ![]⟩ : Shape) .f32 0x3F000000#32)) a)
          (mulf (F := Ideal) (φ := .f32) (broadcastInDim (Vc d) ![] hb (constant (F := Ideal) (⟨0, ![]⟩ : Shape) .f32 0x3F000000#32)) b)) hs
      = blendRow a b := by
  rw [shapeCast_eq_rowOf]
  funext i
  show (broadcastInDim (Vc d) ![] hb (constant (F := Ideal) (⟨0, ![]⟩ : Shape) .f32 0x3F000000#32)) (ix1 (i 1)) * a (ix1 (i 1))
      + (broadcastInDim (Vc d) ![] hb (constant (F := Ideal) (⟨0, ![]⟩ : Shape) .f32 0x3F000000#32)) (ix1 (i 1)) * b (ix1 (i 1))
    = half * a (ix1 (i 1)) + half * b (ix1 (i 1))
  rw [Cert.SelfLoop.broadcastInDim_scalar_apply]
  rfl

/-- A layer whose bias is given as a vector is the layer over the bias as a matrix of one row. -/
theorem layer_eq_layerRow {n e : Nat} (A : (Mat n n).Idx → EReal) (S : (Mat n e).Idx → EReal) (b : (Vc e).Idx → EReal) :
    layer A S b = layerRow A S (rowOf b) := rfl

namespace Inputs

variable (I : Inputs)

/-- The kernel's arrangement of the mean is the last kernel's arithmetic over the whole arrays. -/
theorem kerMean_eq_tailLeft :
    I.kerMean = tailLeft I.sUV I.tUV (matProd I.sHo (catCols I.w3m I.w3s)) (matProd I.tHo (catCols I.w4m I.w4s))
      (rowOf (catVec I.b3m I.b3s)) (rowOf (catVec I.b4m I.b4s)) (topRows I.sumW) (topRows I.tumW) I.sx I.tx
      (botRows I.sumW) (botRows I.tumW) (blendRow I.sumB I.tumB) := rfl

/-- The kernel's arrangement of the log-deviation is the last kernel's arithmetic over the whole arrays. -/
theorem kerLogstd_eq_tailRight :
    I.kerLogstd = tailRight I.sUV I.tUV (matProd I.sHo (catCols I.w3m I.w3s)) (matProd I.tHo (catCols I.w4m I.w4s))
      (rowOf (catVec I.b3m I.b3s)) (rowOf (catVec I.b4m I.b4s)) (topRows I.ssdW) (topRows I.tsdW) I.sx I.tx
      (botRows I.ssdW) (botRows I.tsdW) (blendRow I.ssdB I.tsdB) := rfl

/-- The first layers, with the bias as a matrix of one row. -/
theorem sHo_eq : I.sHo = layerRow I.sVU (matProd I.sx I.w1) (rowOf I.b1) := rfl
theorem tHo_eq : I.tHo = layerRow I.tVU (matProd I.tx I.w2) (rowOf I.b2) := rfl

end Inputs

end Cert.Gcn

end
-- ==== Proof.KStretch.lean ====
/-
  What the host operations between the kernel regions write, as the network's own pieces.

  For any contents `W` of the buffers before a stretch of host operations, each buffer a region later reads holds,
  after the stretch: a weight matrix unchanged (a change of float format is the identity on the extended reals); two
  weight matrices laid side by side; a bias vector as a matrix of one row; two bias vectors laid end to end, as a
  row; the top or bottom half of a union layer's weights; two bias vectors blended with the weight one half each, as
  a row.  The operations are read off the stretch one at a time and the layout lemmas name the result.
-/
import proofs.«174822_g77111842832928_cont_sun_m_99_16_alg».proof.Proof.Gen.KernelIdeal.Frame
import proofs.«174822_g77111842832928_cont_sun_m_99_16_alg».proof.Proof.KLayout

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo
open Cert.Gcn Cert.Linear

variable (W : Valuation τ sig (Elt Ideal))

/-! ## Before the first region: the two first-layer weight matrices -/

theorem s0_v0 : after (hostOps0 (F := Ideal)) W (Proc.devRef .tc main_v0) = (W (Proc.devRef .tc main_arg6)) := by
  after_results
  rfl

theorem s0_v1 : after (hostOps0 (F := Ideal)) W (Proc.devRef .tc main_v1) = (W (Proc.devRef .tc main_arg12)) := by
  after_results
  rfl

/-! ## Before the second region: the joined branch weights and the first layers' biases as rows -/

theorem s1_v4 : after (hostOps1 (F := Ideal)) W (Proc.devRef .tc main_v4) = catCols (W (Proc.devRef .tc main_arg8)) (W (Proc.devRef .tc main_arg10)) := by
  after_results
  exact concatenate_eq_catCols (r := 128) (a := 128) _ _ concatenates_S128x128_S128x128_S128x256_d1

theorem s1_v6 : after (hostOps1 (F := Ideal)) W (Proc.devRef .tc main_v6) = catCols (W (Proc.devRef .tc main_arg14)) (W (Proc.devRef .tc main_arg16)) := by
  after_results
  exact concatenate_eq_catCols (r := 128) (a := 128) _ _ concatenates_S128x128_S128x128_S128x256_d1

theorem s1_v7 : after (hostOps1 (F := Ideal)) W (Proc.devRef .tc main_v7) = rowOf (W (Proc.devRef .tc main_arg7)) := by
  after_results
  exact shapeCast_eq_rowOf _ _

theorem s1_v8 : after (hostOps1 (F := Ideal)) W (Proc.devRef .tc main_v8) = rowOf (W (Proc.devRef .tc main_arg13)) := by
  after_results
  exact shapeCast_eq_rowOf _ _

/-! ## Before the third region: the joined branch biases, the blended biases, the union weights' halves -/

set_option maxHeartbeats 4000000 in
theorem s2_v11 : after (hostOps2 (F := Ideal)) W (Proc.devRef .tc main_v11) = rowOf (catVec (W (Proc.devRef .tc main_arg9)) (W (Proc.devRef .tc main_arg11))) := by
  after_results
  exact (shapeCast_eq_rowOf (e := 128 + 128) _ shapeCasts_S256_S1x256).trans (congrArg rowOf (concatenate_eq_catVec (a := 128) _ _ concatenates_S128_S128_S256_d0))

set_option maxHeartbeats 4000000 in
theorem s2_v13 : after (hostOps2 (F := Ideal)) W (Proc.devRef .tc main_v13) = rowOf (catVec (W (Proc.devRef .tc main_arg15)) (W (Proc.devRef .tc main_arg17))) := by
  after_results
  exact (shapeCast_eq_rowOf (e := 128 + 128) _ shapeCasts_S256_S1x256).trans (congrArg rowOf (concatenate_eq_catVec (a := 128) _ _ concatenates_S128_S128_S256_d0))

set_option maxHeartbeats 4000000 in
theorem s2_v19 : after (hostOps2 (F := Ideal)) W (Proc.devRef .tc main_v19) = blendRow (W (Proc.devRef .tc main_arg19)) (W (Proc.devRef .tc main_arg23)) := by
  after_results
  exact blend_eq_blendRow (d := 128) _ _ _ _

set_option maxHeartbeats 4000000 in
theorem s2_v25 : after (hostOps2 (F := Ideal)) W (Proc.devRef .tc main_v25) = blendRow (W (Proc.devRef .tc main_arg21)) (W (Proc.devRef .tc main_arg25)) := by
  after_results
  exact blend_eq_blendRow (d := 128) _ _ _ _

set_option maxHeartbeats 4000000 in
theorem s2_v27 : after (hostOps2 (F := Ideal)) W (Proc.devRef .tc main_v27) = topRows (d := 128) (W (Proc.devRef .tc main_arg18)) := by
  after_results
  exact slice_eq_topRows (d := 128) (e := 128) _ slices_S256x128_S128x128_0_0

set_option maxHeartbeats 4000000 in
theorem s2_v29 : after (hostOps2 (F := Ideal)) W (Proc.devRef .tc main_v29) = topRows (d := 128) (W (Proc.devRef .tc main_arg20)) := by
  after_results
  exact slice_eq_topRows (d := 128) (e := 128) _ slices_S256x128_S128x128_0_0

set_option maxHeartbeats 4000000 in
theorem s2_v31 : after (hostOps2 (F := Ideal)) W (Proc.devRef .tc main_v31) = topRows (d := 128) (W (Proc.devRef .tc main_arg22)) := by
  after_results
  exact slice_eq_topRows (d := 128) (e := 128) _ slices_S256x128_S128x128_0_0

set_option maxHeartbeats 4000000 in
theorem s2_v33 : after (hostOps2 (F := Ideal)) W (Proc.devRef .tc main_v33) = topRows (d := 128) (W (Proc.devRef .tc main_arg24)) := by
  after_results
  exact slice_eq_topRows (d := 128) (e := 128) _ slices_S256x128_S128x128_0_0

set_option maxHeartbeats 4000000 in
theorem s2_v35 : after (hostOps2 (F := Ideal)) W (Proc.devRef .tc main_v35) = botRows (d := 128) (W (Proc.devRef .tc main_arg18)) := by
  after_results
  exact slice_eq_botRows (d := 128) (e := 128) _ slices_S256x128_S128x128_128_0

set_option maxHeartbeats 4000000 in
theorem s2_v37 : after (hostOps2 (F := Ideal)) W (Proc.devRef .tc main_v37) = botRows (d := 128) (W (Proc.devRef .tc main_arg22)) := by
  after_results
  exact slice_eq_botRows (d := 128) (e := 128) _ slices_S256x128_S128x128_128_0

set_option maxHeartbeats 4000000 in
theorem s2_v39 : after (hostOps2 (F := Ideal)) W (Proc.devRef .tc main_v39) = botRows (d := 128) (W (Proc.devRef .tc main_arg20)) := by
  after_results
  exact slice_eq_botRows (d := 128) (e := 128) _ slices_S256x128_S128x128_128_0

set_option maxHeartbeats 4000000 in
theorem s2_v41 : after (hostOps2 (F := Ideal)) W (Proc.devRef .tc main_v41) = botRows (d := 128) (W (Proc.devRef .tc main_arg24)) := by
  after_results
  exact slice_eq_botRows (d := 128) (e := 128) _ slices_S256x128_S128x128_128_0

end Cert.KernelIdeal.KValue

end
-- ==== Proof.LibDotLists.lean ====
/-
  GENERAL LEMMA: a dimension record whose axis lists are those of a plain matrix product contracts the left operand's
  columns with the right operand's rows.

  A dimension record for `[R,K] × [K,N] → [R,N]` carries six lists of axes. When they are the plain product's — the left
  operand's axis 1 contracted with the right operand's axis 0, the left operand's axis 0 and the right operand's axis 1
  kept in this order, no batch axis — the record reads, at result index `i` and contraction index `q`, the left
  operand at `(i 0, q)` and the right operand at `(q, i 1)`: the four coordinate equations (`Contracts`) under which a
  matrix unit's product into a zero accumulator and the host's `dot_general` are both the plain sum of products
  `matProd`. A record written out with literal lists meets the six hypotheses by `rfl`.
-/
import proofs.«174822_g77111842832928_cont_sun_m_99_16_alg».proof.Proof.LibMatProd
import Idealize.ShloMosaic.Lib.Pipeline.Value
import Idealize.ShloMosaic.Lib.ValueIdx

noncomputable section

namespace Cert.Linear

open Idealize.ShloMosaic Idealize.ShloMosaic.ValueIdx

/-- A dimension record whose axis lists are those of a plain product — the left operand's columns contracted with the
    right operand's rows, the left operand's rows and the right operand's columns kept in this order, no batch axis —
    reads its operands at `(i 0, q)` and `(q, i 1)`. -/
theorem contracts_of_lists {R K N : Nat} (d : DotDims (Mat R K) (Mat K N) (Mat R N))
    (h1 : d.lhsContracting = [1]) (h2 : d.rhsContracting = [0]) (h3 : d.lhsNonContracting = [0])
    (h4 : d.rhsNonContracting = [1]) (h5 : d.lhsBatch = []) (h6 : d.rhsBatch = []) : Contracts d where
  rank := by rw [d.rank_contr, h1]; rfl
  size := by
    rw [d.size_contr 0 (by rw [h1]; exact Nat.one_pos), List.getElem_of_eq h1]
    rfl
  lhs0 := fun i q => by
    unfold DotDims.lhsIdx
    rw [dif_neg (by rw [h5]; exact List.not_mem_nil), dif_pos (by rw [h3]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3])
  lhs1 := fun i q => d.lhsIdx_val_of_single h1 i q
  rhs0 := fun i q => d.rhsIdx_val_of_single h2 i q
  rhs1 := fun i q => by
    unfold DotDims.rhsIdx
    rw [dif_neg (by rw [h6]; exact List.not_mem_nil), dif_pos (by rw [h4]; exact List.mem_singleton.mpr rfl)]
    simp only [Fin.val_cast]
    have key : ∀ (p r : Nat) (hp : p < (Mat R N).rank) (hr : r < (Mat R N).rank), p = r → (i ⟨p, hp⟩).val = (i ⟨r, hr⟩).val :=
      fun p r hp hr h => by subst h; rfl
    exact key _ _ _ _ (by simp [h5, h3, h4])

end Cert.Linear

end
-- ==== Proof.LibRowBlock.lean ====
/-
  GENERAL LEMMAS: a matrix product read one block of rows at a time, and a row vector added to every row.

  * `matProd_of_rows`: entry `j` of `x · w` is entry `i` of `X · W` as soon as row `j 0` of `x` is row `i 0` of `X` and
    column `j 1` of `w` is column `i 1` of `W` — what a kernel that multiplies a block of rows at each grid point
    needs against ONE whole product (a row of a product depends on that row of the left operand only).
  * `rowBiasMax`: a `1 × K` row added to every row of an `R × K` matrix, then the maximum with a constant, entry by
    entry; `rowBiasMax_of_vector_ops` reads the vector operations `max (x + broadcast b) (splat z)` as it, and
    `rowBiasMax_of_host_ops` reads the host's two `broadcast_in_dim`s of a length-`K` vector as it (at the vector
    reshaped to one row).

  Everything is over the extended reals with no finiteness hypothesis. Imports the library and `LibMatProd.lean`.
-/
import proofs.«174822_g77111842832928_cont_sun_m_99_16_alg».proof.Proof.LibMatProd
import Idealize.ShloMosaic.Lib.ValueLayout
import Idealize.ShloMosaic.Lib.Pipeline.Value

noncomputable section

open scoped BigOperators

namespace Cert.Linear

open Idealize.ShloMosaic Idealize.ShloMosaic.ValueIdx

/-- Entry `j` of `x · w` is entry `i` of `X · W` when row `j 0` of `x` is row `i 0` of `X` and column `j 1` of `w` is
    column `i 1` of `W`. -/
theorem matProd_of_rows {R r K N n : Nat} (X : (Mat R K).Idx → EReal) (W : (Mat K N).Idx → EReal)
    (x : (Mat r K).Idx → EReal) (w : (Mat K n).Idx → EReal) (j : (Mat r n).Idx) (i : (Mat R N).Idx)
    (hx : ∀ k : Fin K, x (ix2 (n0 := r) (n1 := K) (j 0) k) = X (ix2 (n0 := R) (n1 := K) (i 0) k))
    (hw : ∀ k : Fin K, w (ix2 (n0 := K) (n1 := n) k (j 1)) = W (ix2 (n0 := K) (n1 := N) k (i 1))) :
    matProd x w j = matProd X W i := by
  unfold matProd
  exact Finset.sum_congr rfl fun k _ => by rw [hx k, hw k]

/-- A `1 × K` row `B` added to every row of `A`, then the maximum with `z`. -/
def rowBiasMax {R K : Nat} (A : (Mat R K).Idx → EReal) (B : (Mat 1 K).Idx → EReal) (z : EReal) : (Mat R K).Idx → EReal :=
  fun i => max (A i + B (ix2 (n0 := 1) (n1 := K) 0 (i 1))) z

/-- The vector operations `max (x + broadcast b) (splat z)` over an `R × K` block `x` and a `1 × K` row `b` (each first
    cast to its own shape, as a kernel body spells a broadcasting add) are `rowBiasMax x b z`. -/
theorem rowBiasMax_of_vector_ops {R K : Nat} (x : FVec Ideal (Mat R K) .f32) (b : FVec Ideal (Mat 1 K) .f32) (z : Ideal .f32)
    (h1 : (Mat R K).ShapeCasts (Mat R K)) (h2 : (Mat 1 K).ShapeCasts (Mat 1 K)) (h3 : (Mat 1 K).Broadcasts (Mat R K)) :
    maximumf (addf (shapeCast (Mat R K) x h1) (broadcastTo (Mat R K) (shapeCast (Mat 1 K) b h2) h3)) (broadcast (Mat R K) z)
      = rowBiasMax x b z := by
  rw [shapeCast_self, shapeCast_self]
  funext i
  obtain ⟨p, q, rfl⟩ : ∃ (p : Fin R) (q : Fin K), i = ix2 p q := ⟨i 0, i 1, eq_ix2 i⟩
  show max (x (ix2 p q) + broadcastTo (Mat R K) b h3 (ix2 p q)) z = max (x (ix2 p q) + b (ix2 (0 : Fin 1) q)) z
  rw [broadcastTo_1b_ab_apply b h3 p q]

/-- The host's spelling — a length-`K` vector made a row and then `R` rows by two `broadcast_in_dim`s, added, and the
    maximum with a splat constant — is `rowBiasMax` at the vector reshaped to one row. -/
theorem rowBiasMax_of_host_ops {R K : Nat} (A : FVec Ideal (Mat R K) .f32) (b : FVec Ideal (⟨1, ![K]⟩ : Shape) .f32) (zb : BitVec 32)
    (h1 : (⟨1, ![K]⟩ : Shape).BroadcastsInDim (Mat 1 K) ![1]) (h2 : (Mat 1 K).BroadcastsInDim (Mat R K) ![0, 1])
    (h3 : (⟨0, ![]⟩ : Shape).BroadcastsInDim (Mat R K) ![]) (h4 : (⟨1, ![K]⟩ : Shape).ShapeCasts (Mat 1 K)) :
    maximumf (addf A (broadcastInDim (Mat R K) ![0, 1] h2 (broadcastInDim (Mat 1 K) ![1] h1 b)))
        (broadcastInDim (Mat R K) ![] h3 (constant (F := Ideal) (⟨0, ![]⟩ : Shape) .f32 zb))
      = rowBiasMax A (shapeCast (Mat 1 K) b h4) (Ideal.ofBits .f32 zb) := by
  funext i
  obtain ⟨p, q, rfl⟩ : ∃ (p : Fin R) (q : Fin K), i = ix2 p q := ⟨i 0, i 1, eq_ix2 i⟩
  have e2 : broadcastInDim (Mat R K) ![0, 1] h2 (broadcastInDim (Mat 1 K) ![1] h1 b) (ix2 p q)
      = broadcastInDim (Mat 1 K) ![1] h1 b (ix2 (0 : Fin 1) q) :=
    broadcastInDim_apply ![0, 1] h2 _ (ix2 p q) (ix2 (0 : Fin 1) q) fun a => by
      match a with
      | ⟨0, _⟩ => rfl
      | ⟨1, _⟩ =>
        show q.val = if K = 1 then 0 else q.val
        split
        · have := q.isLt; omega
        · rfl
  have e1 : broadcastInDim (Mat 1 K) ![1] h1 b (ix2 (0 : Fin 1) q) = b (ix1 q) :=
    broadcastInDim_apply ![1] h1 b (ix2 (0 : Fin 1) q) (ix1 q) fun a => by
      match a with
      | ⟨0, _⟩ =>
        show q.val = if K = 1 then 0 else q.val
        split
        · have := q.isLt; omega
        · rfl
  have e3 : broadcastInDim (Mat R K) ![] h3 (constant (F := Ideal) (⟨0, ![]⟩ : Shape) .f32 zb) (ix2 p q) = Ideal.ofBits .f32 zb :=
    broadcastInDim_apply ![] h3 _ (ix2 p q) ix0 fun a => a.elim0
  show max (A (ix2 p q) + broadcastInDim (Mat R K) ![0, 1] h2 (broadcastInDim (Mat 1 K) ![1] h1 b) (ix2 p q))
      (broadcastInDim (Mat R K) ![] h3 (constant (F := Ideal) (⟨0, ![]⟩ : Shape) .f32 zb) (ix2 p q))
    = max (A (ix2 p q) + shapeCast (Mat 1 K) b h4 (ix2 (0 : Fin 1) q)) (Ideal.ofBits .f32 zb)
  rw [e2, e1, e3, shapeCast_a_1a_apply b h4 0 q]

end Cert.Linear

end
-- ==== Proof.Payload0.lean ====
/-
  The first kernel body's payloads, read at the ideal values, as matrix products.

  The body stores `x · w` twice: a block of 2000 rows of a feature matrix times 128 × 128 weights. The changes of
  float format are the identity on the extended reals, the cast of a shape to itself is the identity, and the matrix
  unit's product accumulated into a zero splat is the plain sum of products `matProd`. The block-to-array step is
  here too, over variables: an entry of the block's product is the entry of the whole product in the same row of the
  whole left operand, since a row of a product depends on that row of the left operand only.
-/
import proofs.«174822_g77111842832928_cont_sun_m_99_16_alg».proof.Proof.Gen.KernelIdeal.Skeleton
import proofs.«174822_g77111842832928_cont_sun_m_99_16_alg».proof.Proof.Spec
import proofs.«174822_g77111842832928_cont_sun_m_99_16_alg».proof.Proof.LibMatProd
import proofs.«174822_g77111842832928_cont_sun_m_99_16_alg».proof.Proof.LibDotLists
import proofs.«174822_g77111842832928_cont_sun_m_99_16_alg».proof.Proof.LibRowBlock
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Idealize.ShloMosaic Idealize.ShloMosaic.ValueIdx Cert.Linear Cert.Gcn

/-- The 2000 × 128 by 128 × 128 record contracts the left operand's columns with the right operand's rows. -/
theorem contracts0 : Contracts dot_S2000x128_S128x128_S2000x128_1_0_0_1_n_n :=
  contracts_of_lists _ rfl rfl rfl rfl rfl rfl

/-- First output: the stored block is `x · w`. -/
theorem pay0_1 (x : Vec Ideal S2000x128 .f32) (w : Vec Ideal S128x128 .bf16) :
    k0_pay1 (F := Ideal) x w = matProd x w := by
  unfold k0_pay1
  rw [shapeCast_self]
  exact matmul_zero_eq (φ₁ := .bf16) (φ₂ := .bf16) contracts0 none x w

/-- Second output: the stored block is `x · w`. -/
theorem pay0_2 (x : Vec Ideal S2000x128 .f32) (w : Vec Ideal S128x128 .bf16) :
    k0_pay2 (F := Ideal) x w = matProd x w := by
  unfold k0_pay2
  rw [shapeCast_self]
  exact matmul_zero_eq (φ₁ := .bf16) (φ₂ := .bf16) contracts0 none x w

/-- Entry `j` of the first stored block is entry `i` of the whole product `X · W` when row `j 0` of the block `x` is
    row `i 0` of `X` and column `j 1` of `w` is column `i 1` of `W`. -/
theorem pay0_1_entry (X : (Mat 10000 128).Idx → EReal) (W : (Mat 128 128).Idx → EReal)
    (x : Vec Ideal S2000x128 .f32) (w : Vec Ideal S128x128 .bf16) (j : S2000x128.Idx) (i : S10000x128.Idx)
    (hx : ∀ k : Fin 128, x (ix2 (n0 := 2000) (n1 := 128) (j 0) k) = X (ix2 (n0 := 10000) (n1 := 128) (i 0) k))
    (hw : ∀ k : Fin 128, w (ix2 (n0 := 128) (n1 := 128) k (j 1)) = W (ix2 (n0 := 128) (n1 := 128) k (i 1))) :
    k0_pay1 (F := Ideal) x w j = matProd X W i := by
  rw [pay0_1]
  exact matProd_of_rows X W x w j i hx hw

/-- The same for the second stored block. -/
theorem pay0_2_entry (X : (Mat 10000 128).Idx → EReal) (W : (Mat 128 128).Idx → EReal)
    (x : Vec Ideal S2000x128 .f32) (w : Vec Ideal S128x128 .bf16) (j : S2000x128.Idx) (i : S10000x128.Idx)
    (hx : ∀ k : Fin 128, x (ix2 (n0 := 2000) (n1 := 128) (j 0) k) = X (ix2 (n0 := 10000) (n1 := 128) (i 0) k))
    (hw : ∀ k : Fin 128, w (ix2 (n0 := 128) (n1 := 128) k (j 1)) = W (ix2 (n0 := 128) (n1 := 128) k (i 1))) :
    k0_pay2 (F := Ideal) x w j = matProd X W i := by
  rw [pay0_2]
  exact matProd_of_rows X W x w j i hx hw

end Cert.KernelIdeal.KValue

end
-- ==== Proof.Region0.lean ====
/-
  The first region's two output arrays, after the region, as whole-array functions of the buffers the region finds.

  At grid point `t` the body stores, into the output window's block, the product of the input window's block — rows
  `2000 t … 2000 t + 1999` of the feature matrix — with the whole 128 × 128 weights. A row of a product depends on
  that row of the left operand only, so this block is rows `2000 t …` of the product of the WHOLE feature matrix with
  the weights; the five blocks tile the 10000 rows, so the array ends holding that product.
-/
import proofs.«174822_g77111842832928_cont_sun_m_99_16_alg».proof.Proof.Gen.KernelIdeal.Frame
import proofs.«174822_g77111842832928_cont_sun_m_99_16_alg».proof.Proof.Payload0
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx Cert.Linear
open Idealize.ShloMosaic.Pipeline (Dat)

variable (V : (c : Dev nD) → (b : Ref sig .tc) → Buf (Elt Ideal) ((c : Thread nD τ).loc b))

/-- The zero offsets of a whole-buffer access, as a constant function. -/
theorem zero_off0 : (![0, 0] : Fin 2 → Nat) = fun _ => 0 := funext fun a => by fin_cases a <;> rfl

/-- The index maps over the five grid points: a feature window and its output window sit at row block `t`, column
    block 0; the weights' window is the whole array. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## Output window 4: `main_arg0 · main_v0` -/

/-- What point `t` writes back is block `t` of the whole product. -/
theorem flushed0_4_eq (c : Dev nD) (t : Fin cfg0.N) :
    (dat0 (F := Ideal) V c).flushed 4 t
      = ((cfg0.win 4).blk t).view.read (Elt Ideal)
          (matProd (V c main_arg0 : (Mat 10000 128).Idx → EReal) (V c main_v0 : (Mat 128 128).Idx → EReal)) := by
  show (cfg0.win 4).cut (grid0.coords t) ((dat0 V c).after 4 t) = _
  rw [after0_4]
  unfold out0_4
  rw [View.canon_unit_zero zero_off0]
  simp only [View.ld_unit_zero (S := S2000x128) zero_off0, View.ld_unit_zero (S := S128x128) zero_off0]
  obtain ⟨e00, e01, -, -, e20, e21, -, -, e40, e41, -, -⟩ := idx_facts0 t
  funext j
  show k0_pay1 (F := Ideal) (iblk0 V c 0 t) (iblk0 V c 2 t) j
    = matProd (V c main_arg0 : (Mat 10000 128).Idx → EReal) (V c main_v0 : (Mat 128 128).Idx → EReal) (((cfg0.win 4).blk t).view.emb j)
  refine pay0_1_entry (V c main_arg0) (V c main_v0) (iblk0 V c 0 t) (iblk0 V c 2 t) j (((cfg0.win 4).blk t).view.emb j) (fun k => ?_) (fun k => ?_)
  · show V c main_arg0 (((cfg0.win 0).blk t).view.emb (ix2 (n0 := 2000) (n1 := 128) (j 0) k)) = _
    congr 1
    funext a; apply Fin.ext
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 128 + 1 * k.val = k.val; omega
  · show V c main_v0 (((cfg0.win 2).blk t).view.emb (ix2 (n0 := 128) (n1 := 128) k (j 1))) = _
    congr 1
    funext a; apply Fin.ext
    match a with
    | ⟨0, _⟩ => show win0_2.index t (0 : Fin 2) * 128 + 1 * k.val = k.val; omega
    | ⟨1, _⟩ => show win0_2.index t (1 : Fin 2) * 128 + 1 * (j 1).val = win0_4.index t (1 : Fin 2) * 128 + 1 * (j 1).val; omega

/-- An index of the array is in point `t`'s block iff each coordinate is in the block's range on its axis. -/
theorem mem_blk0_4 (t : Fin cfg0.N) (i : S10000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v2_0).slice (win0_4.rect t)).set ↔ _
  rw [View.set_slice_whole, Rect.mem_set_unit]
  exact Iff.rfl

/-- Row `r` of the array is in the block of point `r / 2000`. -/
theorem covered0_4 (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hN : grid0.N = 5 := N_0
  have ht : (i 0).val / 2000 < cfg0.N := by show (i 0).val / 2000 < grid0.N; rw [hN]; omega
  obtain ⟨-, -, -, -, -, -, -, -, e40, e41, -, -⟩ := idx_facts0 ⟨(i 0).val / 2000, ht⟩
  have e40' : win0_4.index ⟨(i 0).val / 2000, ht⟩ (0 : Fin 2) = (i 0).val / 2000 := e40
  refine ⟨⟨(i 0).val / 2000, ht⟩, flush0_4 _, ?_⟩
  rw [mem_blk0_4]
  intro a
  match a with
  | ⟨0, _⟩ => show win0_4.index ⟨(i 0).val / 2000, ht⟩ (0 : Fin 2) * 2000 ≤ (i 0).val ∧ (i 0).val < win0_4.index ⟨(i 0).val / 2000, ht⟩ (0 : Fin 2) * 2000 + 2000; omega
  | ⟨1, _⟩ => show win0_4.index ⟨(i 0).val / 2000, ht⟩ (1 : Fin 2) * 128 ≤ (i 1).val ∧ (i 1).val < win0_4.index ⟨(i 0).val / 2000, ht⟩ (1 : Fin 2) * 128 + 128; omega

/-- The first output array after the region is the product of the first feature matrix with the first weights. -/
theorem arr0_4 (c : Dev nD) : (dat0 (F := Ideal) V c).arrAt 4 cfg0.N
    = matProd (V c main_arg0 : (Mat 10000 128).Idx → EReal) (V c main_v0 : (Mat 128 128).Idx → EReal) :=
  (dat0 (F := Ideal) V c).arrAt_eq_of_cover 4 _ (fun t _ => flushed0_4_eq V c t) covered0_4

/-! ## Output window 5: `main_arg1 · main_v1` -/

/-- What point `t` writes back is block `t` of the whole product. -/
theorem flushed0_5_eq (c : Dev nD) (t : Fin cfg0.N) :
    (dat0 (F := Ideal) V c).flushed 5 t
      = ((cfg0.win 5).blk t).view.read (Elt Ideal)
          (matProd (V c main_arg1 : (Mat 10000 128).Idx → EReal) (V c main_v1 : (Mat 128 128).Idx → EReal)) := by
  show (cfg0.win 5).cut (grid0.coords t) ((dat0 V c).after 5 t) = _
  rw [after0_5]
  unfold out0_5
  rw [View.canon_unit_zero zero_off0]
  simp only [View.ld_unit_zero (S := S2000x128) zero_off0, View.ld_unit_zero (S := S128x128) zero_off0]
  obtain ⟨-, -, e00, e01, -, -, e20, e21, -, -, e40, e41⟩ := idx_facts0 t
  funext j
  show k0_pay2 (F := Ideal) (iblk0 V c 1 t) (iblk0 V c 3 t) j
    = matProd (V c main_arg1 : (Mat 10000 128).Idx → EReal) (V c main_v1 : (Mat 128 128).Idx → EReal) (((cfg0.win 5).blk t).view.emb j)
  refine pay0_2_entry (V c main_arg1) (V c main_v1) (iblk0 V c 1 t) (iblk0 V c 3 t) j (((cfg0.win 5).blk t).view.emb j) (fun k => ?_) (fun k => ?_)
  · show V c main_arg1 (((cfg0.win 1).blk t).view.emb (ix2 (n0 := 2000) (n1 := 128) (j 0) k)) = _
    congr 1
    funext a; apply Fin.ext
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * k.val = k.val; omega
  · show V c main_v1 (((cfg0.win 3).blk t).view.emb (ix2 (n0 := 128) (n1 := 128) k (j 1))) = _
    congr 1
    funext a; apply Fin.ext
    match a with
    | ⟨0, _⟩ => show win0_3.index t (0 : Fin 2) * 128 + 1 * k.val = k.val; omega
    | ⟨1, _⟩ => show win0_3.index t (1 : Fin 2) * 128 + 1 * (j 1).val = win0_5.index t (1 : Fin 2) * 128 + 1 * (j 1).val; omega

/-- An index of the array is in point `t`'s block iff each coordinate is in the block's range on its axis. -/
theorem mem_blk0_5 (t : Fin cfg0.N) (i : S10000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v2_1).slice (win0_5.rect t)).set ↔ _
  rw [View.set_slice_whole, Rect.mem_set_unit]
  exact Iff.rfl

/-- Row `r` of the array is in the block of point `r / 2000`. -/
theorem covered0_5 (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : grid0.N = 5 := N_0
  have ht : (i 0).val / 2000 < cfg0.N := by show (i 0).val / 2000 < grid0.N; rw [hN]; omega
  obtain ⟨-, -, -, -, -, -, -, -, -, -, e40, e41⟩ := idx_facts0 ⟨(i 0).val / 2000, ht⟩
  have e40' : win0_5.index ⟨(i 0).val / 2000, ht⟩ (0 : Fin 2) = (i 0).val / 2000 := e40
  refine ⟨⟨(i 0).val / 2000, ht⟩, flush0_5 _, ?_⟩
  rw [mem_blk0_5]
  intro a
  match a with
  | ⟨0, _⟩ => show win0_5.index ⟨(i 0).val / 2000, ht⟩ (0 : Fin 2) * 2000 ≤ (i 0).val ∧ (i 0).val < win0_5.index ⟨(i 0).val / 2000, ht⟩ (0 : Fin 2) * 2000 + 2000; omega
  | ⟨1, _⟩ => show win0_5.index ⟨(i 0).val / 2000, ht⟩ (1 : Fin 2) * 128 ≤ (i 1).val ∧ (i 1).val < win0_5.index ⟨(i 0).val / 2000, ht⟩ (1 : Fin 2) * 128 + 128; omega

/-- The second output array after the region is the product of the second feature matrix with the second weights. -/
theorem arr0_5 (c : Dev nD) : (dat0 (F := Ideal) V c).arrAt 5 cfg0.N
    = matProd (V c main_arg1 : (Mat 10000 128).Idx → EReal) (V c main_v1 : (Mat 128 128).Idx → EReal) :=
  (dat0 (F := Ideal) V c).arrAt_eq_of_cover 5 _ (fun t _ => flushed0_5_eq V c t) covered0_5

end Cert.KernelIdeal.KValue

end
-- ==== Proof.Payload1.lean ====
/-
  The second kernel body's payloads, read at the ideal values.

  The body computes, for a block `a` of 200 rows of an adjacency matrix, the 10000 × 128 support `s`, a 1 × 128 row `b`
  and 128 × 256 weights `wc`: `leaky (a · s + b) · wc`. The changes of float format are the identity on the extended
  reals and the cast of a shape to itself is the identity; the matrix unit's product into a zero splat is `matProd`;
  the row `b` broadcast over the 200 rows reads at `(p, q)` as `b (0, q)`; the comparison with zero, the product with
  the slope and the choice, entry by entry, are the slope function `leaky`. So the hidden block is `layerRow a s b`
  and the stored block is `matProd (layerRow a s b) wc`. The block-to-array step is here too, over variables: a row
  of `layerRow` and a row of a product depend on that row of the (first) left operand only.
-/
import proofs.«174822_g77111842832928_cont_sun_m_99_16_alg».proof.Proof.Gen.KernelIdeal.Skeleton
import proofs.«174822_g77111842832928_cont_sun_m_99_16_alg».proof.Proof.Spec
import proofs.«174822_g77111842832928_cont_sun_m_99_16_alg».proof.Proof.LibMatProd
import proofs.«174822_g77111842832928_cont_sun_m_99_16_alg».proof.Proof.LibDotLists
import proofs.«174822_g77111842832928_cont_sun_m_99_16_alg».proof.Proof.LibRowBlock
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Idealize.ShloMosaic Idealize.ShloMosaic.ValueIdx Cert.Linear Cert.Gcn

/-- The 200 × 10000 by 10000 × 128 record contracts the left operand's columns with the right operand's rows. -/
theorem contracts1a : Contracts dot_S200x10000_S10000x128_S200x128_1_0_0_1_n_n :=
  contracts_of_lists _ rfl rfl rfl rfl rfl rfl

/-- The 200 × 128 by 128 × 256 record contracts the left operand's columns with the right operand's rows. -/
theorem contracts1b : Contracts dot_S200x128_S128x256_S200x256_1_0_0_1_n_n :=
  contracts_of_lists _ rfl rfl rfl rfl rfl rfl

/-- The hidden block: the slope function of `a · s + b`, the row `b` read at the entry's column. -/
theorem pay1_3 (a : Vec Ideal S200x10000 .f32) (s : Vec Ideal S10000x128 .bf16) (b : Vec Ideal S1x128 .f32) :
    k1_pay3 (F := Ideal) a s b = layerRow a s b := by
  unfold k1_pay3
  rw [shapeCast_self, shapeCast_self]
  have hm := matmul_zero_eq (φ₁ := .bf16) (φ₂ := .bf16) contracts1a none a s
  funext i
  obtain ⟨p, q, rfl⟩ : ∃ (p : Fin 200) (q : Fin 128), i = ix2 p q := ⟨i 0, i 1, eq_ix2 i⟩
  have hb : broadcastTo S200x128 b broadcasts_S1x128_S200x128 (ix2 p q) = b (ix2 (0 : Fin 1) q) :=
    broadcastTo_1b_ab_apply b broadcasts_S1x128_S200x128 p q
  show leaky ((FloatOps.matmul dot_S200x10000_S10000x128_S200x128_1_0_0_1_n_n none a s
        (constant (F := Ideal) (Mat 200 128) .f32 0x00000000#32) : FVec Ideal (Mat 200 128) .f32) (ix2 p q)
      + broadcastTo S200x128 b broadcasts_S1x128_S200x128 (ix2 p q))
    = leaky (matProd a s (ix2 p q) + b (ix2 (0 : Fin 1) q))
  rw [hm, hb]

/-- The product of a hidden block with the weights. -/
theorem pay1_1 (h : FVec Ideal S200x128 .bf16) (w : Vec Ideal S128x256 .bf16) :
    k1_pay1 (F := Ideal) h w = matProd h w := by
  unfold k1_pay1
  rw [shapeCast_self]
  exact matmul_zero_eq (φ₁ := .bf16) (φ₂ := .bf16) contracts1b none h w

/-- The first output's stored block, written in one piece, is the second's two pieces composed. -/
theorem pay1_2_eq (a : Vec Ideal S200x10000 .f32) (s : Vec Ideal S10000x128 .bf16) (b : Vec Ideal S1x128 .f32)
    (w : Vec Ideal S128x256 .bf16) : k1_pay2 (F := Ideal) a s b w = k1_pay1 (k1_pay3 a s b) w := rfl

/-- The stored block is `layerRow a s b · w`. -/
theorem pay1_2 (a : Vec Ideal S200x10000 .f32) (s : Vec Ideal S10000x128 .bf16) (b : Vec Ideal S1x128 .f32)
    (w : Vec Ideal S128x256 .bf16) : k1_pay2 (F := Ideal) a s b w = matProd (layerRow a s b) w := by
  rw [pay1_2_eq, pay1_3, pay1_1]

/-- Entry `j` of the block `layerRow a s b · w` is entry `i` of `layerRow A s b · w` when row `j 0` of the block `a` is row
    `i 0` of the whole adjacency matrix `A` and `j`, `i` have the same column. -/
theorem layerRow_prod_entry (A : (Mat 10000 10000).Idx → EReal) (s : (Mat 10000 128).Idx → EReal)
    (b : (Mat 1 128).Idx → EReal) (w : (Mat 128 256).Idx → EReal) (a : (Mat 200 10000).Idx → EReal)
    (j : (Mat 200 256).Idx) (i : (Mat 10000 256).Idx)
    (ha : ∀ k : Fin 10000, a (ix2 (n0 := 200) (n1 := 10000) (j 0) k) = A (ix2 (n0 := 10000) (n1 := 10000) (i 0) k))
    (hc : (j 1).val = (i 1).val) :
    matProd (layerRow a s b) w j = matProd (layerRow A s b) w i := by
  refine matProd_of_rows (layerRow A s b) w (layerRow a s b) w j i (fun k => ?_) (fun k => ?_)
  · show leaky (matProd a s (ix2 (n0 := 200) (n1 := 128) (j 0) k) + b (ix2 (n0 := 1) (n1 := 128) (0 : Fin 1) k))
      = leaky (matProd A s (ix2 (n0 := 10000) (n1 := 128) (i 0) k) + b (ix2 (n0 := 1) (n1 := 128) (0 : Fin 1) k))
    rw [matProd_of_rows A s a s (ix2 (n0 := 200) (n1 := 128) (j 0) k) (ix2 (n0 := 10000) (n1 := 128) (i 0) k)
      (fun m => ha m) (fun m => rfl)]
  · have : (j 1 : Fin 256) = i 1 := Fin.ext hc
    show w (ix2 (n0 := 128) (n1 := 256) k (j 1)) = w (ix2 (n0 := 128) (n1 := 256) k (i 1))
    rw [this]

/-- Entry `j` of the first output's stored block is entry `i` of `layerRow A S B · W` when row `j 0` of the block `a` is
    row `i 0` of the whole adjacency matrix `A`, the other three blocks are the whole arrays, and `j`, `i` have the same
    column. -/
theorem pay1_2_entry (A : (Mat 10000 10000).Idx → EReal) (S : (Mat 10000 128).Idx → EReal)
    (B : (Mat 1 128).Idx → EReal) (W : (Mat 128 256).Idx → EReal)
    (a : Vec Ideal S200x10000 .f32) (s : Vec Ideal S10000x128 .bf16) (b : Vec Ideal S1x128 .f32)
    (w : Vec Ideal S128x256 .bf16) (j : S200x256.Idx) (i : S10000x256.Idx)
    (ha : ∀ k : Fin 10000, a (ix2 (n0 := 200) (n1 := 10000) (j 0) k) = A (ix2 (n0 := 10000) (n1 := 10000) (i 0) k))
    (hs : s = S) (hb : b = B) (hw : w = W) (hc : (j 1).val = (i 1).val) :
    k1_pay2 (F := Ideal) a s b w j = matProd (layerRow A S B) W i := by
  subst hs hb hw
  rw [pay1_2]
  exact layerRow_prod_entry A s b w a j i ha hc

/-- The same for the second output's stored block, written as the hidden block's product with the weights. -/
theorem pay1_13_entry (A : (Mat 10000 10000).Idx → EReal) (S : (Mat 10000 128).Idx → EReal)
    (B : (Mat 1 128).Idx → EReal) (W : (Mat 128 256).Idx → EReal)
    (a : Vec Ideal S200x10000 .f32) (s : Vec Ideal S10000x128 .bf16) (b : Vec Ideal S1x128 .f32)
    (w : Vec Ideal S128x256 .bf16) (j : S200x256.Idx) (i : S10000x256.Idx)
    (ha : ∀ k : Fin 10000, a (ix2 (n0 := 200) (n1 := 10000) (j 0) k) = A (ix2 (n0 := 10000) (n1 := 10000) (i 0) k))
    (hs : s = S) (hb : b = B) (hw : w = W) (hc : (j 1).val = (i 1).val) :
    k1_pay1 (F := Ideal) (k1_pay3 a s b) w j = matProd (layerRow A S B) W i := by
  subst hs hb hw
  rw [pay1_3, pay1_1]
  exact layerRow_prod_entry A s b w a j i ha hc

end Cert.KernelIdeal.KValue

end
-- ==== Proof.Region1.lean ====
/-
  The second region's two output arrays, after the region, as whole-array functions of the buffers the region finds.

  At grid point `t` the body stores, into the output window's block, `leaky (a · s + b) · wc` for `a` the input window's
  block — rows `200 t … 200 t + 199` of the adjacency matrix — and `s`, `b`, `wc` the whole support, bias row and
  weights. A row of `a · s`, hence of the layer, and a row of its product with `wc` depend on that row of `a` only, so
  this block is rows `200 t …` of the layer over the WHOLE adjacency matrix times `wc`; the fifty blocks tile the
  10000 rows, so the array ends holding that product.
-/
import proofs.«174822_g77111842832928_cont_sun_m_99_16_alg».proof.Proof.Gen.KernelIdeal.Frame
import proofs.«174822_g77111842832928_cont_sun_m_99_16_alg».proof.Proof.Payload1
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx Cert.Linear Cert.Gcn
open Idealize.ShloMosaic.Pipeline (Dat)

variable (V : (c : Dev nD) → (b : Ref sig .tc) → Buf (Elt Ideal) ((c : Thread nD τ).loc b))

/-- The zero offsets of a whole-buffer access, as a constant function. -/
theorem zero_off1 : (![0, 0] : Fin 2 → Nat) = fun _ => 0 := funext fun a => by fin_cases a <;> rfl

/-- The index maps over the fifty grid points: an adjacency window and its output window sit at row block `t`, column
    block 0; the support's, the bias row's and the weights' windows are their whole arrays. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

/-! ## Output window 8: `layerRow main_arg3 main_v2_0 main_v7 · main_v4` -/

/-- What point `t` writes back is block `t` of the whole layer's product with the weights. -/
theorem flushed1_8_eq (c : Dev nD) (t : Fin cfg1.N) :
    (dat1 (F := Ideal) V c).flushed 8 t
      = ((cfg1.win 8).blk t).view.read (Elt Ideal)
          (matProd (layerRow (V c main_arg3 : (Mat 10000 10000).Idx → EReal) (V c main_v2_0 : (Mat 10000 128).Idx → EReal) (V c main_v7 : (Mat 1 128).Idx → EReal)) (V c main_v4 : (Mat 128 256).Idx → EReal)) := by
  show (cfg1.win 8).cut (grid1.coords t) ((dat1 V c).after 8 t) = _
  rw [after1_8]
  unfold out1_8
  rw [View.canon_unit_zero zero_off1]
  simp only [View.ld_unit_zero (S := S200x10000) zero_off1, View.ld_unit_zero (S := S10000x128) zero_off1,
    View.ld_unit_zero (S := S1x128) zero_off1, View.ld_unit_zero (S := S128x256) zero_off1]
  obtain ⟨a0, a1, -, -, s0, s1, -, -, b0, b1, -, -, w0, w1, -, -, o0, o1, -, -⟩ := idx_facts1 t
  funext j
  show k1_pay2 (F := Ideal) (iblk1 V c 0 t) (iblk1 V c 2 t) (iblk1 V c 4 t) (iblk1 V c 6 t) j
    = (matProd (layerRow (V c main_arg3 : (Mat 10000 10000).Idx → EReal) (V c main_v2_0 : (Mat 10000 128).Idx → EReal) (V c main_v7 : (Mat 1 128).Idx → EReal)) (V c main_v4 : (Mat 128 256).Idx → EReal)) (((cfg1.win 8).blk t).view.emb j)
  refine pay1_2_entry (V c main_arg3) (V c main_v2_0) (V c main_v7) (V c main_v4)
    (iblk1 V c 0 t) (iblk1 V c 2 t) (iblk1 V c 4 t) (iblk1 V c 6 t) j (((cfg1.win 8).blk t).view.emb j)
    (fun k => ?_) (funext fun y => ?_) (funext fun y => ?_) (funext fun y => ?_) ?_
  · show V c main_arg3 (((cfg1.win 0).blk t).view.emb (ix2 (n0 := 200) (n1 := 10000) (j 0) k)) = _
    congr 1
    funext a; apply Fin.ext
    match a with
    | ⟨0, _⟩ => show win1_0.index t (0 : Fin 2) * 200 + 1 * (j 0).val = win1_8.index t (0 : Fin 2) * 200 + 1 * (j 0).val; omega
    | ⟨1, _⟩ => show win1_0.index t (1 : Fin 2) * 10000 + 1 * k.val = k.val; omega
  · show V c main_v2_0 (((cfg1.win 2).blk t).view.emb y) = V c main_v2_0 y
    congr 1
    funext a; apply Fin.ext
    match a with
    | ⟨0, _⟩ => show win1_2.index t (0 : Fin 2) * 10000 + 1 * (y 0).val = (y 0).val; omega
    | ⟨1, _⟩ => show win1_2.index t (1 : Fin 2) * 128 + 1 * (y 1).val = (y 1).val; omega
  · show V c main_v7 (((cfg1.win 4).blk t).view.emb y) = V c main_v7 y
    congr 1
    funext a; apply Fin.ext
    match a with
    | ⟨0, _⟩ => show win1_4.index t (0 : Fin 2) * 1 + 1 * (y 0).val = (y 0).val; omega
    | ⟨1, _⟩ => show win1_4.index t (1 : Fin 2) * 128 + 1 * (y 1).val = (y 1).val; omega
  · show V c main_v4 (((cfg1.win 6).blk t).view.emb y) = V c main_v4 y
    congr 1
    funext a; apply Fin.ext
    match a with
    | ⟨0, _⟩ => show win1_6.index t (0 : Fin 2) * 128 + 1 * (y 0).val = (y 0).val; omega
    | ⟨1, _⟩ => show win1_6.index t (1 : Fin 2) * 256 + 1 * (y 1).val = (y 1).val; omega
  · show (j 1).val = win1_8.index t (1 : Fin 2) * 256 + 1 * (j 1).val; omega

/-- An index of the array is in point `t`'s block iff each coordinate is in the block's range on its axis. -/
theorem mem_blk1_8 (t : Fin cfg1.N) (i : S10000x256.Idx) :
    i ∈ ((cfg1.win 8).blk t).view.set ↔ ∀ a : Fin 2, win1_8.index t a * S200x256.size a ≤ (i a).val ∧ (i a).val < win1_8.index t a * S200x256.size a + S200x256.size a := by
  show i ∈ ((View.whole main_v9_0).slice (win1_8.rect t)).set ↔ _
  rw [View.set_slice_whole, Rect.mem_set_unit]
  exact Iff.rfl

/-- Row `r` of the array is in the block of point `r / 200`. -/
theorem covered1_8 (i : S10000x256.Idx) :
    ∃ t : Fin cfg1.N, (cfg1.win 8).flush t = true ∧ i ∈ ((cfg1.win 8).blk t).view.set := by
  have hi0 : (i 0).val < 10000 := (i 0).isLt
  have hi1 : (i 1).val < 256 := (i 1).isLt
  have hN : grid1.N = 50 := N_1
  have ht : (i 0).val / 200 < cfg1.N := by show (i 0).val / 200 < grid1.N; rw [hN]; omega
  obtain ⟨-, -, -, -, -, -, -, -, -, -, -, -, -, -, -, -, o0, o1, -, -⟩ := idx_facts1 ⟨(i 0).val / 200, ht⟩
  have o0' : win1_8.index ⟨(i 0).val / 200, ht⟩ (0 : Fin 2) = (i 0).val / 200 := o0
  refine ⟨⟨(i 0).val / 200, ht⟩, flush1_8 _, ?_⟩
  rw [mem_blk1_8]
  intro a
  match a with
  | ⟨0, _⟩ => show win1_8.index ⟨(i 0).val / 200, ht⟩ (0 : Fin 2) * 200 ≤ (i 0).val ∧ (i 0).val < win1_8.index ⟨(i 0).val / 200, ht⟩ (0 : Fin 2) * 200 + 200; omega
  | ⟨1, _⟩ => show win1_8.index ⟨(i 0).val / 200, ht⟩ (1 : Fin 2) * 256 ≤ (i 1).val ∧ (i 1).val < win1_8.index ⟨(i 0).val / 200, ht⟩ (1 : Fin 2) * 256 + 256; omega

/-- The first output array after the region is the first side's layer over the whole adjacency matrix times its weights. -/
theorem arr1_8 (c : Dev nD) : (dat1 (F := Ideal) V c).arrAt 8 cfg1.N
    = (matProd (layerRow (V c main_arg3 : (Mat 10000 10000).Idx → EReal) (V c main_v2_0 : (Mat 10000 128).Idx → EReal) (V c main_v7 : (Mat 1 128).Idx → EReal)) (V c main_v4 : (Mat 128 256).Idx → EReal)) :=
  (dat1 (F := Ideal) V c).arrAt_eq_of_cover 8 _ (fun t _ => flushed1_8_eq V c t) covered1_8

/-! ## Output window 9: `layerRow main_arg5 main_v2_1 main_v8 · main_v6` -/

/-- What point `t` writes back is block `t` of the whole layer's product with the weights. -/
theorem flushed1_9_eq (c : Dev nD) (t : Fin cfg1.N) :
    (dat1 (F := Ideal) V c).flushed 9 t
      = ((cfg1.win 9).blk t).view.read (Elt Ideal)
          (matProd (layerRow (V c main_arg5 : (Mat 10000 10000).Idx → EReal) (V c main_v2_1 : (Mat 10000 128).Idx → EReal) (V c main_v8 : (Mat 1 128).Idx → EReal)) (V c main_v6 : (Mat 128 256).Idx → EReal)) := by
  show (cfg1.win 9).cut (grid1.coords t) ((dat1 V c).after 9 t) = _
  rw [after1_9]
  unfold out1_9
  rw [View.canon_unit_zero zero_off1]
  simp only [View.ld_unit_zero (S := S200x10000) zero_off1, View.ld_unit_zero (S := S10000x128) zero_off1,
    View.ld_unit_zero (S := S1x128) zero_off1, View.ld_unit_zero (S := S128x256) zero_off1]
  obtain ⟨-, -, a0, a1, -, -, s0, s1, -, -, b0, b1, -, -, w0, w1, -, -, o0, o1⟩ := idx_facts1 t
  funext j
  show k1_pay1 (F := Ideal) (k1_pay3 (iblk1 V c 1 t) (iblk1 V c 3 t) (iblk1 V c 5 t)) (iblk1 V c 7 t) j
    = (matProd (layerRow (V c main_arg5 : (Mat 10000 10000).Idx → EReal) (V c main_v2_1 : (Mat 10000 128).Idx → EReal) (V c main_v8 : (Mat 1 128).Idx → EReal)) (V c main_v6 : (Mat 128 256).Idx → EReal)) (((cfg1.win 9).blk t).view.emb j)
  refine pay1_13_entry (V c main_arg5) (V c main_v2_1) (V c main_v8) (V c main_v6)
    (iblk1 V c 1 t) (iblk1 V c 3 t) (iblk1 V c 5 t) (iblk1 V c 7 t) j (((cfg1.win 9).blk t).view.emb j)
    (fun k => ?_) (funext fun y => ?_) (funext fun y => ?_) (funext fun y => ?_) ?_
  · show V c main_arg5 (((cfg1.win 1).blk t).view.emb (ix2 (n0 := 200) (n1 := 10000) (j 0) k)) = _
    congr 1
    funext a; apply Fin.ext
    match a with
    | ⟨0, _⟩ => show win1_1.index t (0 : Fin 2) * 200 + 1 * (j 0).val = win1_9.index t (0 : Fin 2) * 200 + 1 * (j 0).val; omega
    | ⟨1, _⟩ => show win1_1.index t (1 : Fin 2) * 10000 + 1 * k.val = k.val; omega
  · show V c main_v2_1 (((cfg1.win 3).blk t).view.emb y) = V c main_v2_1 y
    congr 1
    funext a; apply Fin.ext
    match a with
    | ⟨0, _⟩ => show win1_3.index t (0 : Fin 2) * 10000 + 1 * (y 0).val = (y 0).val; omega
    | ⟨1, _⟩ => show win1_3.index t (1 : Fin 2) * 128 + 1 * (y 1).val = (y 1).val; omega
  · show V c main_v8 (((cfg1.win 5).blk t).view.emb y) = V c main_v8 y
    congr 1
    funext a; apply Fin.ext
    match a with
    | ⟨0, _⟩ => show win1_5.index t (0 : Fin 2) * 1 + 1 * (y 0).val = (y 0).val; omega
    | ⟨1, _⟩ => show win1_5.index t (1 : Fin 2) * 128 + 1 * (y 1).val = (y 1).val; omega
  · show V c main_v6 (((cfg1.win 7).blk t).view.emb y) = V c main_v6 y
    congr 1
    funext a; apply Fin.ext
    match a with
    | ⟨0, _⟩ => show win1_7.index t (0 : Fin 2) * 128 + 1 * (y 0).val = (y 0).val; omega
    | ⟨1, _⟩ => show win1_7.index t (1 : Fin 2) * 256 + 1 * (y 1).val = (y 1).val; omega
  · show (j 1).val = win1_9.index t (1 : Fin 2) * 256 + 1 * (j 1).val; omega

/-- An index of the array is in point `t`'s block iff each coordinate is in the block's range on its axis. -/
theorem mem_blk1_9 (t : Fin cfg1.N) (i : S10000x256.Idx) :
    i ∈ ((cfg1.win 9).blk t).view.set ↔ ∀ a : Fin 2, win1_9.index t a * S200x256.size a ≤ (i a).val ∧ (i a).val < win1_9.index t a * S200x256.size a + S200x256.size a := by
  show i ∈ ((View.whole main_v9_1).slice (win1_9.rect t)).set ↔ _
  rw [View.set_slice_whole, Rect.mem_set_unit]
  exact Iff.rfl

/-- Row `r` of the array is in the block of point `r / 200`. -/
theorem covered1_9 (i : S10000x256.Idx) :
    ∃ t : Fin cfg1.N, (cfg1.win 9).flush t = true ∧ i ∈ ((cfg1.win 9).blk t).view.set := by
  have hi0 : (i 0).val < 10000 := (i 0).isLt
  have hi1 : (i 1).val < 256 := (i 1).isLt
  have hN : grid1.N = 50 := N_1
  have ht : (i 0).val / 200 < cfg1.N := by show (i 0).val / 200 < grid1.N; rw [hN]; omega
  obtain ⟨-, -, -, -, -, -, -, -, -, -, -, -, -, -, -, -, -, -, o0, o1⟩ := idx_facts1 ⟨(i 0).val / 200, ht⟩
  have o0' : win1_9.index ⟨(i 0).val / 200, ht⟩ (0 : Fin 2) = (i 0).val / 200 := o0
  refine ⟨⟨(i 0).val / 200, ht⟩, flush1_9 _, ?_⟩
  rw [mem_blk1_9]
  intro a
  match a with
  | ⟨0, _⟩ => show win1_9.index ⟨(i 0).val / 200, ht⟩ (0 : Fin 2) * 200 ≤ (i 0).val ∧ (i 0).val < win1_9.index ⟨(i 0).val / 200, ht⟩ (0 : Fin 2) * 200 + 200; omega
  | ⟨1, _⟩ => show win1_9.index ⟨(i 0).val / 200, ht⟩ (1 : Fin 2) * 256 ≤ (i 1).val ∧ (i 1).val < win1_9.index ⟨(i 0).val / 200, ht⟩ (1 : Fin 2) * 256 + 256; omega

/-- The second output array after the region is the second side's layer over the whole adjacency matrix times its weights. -/
theorem arr1_9 (c : Dev nD) : (dat1 (F := Ideal) V c).arrAt 9 cfg1.N
    = (matProd (layerRow (V c main_arg5 : (Mat 10000 10000).Idx → EReal) (V c main_v2_1 : (Mat 10000 128).Idx → EReal) (V c main_v8 : (Mat 1 128).Idx → EReal)) (V c main_v6 : (Mat 128 256).Idx → EReal)) :=
  (dat1 (F := Ideal) V c).arrAt_eq_of_cover 9 _ (fun t _ => flushed1_9_eq V c t) covered1_9

end Cert.KernelIdeal.KValue

end
-- ==== Proof.TailRows.lean ====
/-
  The last arithmetic read one block of rows at a time.

  Entry `(p, q)` of a product depends on row `p` of its left operand only. The last arithmetic uses a block of rows
  of the adjacency matrices and of the features as left operands at two levels — the adjacency block times the whole
  support array inside the wide layer, and the wide layer's half (or the features' block) times the whole union weights
  outside — so its entry `(p, q)` over a block whose row `p` is row `P` of the whole arrays is its entry `(P, q)`
  over the whole arrays. Over the extended reals, with no finiteness hypothesis.
-/
import proofs.«174822_g77111842832928_cont_sun_m_99_16_alg».proof.Proof.Spec
import proofs.«174822_g77111842832928_cont_sun_m_99_16_alg».proof.Proof.SpecTail
import proofs.«174822_g77111842832928_cont_sun_m_99_16_alg».proof.Proof.LibMatProd
import proofs.«174822_g77111842832928_cont_sun_m_99_16_alg».proof.Proof.LibRowBlock

noncomputable section

namespace Cert.Gcn

open Idealize.ShloMosaic Idealize.ShloMosaic.ValueIdx Cert.Linear

/-- A wide layer's entry `(p, c)` over a block `a` of adjacency rows whose row `p` is row `P` of `A` is the entry
    `(P, c)` of the layer over `A`. -/
theorem layerRow_of_rows {r R n e : Nat} (a : (Mat r n).Idx → EReal) (A : (Mat R n).Idx → EReal)
    (S : (Mat n e).Idx → EReal) (b : (Mat 1 e).Idx → EReal) (p : Fin r) (P : Fin R)
    (h : ∀ k : Fin n, a (ix2 (n0 := r) (n1 := n) p k) = A (ix2 (n0 := R) (n1 := n) P k)) (c : Fin e) :
    layerRow a S b (ix2 (n0 := r) (n1 := e) p c) = layerRow A S b (ix2 (n0 := R) (n1 := e) P c) := by
  show leaky (matProd a S (ix2 (n0 := r) (n1 := e) p c) + b (ix2 (n0 := 1) (n1 := e) (0 : Fin 1) c))
    = leaky (matProd A S (ix2 (n0 := R) (n1 := e) P c) + b (ix2 (n0 := 1) (n1 := e) (0 : Fin 1) c))
  rw [matProd_of_rows A S a S (ix2 (n0 := r) (n1 := e) p c) (ix2 (n0 := R) (n1 := e) P c) h (fun _ => rfl)]

/-- The left-half form's entry `(p, q)` over blocks whose row `p` is row `P` of the whole arrays is the entry
    `(P, q)` over the whole arrays. -/
theorem tailLeft_of_rows {r R n d : Nat} (a_s a_t : (Mat r n).Idx → EReal) (As At : (Mat R n).Idx → EReal)
    (Ss St : (Mat n (d + d)).Idx → EReal) (bs bt : (Mat 1 (d + d)).Idx → EReal) (Wms Wmt : (Mat d d).Idx → EReal)
    (x y : (Mat r d).Idx → EReal) (X Y : (Mat R d).Idx → EReal) (Wbs Wbt : (Mat d d).Idx → EReal)
    (bm : (Mat 1 d).Idx → EReal) (p : Fin r) (P : Fin R) (q : Fin d)
    (has : ∀ k : Fin n, a_s (ix2 (n0 := r) (n1 := n) p k) = As (ix2 (n0 := R) (n1 := n) P k))
    (hat : ∀ k : Fin n, a_t (ix2 (n0 := r) (n1 := n) p k) = At (ix2 (n0 := R) (n1 := n) P k))
    (hx : ∀ k : Fin d, x (ix2 (n0 := r) (n1 := d) p k) = X (ix2 (n0 := R) (n1 := d) P k))
    (hy : ∀ k : Fin d, y (ix2 (n0 := r) (n1 := d) p k) = Y (ix2 (n0 := R) (n1 := d) P k)) :
    tailLeft a_s a_t Ss St bs bt Wms Wmt x y Wbs Wbt bm (ix2 (n0 := r) (n1 := d) p q)
      = tailLeft As At Ss St bs bt Wms Wmt X Y Wbs Wbt bm (ix2 (n0 := R) (n1 := d) P q) := by
  show (half * (matProd (leftCols (layerRow a_s Ss bs)) Wms (ix2 (n0 := r) (n1 := d) p q)
          + matProd x Wbs (ix2 (n0 := r) (n1 := d) p q))
        + half * (matProd (leftCols (layerRow a_t St bt)) Wmt (ix2 (n0 := r) (n1 := d) p q)
          + matProd y Wbt (ix2 (n0 := r) (n1 := d) p q)))
      + bm (ix2 (n0 := 1) (n1 := d) (0 : Fin 1) q)
    = (half * (matProd (leftCols (layerRow As Ss bs)) Wms (ix2 (n0 := R) (n1 := d) P q)
          + matProd X Wbs (ix2 (n0 := R) (n1 := d) P q))
        + half * (matProd (leftCols (layerRow At St bt)) Wmt (ix2 (n0 := R) (n1 := d) P q)
          + matProd Y Wbt (ix2 (n0 := R) (n1 := d) P q)))
      + bm (ix2 (n0 := 1) (n1 := d) (0 : Fin 1) q)
  rw [matProd_of_rows (leftCols (layerRow As Ss bs)) Wms (leftCols (layerRow a_s Ss bs)) Wms
        (ix2 (n0 := r) (n1 := d) p q) (ix2 (n0 := R) (n1 := d) P q)
        (fun k => layerRow_of_rows a_s As Ss bs p P has (Fin.castAdd d k)) (fun _ => rfl),
    matProd_of_rows X Wbs x Wbs (ix2 (n0 := r) (n1 := d) p q) (ix2 (n0 := R) (n1 := d) P q) hx (fun _ => rfl),
    matProd_of_rows (leftCols (layerRow At St bt)) Wmt (leftCols (layerRow a_t St bt)) Wmt
        (ix2 (n0 := r) (n1 := d) p q) (ix2 (n0 := R) (n1 := d) P q)
        (fun k => layerRow_of_rows a_t At St bt p P hat (Fin.castAdd d k)) (fun _ => rfl),
    matProd_of_rows Y Wbt y Wbt (ix2 (n0 := r) (n1 := d) p q) (ix2 (n0 := R) (n1 := d) P q) hy (fun _ => rfl)]

/-- The right-half form's entry `(p, q)` over blocks whose row `p` is row `P` of the whole arrays is the entry
    `(P, q)` over the whole arrays. -/
theorem tailRight_of_rows {r R n d : Nat} (a_s a_t : (Mat r n).Idx → EReal) (As At : (Mat R n).Idx → EReal)
    (Ss St : (Mat n (d + d)).Idx → EReal) (bs bt : (Mat 1 (d + d)).Idx → EReal) (Wss Wst : (Mat d d).Idx → EReal)
    (x y : (Mat r d).Idx → EReal) (X Y : (Mat R d).Idx → EReal) (Wbs Wbt : (Mat d d).Idx → EReal)
    (bm : (Mat 1 d).Idx → EReal) (p : Fin r) (P : Fin R) (q : Fin d)
    (has : ∀ k : Fin n, a_s (ix2 (n0 := r) (n1 := n) p k) = As (ix2 (n0 := R) (n1 := n) P k))
    (hat : ∀ k : Fin n, a_t (ix2 (n0 := r) (n1 := n) p k) = At (ix2 (n0 := R) (n1 := n) P k))
    (hx : ∀ k : Fin d, x (ix2 (n0 := r) (n1 := d) p k) = X (ix2 (n0 := R) (n1 := d) P k))
    (hy : ∀ k : Fin d, y (ix2 (n0 := r) (n1 := d) p k) = Y (ix2 (n0 := R) (n1 := d) P k)) :
    tailRight a_s a_t Ss St bs bt Wss Wst x y Wbs Wbt bm (ix2 (n0 := r) (n1 := d) p q)
      = tailRight As At Ss St bs bt Wss Wst X Y Wbs Wbt bm (ix2 (n0 := R) (n1 := d) P q) := by
  show (half * (matProd (rightCols (layerRow a_s Ss bs)) Wss (ix2 (n0 := r) (n1 := d) p q)
          + matProd x Wbs (ix2 (n0 := r) (n1 := d) p q))
        + half * (matProd (rightCols (layerRow a_t St bt)) Wst (ix2 (n0 := r) (n1 := d) p q)
          + matProd y Wbt (ix2 (n0 := r) (n1 := d) p q)))
      + bm (ix2 (n0 := 1) (n1 := d) (0 : Fin 1) q)
    = (half * (matProd (rightCols (layerRow As Ss bs)) Wss (ix2 (n0 := R) (n1 := d) P q)
          + matProd X Wbs (ix2 (n0 := R) (n1 := d) P q))
        + half * (matProd (rightCols (layerRow At St bt)) Wst (ix2 (n0 := R) (n1 := d) P q)
          + matProd Y Wbt (ix2 (n0 := R) (n1 := d) P q)))
      + bm (ix2 (n0 := 1) (n1 := d) (0 : Fin 1) q)
  rw [matProd_of_rows (rightCols (layerRow As Ss bs)) Wss (rightCols (layerRow a_s Ss bs)) Wss
        (ix2 (n0 := r) (n1 := d) p q) (ix2 (n0 := R) (n1 := d) P q)
        (fun k => layerRow_of_rows a_s As Ss bs p P has (Fin.natAdd d k)) (fun _ => rfl),
    matProd_of_rows X Wbs x Wbs (ix2 (n0 := r) (n1 := d) p q) (ix2 (n0 := R) (n1 := d) P q) hx (fun _ => rfl),
    matProd_of_rows (rightCols (layerRow At St bt)) Wst (rightCols (layerRow a_t St bt)) Wst
        (ix2 (n0 := r) (n1 := d) p q) (ix2 (n0 := R) (n1 := d) P q)
        (fun k => layerRow_of_rows a_t At St bt p P hat (Fin.natAdd d k)) (fun _ => rfl),
    matProd_of_rows Y Wbt y Wbt (ix2 (n0 := r) (n1 := d) p q) (ix2 (n0 := R) (n1 := d) P q) hy (fun _ => rfl)]

end Cert.Gcn

end
-- ==== Proof.Payload2.lean ====
/-
  The last kernel body's payloads, read at the ideal values, as the network's last arithmetic over one block of rows.

  The changes of float format are the identity on the extended reals, the cast of a shape to itself is the identity,
  the matrix unit's product accumulated into a zero splat is the plain sum of products, a row of one row broadcast
  over the rows is read at the entry's column, and the slices at column offsets 0 and 128 of a 256-column block are
  its left and right halves. So the wide layer is `leaky (a · S + b)` entry by entry, and the two stored blocks are
  the blended union layers over its left and right halves. The block-to-array step is here too, over variables: a row
  of a product depends on that row of the left operand only, at both levels (the adjacency block times the support
  array inside the wide layer, and the wide layer's half times the union weights outside).
-/
import proofs.«174822_g77111842832928_cont_sun_m_99_16_alg».proof.Proof.Gen.KernelIdeal.Skeleton
import proofs.«174822_g77111842832928_cont_sun_m_99_16_alg».proof.Proof.Spec
import proofs.«174822_g77111842832928_cont_sun_m_99_16_alg».proof.Proof.SpecTail
import proofs.«174822_g77111842832928_cont_sun_m_99_16_alg».proof.Proof.LibMatProd
import proofs.«174822_g77111842832928_cont_sun_m_99_16_alg».proof.Proof.LibDotLists
import proofs.«174822_g77111842832928_cont_sun_m_99_16_alg».proof.Proof.LibRowBlock
import proofs.«174822_g77111842832928_cont_sun_m_99_16_alg».proof.Proof.TailRows
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Idealize.ShloMosaic Idealize.ShloMosaic.ValueIdx Cert.Linear Cert.Gcn

/-! ### The two products' dimension records -/

/-- The 200 × 10000 by 10000 × 256 record contracts the left operand's columns with the right operand's rows. -/
theorem r2_contractsA : Contracts dot_S200x10000_S10000x256_S200x256_1_0_0_1_n_n :=
  contracts_of_lists _ rfl rfl rfl rfl rfl rfl

/-- The 200 × 128 by 128 × 128 record contracts the left operand's columns with the right operand's rows. -/
theorem r2_contractsB : Contracts dot_S200x128_S128x128_S200x128_1_0_0_1_n_n :=
  contracts_of_lists _ rfl rfl rfl rfl rfl rfl

/-! ### The wide layer -/

/-- The source side's wide layer over the block: `leaky (a · S + b)`, the bias row read at the entry's column. -/
theorem r2_wide2 (x0 : Vec Ideal S200x10000 .f32) (x2 : Vec Ideal S10000x256 .bf16) (x4 : Vec Ideal S1x256 .f32) :
    k2_pay2 (F := Ideal) x0 x2 x4 = layerRow (r := 200) (n := 10000) (e := 128 + 128) x0 x2 x4 := by
  unfold k2_pay2
  rw [shapeCast_self, shapeCast_self]
  funext j
  obtain ⟨p, q, rfl⟩ : ∃ (p : Fin 200) (q : Fin 256), j = ix2 p q := ⟨j 0, j 1, eq_ix2 j⟩
  show leaky (FloatOps.matmul dot_S200x10000_S10000x256_S200x256_1_0_0_1_n_n none x0 x2
        (constant (F := Ideal) S200x256 .f32 0x00000000#32) (ix2 p q)
      + broadcastTo S200x256 x4 broadcasts_S1x256_S200x256 (ix2 p q))
    = leaky (matProd x0 x2 (ix2 p q) + x4 (ix2 (0 : Fin 1) q))
  rw [matmul_zero_eq (φ₁ := .bf16) (φ₂ := .bf16) r2_contractsA none x0 x2,
    broadcastTo_1b_ab_apply x4 broadcasts_S1x256_S200x256 p q]

/-- The target side's wide layer over the block. -/
theorem r2_wide3 (x1 : Vec Ideal S200x10000 .f32) (x3 : Vec Ideal S10000x256 .bf16) (x5 : Vec Ideal S1x256 .f32) :
    k2_pay3 (F := Ideal) x1 x3 x5 = layerRow (r := 200) (n := 10000) (e := 128 + 128) x1 x3 x5 := by
  unfold k2_pay3
  rw [shapeCast_self, shapeCast_self]
  funext j
  obtain ⟨p, q, rfl⟩ : ∃ (p : Fin 200) (q : Fin 256), j = ix2 p q := ⟨j 0, j 1, eq_ix2 j⟩
  show leaky (FloatOps.matmul dot_S200x10000_S10000x256_S200x256_1_0_0_1_n_n none x1 x3
        (constant (F := Ideal) S200x256 .f32 0x00000000#32) (ix2 p q)
      + broadcastTo S200x256 x5 broadcasts_S1x256_S200x256 (ix2 p q))
    = leaky (matProd x1 x3 (ix2 p q) + x5 (ix2 (0 : Fin 1) q))
  rw [matmul_zero_eq (φ₁ := .bf16) (φ₂ := .bf16) r2_contractsA none x1 x3,
    broadcastTo_1b_ab_apply x5 broadcasts_S1x256_S200x256 p q]

/-! ### The two slices -/

/-- The slice at column offset 0 is the left half of the columns. -/
theorem r2_sliceL (H : FVec Ideal S200x256 .bf16) :
    extractStridedSlice S200x128 ![0, 0] H slices_S200x256_o0_0_S200x128 = leftCols (n := 200) (d := 128) H := by
  funext j
  obtain ⟨p, q, rfl⟩ : ∃ (p : Fin 200) (q : Fin 128), j = ix2 p q := ⟨j 0, j 1, eq_ix2 j⟩
  refine extractStridedSlice_apply ![0, 0] H slices_S200x256_o0_0_S200x128 (ix2 p q)
    (ix2 (n0 := 200) (n1 := 128 + 128) p (Fin.castAdd 128 q)) fun a => ?_
  match a with
  | ⟨0, _⟩ => show p.val = 0 + p.val; omega
  | ⟨1, _⟩ => show q.val = 0 + q.val; omega

/-- The slice at column offset 128 is the right half of the columns. -/
theorem r2_sliceR (H : FVec Ideal S200x256 .bf16) :
    extractStridedSlice S200x128 ![0, 128] H slices_S200x256_o0_128_S200x128 = rightCols (n := 200) (d := 128) H := by
  funext j
  obtain ⟨p, q, rfl⟩ : ∃ (p : Fin 200) (q : Fin 128), j = ix2 p q := ⟨j 0, j 1, eq_ix2 j⟩
  refine extractStridedSlice_apply ![0, 128] H slices_S200x256_o0_128_S200x128 (ix2 p q)
    (ix2 (n0 := 200) (n1 := 128 + 128) p (Fin.natAdd 128 q)) fun a => ?_
  match a with
  | ⟨0, _⟩ => show p.val = 0 + p.val; omega
  | ⟨1, _⟩ => show 128 + q.val = 128 + q.val; rfl

/-! ### The format changes and the halves of the wide layers -/

/-- The source features' block, narrowed: the same extended reals. -/
theorem r2_pay4 (x : Vec Ideal S200x128 .f32) : k2_pay4 (F := Ideal) x = x := rfl

/-- The target features' block, narrowed: the same extended reals. -/
theorem r2_pay5 (x : Vec Ideal S200x128 .f32) : k2_pay5 (F := Ideal) x = x := rfl

/-- The left half of the source side's wide layer. -/
theorem r2_pay6 (x0 : Vec Ideal S200x10000 .f32) (x2 : Vec Ideal S10000x256 .bf16) (x4 : Vec Ideal S1x256 .f32) :
    k2_pay6 (F := Ideal) x0 x2 x4
      = leftCols (n := 200) (d := 128) (layerRow (r := 200) (n := 10000) (e := 128 + 128) x0 x2 x4) := by
  unfold k2_pay6
  rw [r2_wide2, r2_sliceL]

/-- The right half of a wide layer. -/
theorem r2_pay9 (H : FVec Ideal S200x256 .bf16) : k2_pay9 (F := Ideal) H = rightCols (n := 200) (d := 128) H := by
  unfold k2_pay9
  exact r2_sliceR H

/-! ### The stored blocks -/

/-- The mean block: the blend of the two union layers over the left halves, plus the blended bias row. -/
theorem r2_pay7 (Ht : FVec Ideal S200x256 .bf16) (sx tx HsL : FVec Ideal S200x128 .bf16)
    (w1 w2 w3 w4 : Vec Ideal S128x128 .bf16) (b : Vec Ideal S1x128 .f32) :
    k2_pay7 (F := Ideal) Ht sx tx HsL w1 w2 w3 w4 b
      = fun i : (Mat 200 128).Idx => (half * (matProd HsL w1 i + matProd sx w2 i)
          + half * (matProd (leftCols (n := 200) (d := 128) Ht) w3 i + matProd tx w4 i))
        + b (ix2 (n0 := 1) (n1 := 128) (0 : Fin 1) (i 1)) := by
  unfold k2_pay7
  rw [shapeCast_self, shapeCast_self, shapeCast_self, shapeCast_self, shapeCast_self, r2_sliceL]
  funext j
  obtain ⟨p, q, rfl⟩ : ∃ (p : Fin 200) (q : Fin 128), j = ix2 p q := ⟨j 0, j 1, eq_ix2 j⟩
  show (half * (FloatOps.matmul dot_S200x128_S128x128_S200x128_1_0_0_1_n_n none HsL w1
            (constant (F := Ideal) S200x128 .f32 0x00000000#32) (ix2 p q)
          + FloatOps.matmul dot_S200x128_S128x128_S200x128_1_0_0_1_n_n none sx w2
            (constant (F := Ideal) S200x128 .f32 0x00000000#32) (ix2 p q))
        + half * (FloatOps.matmul dot_S200x128_S128x128_S200x128_1_0_0_1_n_n none (leftCols (n := 200) (d := 128) Ht) w3
            (constant (F := Ideal) S200x128 .f32 0x00000000#32) (ix2 p q)
          + FloatOps.matmul dot_S200x128_S128x128_S200x128_1_0_0_1_n_n none tx w4
            (constant (F := Ideal) S200x128 .f32 0x00000000#32) (ix2 p q)))
      + broadcastTo S200x128 b broadcasts_S1x128_S200x128 (ix2 p q)
    = (half * (matProd HsL w1 (ix2 p q) + matProd sx w2 (ix2 p q))
        + half * (matProd (leftCols (n := 200) (d := 128) Ht) w3 (ix2 p q) + matProd tx w4 (ix2 p q)))
      + b (ix2 (0 : Fin 1) q)
  rw [matmul_zero_eq (φ₁ := .bf16) (φ₂ := .bf16) r2_contractsB none HsL w1,
    matmul_zero_eq (φ₁ := .bf16) (φ₂ := .bf16) r2_contractsB none sx w2,
    matmul_zero_eq (φ₁ := .bf16) (φ₂ := .bf16) r2_contractsB none (leftCols (n := 200) (d := 128) Ht) w3,
    matmul_zero_eq (φ₁ := .bf16) (φ₂ := .bf16) r2_contractsB none tx w4,
    broadcastTo_1b_ab_apply b broadcasts_S1x128_S200x128 p q]

/-- The source side's half of the log-deviation block: one half of the union layer over the right half. -/
theorem r2_pay8 (Hs : FVec Ideal S200x256 .bf16) (sx : FVec Ideal S200x128 .bf16) (w1 w2 : Vec Ideal S128x128 .bf16) :
    k2_pay8 (F := Ideal) Hs sx w1 w2
      = fun i : (Mat 200 128).Idx => half * (matProd (rightCols (n := 200) (d := 128) Hs) w1 i + matProd sx w2 i) := by
  unfold k2_pay8
  rw [shapeCast_self, shapeCast_self, r2_sliceR]
  funext j
  obtain ⟨p, q, rfl⟩ : ∃ (p : Fin 200) (q : Fin 128), j = ix2 p q := ⟨j 0, j 1, eq_ix2 j⟩
  show half * (FloatOps.matmul dot_S200x128_S128x128_S200x128_1_0_0_1_n_n none (rightCols (n := 200) (d := 128) Hs) w1
            (constant (F := Ideal) S200x128 .f32 0x00000000#32) (ix2 p q)
          + FloatOps.matmul dot_S200x128_S128x128_S200x128_1_0_0_1_n_n none sx w2
            (constant (F := Ideal) S200x128 .f32 0x00000000#32) (ix2 p q))
    = half * (matProd (rightCols (n := 200) (d := 128) Hs) w1 (ix2 p q) + matProd sx w2 (ix2 p q))
  rw [matmul_zero_eq (φ₁ := .bf16) (φ₂ := .bf16) r2_contractsB none (rightCols (n := 200) (d := 128) Hs) w1,
    matmul_zero_eq (φ₁ := .bf16) (φ₂ := .bf16) r2_contractsB none sx w2]

/-- The log-deviation block: the source side's half, plus one half of the target side's union layer, plus the
    blended bias row. -/
theorem r2_pay1 (tx : FVec Ideal S200x128 .bf16) (u : FVec Ideal S200x128 .f32) (HtR : FVec Ideal S200x128 .bf16)
    (w1 w2 : Vec Ideal S128x128 .bf16) (b : Vec Ideal S1x128 .f32) :
    k2_pay1 (F := Ideal) tx u HtR w1 w2 b
      = fun i : (Mat 200 128).Idx => (u i + half * (matProd HtR w1 i + matProd tx w2 i))
        + b (ix2 (n0 := 1) (n1 := 128) (0 : Fin 1) (i 1)) := by
  unfold k2_pay1
  rw [shapeCast_self, shapeCast_self, shapeCast_self]
  funext j
  obtain ⟨p, q, rfl⟩ : ∃ (p : Fin 200) (q : Fin 128), j = ix2 p q := ⟨j 0, j 1, eq_ix2 j⟩
  show (u (ix2 p q) + half * (FloatOps.matmul dot_S200x128_S128x128_S200x128_1_0_0_1_n_n none HtR w1
            (constant (F := Ideal) S200x128 .f32 0x00000000#32) (ix2 p q)
          + FloatOps.matmul dot_S200x128_S128x128_S200x128_1_0_0_1_n_n none tx w2
            (constant (F := Ideal) S200x128 .f32 0x00000000#32) (ix2 p q)))
      + broadcastTo S200x128 b broadcasts_S1x128_S200x128 (ix2 p q)
    = (u (ix2 p q) + half * (matProd HtR w1 (ix2 p q) + matProd tx w2 (ix2 p q))) + b (ix2 (0 : Fin 1) q)
  rw [matmul_zero_eq (φ₁ := .bf16) (φ₂ := .bf16) r2_contractsB none HtR w1,
    matmul_zero_eq (φ₁ := .bf16) (φ₂ := .bf16) r2_contractsB none tx w2,
    broadcastTo_1b_ab_apply b broadcasts_S1x128_S200x128 p q]

/-! ### The two stored blocks as the network's last arithmetic over the block -/

/-- The mean block is the last arithmetic's left-half form over the blocks. -/
theorem pay_mean (x0 x1 : Vec Ideal S200x10000 .f32) (x2 x3 : Vec Ideal S10000x256 .bf16) (x4 x5 : Vec Ideal S1x256 .f32)
    (x6 x8 x12 x13 : Vec Ideal S128x128 .bf16) (x10 x11 : Vec Ideal S200x128 .f32) (x16 : Vec Ideal S1x128 .f32) :
    k2_pay7 (F := Ideal) (k2_pay3 x1 x3 x5) (k2_pay4 x10) (k2_pay5 x11) (k2_pay6 x0 x2 x4) x6 x12 x8 x13 x16
      = tailLeft (r := 200) (n := 10000) (d := 128) x0 x1 x2 x3 x4 x5 x6 x8 x10 x11 x12 x13 x16 := by
  rw [r2_pay7, r2_pay6, r2_wide3]
  rfl

/-- The log-deviation block is the last arithmetic's right-half form over the blocks. -/
theorem pay_logstd (x0 x1 : Vec Ideal S200x10000 .f32) (x2 x3 : Vec Ideal S10000x256 .bf16) (x4 x5 : Vec Ideal S1x256 .f32)
    (x7 x9 x14 x15 : Vec Ideal S128x128 .bf16) (x10 x11 : Vec Ideal S200x128 .f32) (x17 : Vec Ideal S1x128 .f32) :
    k2_pay1 (F := Ideal) (k2_pay5 x11) (k2_pay8 (k2_pay2 x0 x2 x4) (k2_pay4 x10) x7 x14) (k2_pay9 (k2_pay3 x1 x3 x5)) x9 x15 x17
      = tailRight (r := 200) (n := 10000) (d := 128) x0 x1 x2 x3 x4 x5 x7 x9 x10 x11 x14 x15 x17 := by
  rw [r2_pay1, r2_pay8, r2_pay9, r2_wide2, r2_wide3]
  rfl

/-! ### From a block's entry to the whole arrays' entry -/

/-- Entry `j` of the mean block is entry `i` of the left-half form over the WHOLE arrays, when the row-blocked
    operands' row `j 0` is the whole arrays' row `i 0`, the other operands are the whole arrays, and the two entries
    sit in the same column. -/
theorem r2_mean_entry
    (As At : (Mat 10000 10000).Idx → EReal) (Ss St : (Mat 10000 (128 + 128)).Idx → EReal)
    (bs bt : (Mat 1 (128 + 128)).Idx → EReal) (Wms Wmt : (Mat 128 128).Idx → EReal)
    (X Y : (Mat 10000 128).Idx → EReal) (Wbs Wbt : (Mat 128 128).Idx → EReal) (bm : (Mat 1 128).Idx → EReal)
    (x0 x1 : Vec Ideal S200x10000 .f32) (x2 x3 : Vec Ideal S10000x256 .bf16) (x4 x5 : Vec Ideal S1x256 .f32)
    (x6 x8 x12 x13 : Vec Ideal S128x128 .bf16) (x10 x11 : Vec Ideal S200x128 .f32) (x16 : Vec Ideal S1x128 .f32)
    (j : S200x128.Idx) (i : S10000x128.Idx)
    (h0 : ∀ k : Fin 10000, x0 (ix2 (n0 := 200) (n1 := 10000) (j 0) k) = As (ix2 (n0 := 10000) (n1 := 10000) (i 0) k))
    (h1 : ∀ k : Fin 10000, x1 (ix2 (n0 := 200) (n1 := 10000) (j 0) k) = At (ix2 (n0 := 10000) (n1 := 10000) (i 0) k))
    (h2 : x2 = Ss) (h3 : x3 = St) (h4 : x4 = bs) (h5 : x5 = bt) (h6 : x6 = Wms) (h8 : x8 = Wmt)
    (h10 : ∀ k : Fin 128, x10 (ix2 (n0 := 200) (n1 := 128) (j 0) k) = X (ix2 (n0 := 10000) (n1 := 128) (i 0) k))
    (h11 : ∀ k : Fin 128, x11 (ix2 (n0 := 200) (n1 := 128) (j 0) k) = Y (ix2 (n0 := 10000) (n1 := 128) (i 0) k))
    (h12 : x12 = Wbs) (h13 : x13 = Wbt) (h16 : x16 = bm) (hcol : (j 1).val = (i 1).val) :
    k2_pay7 (F := Ideal) (k2_pay3 x1 x3 x5) (k2_pay4 x10) (k2_pay5 x11) (k2_pay6 x0 x2 x4) x6 x12 x8 x13 x16 j
      = tailLeft (r := 10000) (n := 10000) (d := 128) As At Ss St bs bt Wms Wmt X Y Wbs Wbt bm i := by
  subst h2 h3 h4 h5 h6 h8 h12 h13 h16
  rw [pay_mean]
  obtain ⟨p, q, rfl⟩ : ∃ (p : Fin 200) (q : Fin 128), j = ix2 p q := ⟨j 0, j 1, eq_ix2 j⟩
  obtain ⟨P, Q, rfl⟩ : ∃ (P : Fin 10000) (Q : Fin 128), i = ix2 P Q := ⟨i 0, i 1, eq_ix2 i⟩
  obtain rfl : q = Q := Fin.ext hcol
  exact tailLeft_of_rows x0 x1 As At _ _ _ _ _ _ x10 x11 X Y _ _ _ p P q h0 h1 h10 h11

/-- Entry `j` of the log-deviation block is entry `i` of the right-half form over the WHOLE arrays, under the same
    hypotheses. -/
theorem r2_logstd_entry
    (As At : (Mat 10000 10000).Idx → EReal) (Ss St : (Mat 10000 (128 + 128)).Idx → EReal)
    (bs bt : (Mat 1 (128 + 128)).Idx → EReal) (Wss Wst : (Mat 128 128).Idx → EReal)
    (X Y : (Mat 10000 128).Idx → EReal) (Wbs Wbt : (Mat 128 128).Idx → EReal) (bm : (Mat 1 128).Idx → EReal)
    (x0 x1 : Vec Ideal S200x10000 .f32) (x2 x3 : Vec Ideal S10000x256 .bf16) (x4 x5 : Vec Ideal S1x256 .f32)
    (x7 x9 x14 x15 : Vec Ideal S128x128 .bf16) (x10 x11 : Vec Ideal S200x128 .f32) (x17 : Vec Ideal S1x128 .f32)
    (j : S200x128.Idx) (i : S10000x128.Idx)
    (h0 : ∀ k : Fin 10000, x0 (ix2 (n0 := 200) (n1 := 10000) (j 0) k) = As (ix2 (n0 := 10000) (n1 := 10000) (i 0) k))
    (h1 : ∀ k : Fin 10000, x1 (ix2 (n0 := 200) (n1 := 10000) (j 0) k) = At (ix2 (n0 := 10000) (n1 := 10000) (i 0) k))
    (h2 : x2 = Ss) (h3 : x3 = St) (h4 : x4 = bs) (h5 : x5 = bt) (h7 : x7 = Wss) (h9 : x9 = Wst)
    (h10 : ∀ k : Fin 128, x10 (ix2 (n0 := 200) (n1 := 128) (j 0) k) = X (ix2 (n0 := 10000) (n1 := 128) (i 0) k))
    (h11 : ∀ k : Fin 128, x11 (ix2 (n0 := 200) (n1 := 128) (j 0) k) = Y (ix2 (n0 := 10000) (n1 := 128) (i 0) k))
    (h14 : x14 = Wbs) (h15 : x15 = Wbt) (h17 : x17 = bm) (hcol : (j 1).val = (i 1).val) :
    k2_pay1 (F := Ideal) (k2_pay5 x11) (k2_pay8 (k2_pay2 x0 x2 x4) (k2_pay4 x10) x7 x14) (k2_pay9 (k2_pay3 x1 x3 x5)) x9 x15 x17 j
      = tailRight (r := 10000) (n := 10000) (d := 128) As At Ss St bs bt Wss Wst X Y Wbs Wbt bm i := by
  subst h2 h3 h4 h5 h7 h9 h14 h15 h17
  rw [pay_logstd]
  obtain ⟨p, q, rfl⟩ : ∃ (p : Fin 200) (q : Fin 128), j = ix2 p q := ⟨j 0, j 1, eq_ix2 j⟩
  obtain ⟨P, Q, rfl⟩ : ∃ (P : Fin 10000) (Q : Fin 128), i = ix2 P Q := ⟨i 0, i 1, eq_ix2 i⟩
  obtain rfl : q = Q := Fin.ext hcol
  exact tailRight_of_rows x0 x1 As At _ _ _ _ _ _ x10 x11 X Y _ _ _ p P q h0 h1 h10 h11

end Cert.KernelIdeal.KValue

end
-- ==== Proof.Region2.lean ====
/-
  The last region's two output arrays, after the region, as whole-array functions of the buffers the region finds.

  At grid point `t` the body stores, into each output window's block, the last arithmetic over the blocks: rows
  `200 t … 200 t + 199` of the two adjacency matrices and of the two feature matrices, and the whole of every other
  operand. A row of a product depends on that row of the left operand only, so the stored block is rows `200 t …` of
  the last arithmetic over the WHOLE arrays; the fifty blocks tile the 10000 rows, so each output array ends holding
  that function of the arrays the region found.
-/
import proofs.«174822_g77111842832928_cont_sun_m_99_16_alg».proof.Proof.Gen.KernelIdeal.Frame
import proofs.«174822_g77111842832928_cont_sun_m_99_16_alg».proof.Proof.Payload2
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx Cert.Linear Cert.Gcn
open Idealize.ShloMosaic.Pipeline (Dat)

variable (V : (c : Dev nD) → (b : Ref sig .tc) → Buf (Elt Ideal) ((c : Thread nD τ).loc b))

/-- The zero offsets of a whole-buffer access, as a constant function. -/
theorem r2_zero_off : (![0, 0] : Fin 2 → Nat) = fun _ => 0 := funext fun a => by fin_cases a <;> rfl

/-! ## The index maps over the fifty grid points

The adjacency, feature and output windows sit at row block `t`, column block 0; every other window is the whole
array. -/

theorem r2_idx_0 : ∀ t : Fin cfg2.N, win2_0.index t (0 : Fin 2) = t.val ∧ win2_0.index t (1 : Fin 2) = 0 :=
  (by decide +kernel : ∀ t : Fin grid2.N, _)
theorem r2_idx_1 : ∀ t : Fin cfg2.N, win2_1.index t (0 : Fin 2) = t.val ∧ win2_1.index t (1 : Fin 2) = 0 :=
  (by decide +kernel : ∀ t : Fin grid2.N, _)
theorem r2_idx_2 : ∀ t : Fin cfg2.N, win2_2.index t (0 : Fin 2) = 0 ∧ win2_2.index t (1 : Fin 2) = 0 :=
  (by decide +kernel : ∀ t : Fin grid2.N, _)
theorem r2_idx_3 : ∀ t : Fin cfg2.N, win2_3.index t (0 : Fin 2) = 0 ∧ win2_3.index t (1 : Fin 2) = 0 :=
  (by decide +kernel : ∀ t : Fin grid2.N, _)
theorem r2_idx_4 : ∀ t : Fin cfg2.N, win2_4.index t (0 : Fin 2) = 0 ∧ win2_4.index t (1 : Fin 2) = 0 :=
  (by decide +kernel : ∀ t : Fin grid2.N, _)
theorem r2_idx_5 : ∀ t : Fin cfg2.N, win2_5.index t (0 : Fin 2) = 0 ∧ win2_5.index t (1 : Fin 2) = 0 :=
  (by decide +kernel : ∀ t : Fin grid2.N, _)
theorem r2_idx_6 : ∀ t : Fin cfg2.N, win2_6.index t (0 : Fin 2) = 0 ∧ win2_6.index t (1 : Fin 2) = 0 :=
  (by decide +kernel : ∀ t : Fin grid2.N, _)
theorem r2_idx_7 : ∀ t : Fin cfg2.N, win2_7.index t (0 : Fin 2) = 0 ∧ win2_7.index t (1 : Fin 2) = 0 :=
  (by decide +kernel : ∀ t : Fin grid2.N, _)
theorem r2_idx_8 : ∀ t : Fin cfg2.N, win2_8.index t (0 : Fin 2) = 0 ∧ win2_8.index t (1 : Fin 2) = 0 :=
  (by decide +kernel : ∀ t : Fin grid2.N, _)
theorem r2_idx_9 : ∀ t : Fin cfg2.N, win2_9.index t (0 : Fin 2) = 0 ∧ win2_9.index t (1 : Fin 2) = 0 :=
  (by decide +kernel : ∀ t : Fin grid2.N, _)
theorem r2_idx_10 : ∀ t : Fin cfg2.N, win2_10.index t (0 : Fin 2) = t.val ∧ win2_10.index t (1 : Fin 2) = 0 :=
  (by decide +kernel : ∀ t : Fin grid2.N, _)
theorem r2_idx_11 : ∀ t : Fin cfg2.N, win2_11.index t (0 : Fin 2) = t.val ∧ win2_11.index t (1 : Fin 2) = 0 :=
  (by decide +kernel : ∀ t : Fin grid2.N, _)
theorem r2_idx_12 : ∀ t : Fin cfg2.N, win2_12.index t (0 : Fin 2) = 0 ∧ win2_12.index t (1 : Fin 2) = 0 :=
  (by decide +kernel : ∀ t : Fin grid2.N, _)
theorem r2_idx_13 : ∀ t : Fin cfg2.N, win2_13.index t (0 : Fin 2) = 0 ∧ win2_13.index t (1 : Fin 2) = 0 :=
  (by decide +kernel : ∀ t : Fin grid2.N, _)
theorem r2_idx_14 : ∀ t : Fin cfg2.N, win2_14.index t (0 : Fin 2) = 0 ∧ win2_14.index t (1 : Fin 2) = 0 :=
  (by decide +kernel : ∀ t : Fin grid2.N, _)
theorem r2_idx_15 : ∀ t : Fin cfg2.N, win2_15.index t (0 : Fin 2) = 0 ∧ win2_15.index t (1 : Fin 2) = 0 :=
  (by decide +kernel : ∀ t : Fin grid2.N, _)
theorem r2_idx_16 : ∀ t : Fin cfg2.N, win2_16.index t (0 : Fin 2) = 0 ∧ win2_16.index t (1 : Fin 2) = 0 :=
  (by decide +kernel : ∀ t : Fin grid2.N, _)
theorem r2_idx_17 : ∀ t : Fin cfg2.N, win2_17.index t (0 : Fin 2) = 0 ∧ win2_17.index t (1 : Fin 2) = 0 :=
  (by decide +kernel : ∀ t : Fin grid2.N, _)
theorem r2_idx_18 : ∀ t : Fin cfg2.N, win2_18.index t (0 : Fin 2) = t.val ∧ win2_18.index t (1 : Fin 2) = 0 :=
  (by decide +kernel : ∀ t : Fin grid2.N, _)
theorem r2_idx_19 : ∀ t : Fin cfg2.N, win2_19.index t (0 : Fin 2) = t.val ∧ win2_19.index t (1 : Fin 2) = 0 :=
  (by decide +kernel : ∀ t : Fin grid2.N, _)

/-! ## A whole-array window's block is the array -/

theorem r2_whole_2 (c : Dev nD) (t : Fin cfg2.N) :
    (iblk2 (F := Ideal) V c 2 t : S10000x256.Idx → EReal) = (V c main_v9_0 : S10000x256.Idx → EReal) := by
  obtain ⟨e0, e1⟩ := r2_idx_2 t
  funext y
  show V c main_v9_0 (((cfg2.win 2).blk t).view.emb y) = V c main_v9_0 y
  congr 1
  funext a; apply Fin.ext
  match a with
  | ⟨0, _⟩ => show win2_2.index t (0 : Fin 2) * 10000 + 1 * (y 0).val = (y 0).val; omega
  | ⟨1, _⟩ => show win2_2.index t (1 : Fin 2) * 256 + 1 * (y 1).val = (y 1).val; omega
theorem r2_whole_3 (c : Dev nD) (t : Fin cfg2.N) :
    (iblk2 (F := Ideal) V c 3 t : S10000x256.Idx → EReal) = (V c main_v9_1 : S10000x256.Idx → EReal) := by
  obtain ⟨e0, e1⟩ := r2_idx_3 t
  funext y
  show V c main_v9_1 (((cfg2.win 3).blk t).view.emb y) = V c main_v9_1 y
  congr 1
  funext a; apply Fin.ext
  match a with
  | ⟨0, _⟩ => show win2_3.index t (0 : Fin 2) * 10000 + 1 * (y 0).val = (y 0).val; omega
  | ⟨1, _⟩ => show win2_3.index t (1 : Fin 2) * 256 + 1 * (y 1).val = (y 1).val; omega
theorem r2_whole_4 (c : Dev nD) (t : Fin cfg2.N) :
    (iblk2 (F := Ideal) V c 4 t : S1x256.Idx → EReal) = (V c main_v11 : S1x256.Idx → EReal) := by
  obtain ⟨e0, e1⟩ := r2_idx_4 t
  funext y
  show V c main_v11 (((cfg2.win 4).blk t).view.emb y) = V c main_v11 y
  congr 1
  funext a; apply Fin.ext
  match a with
  | ⟨0, _⟩ => show win2_4.index t (0 : Fin 2) * 1 + 1 * (y 0).val = (y 0).val; omega
  | ⟨1, _⟩ => show win2_4.index t (1 : Fin 2) * 256 + 1 * (y 1).val = (y 1).val; omega
theorem r2_whole_5 (c : Dev nD) (t : Fin cfg2.N) :
    (iblk2 (F := Ideal) V c 5 t : S1x256.Idx → EReal) = (V c main_v13 : S1x256.Idx → EReal) := by
  obtain ⟨e0, e1⟩ := r2_idx_5 t
  funext y
  show V c main_v13 (((cfg2.win 5).blk t).view.emb y) = V c main_v13 y
  congr 1
  funext a; apply Fin.ext
  match a with
  | ⟨0, _⟩ => show win2_5.index t (0 : Fin 2) * 1 + 1 * (y 0).val = (y 0).val; omega
  | ⟨1, _⟩ => show win2_5.index t (1 : Fin 2) * 256 + 1 * (y 1).val = (y 1).val; omega
theorem r2_whole_6 (c : Dev nD) (t : Fin cfg2.N) :
    (iblk2 (F := Ideal) V c 6 t : S128x128.Idx → EReal) = (V c main_v27 : S128x128.Idx → EReal) := by
  obtain ⟨e0, e1⟩ := r2_idx_6 t
  funext y
  show V c main_v27 (((cfg2.win 6).blk t).view.emb y) = V c main_v27 y
  congr 1
  funext a; apply Fin.ext
  match a with
  | ⟨0, _⟩ => show win2_6.index t (0 : Fin 2) * 128 + 1 * (y 0).val = (y 0).val; omega
  | ⟨1, _⟩ => show win2_6.index t (1 : Fin 2) * 128 + 1 * (y 1).val = (y 1).val; omega
theorem r2_whole_7 (c : Dev nD) (t : Fin cfg2.N) :
    (iblk2 (F := Ideal) V c 7 t : S128x128.Idx → EReal) = (V c main_v29 : S128x128.Idx → EReal) := by
  obtain ⟨e0, e1⟩ := r2_idx_7 t
  funext y
  show V c main_v29 (((cfg2.win 7).blk t).view.emb y) = V c main_v29 y
  congr 1
  funext a; apply Fin.ext
  match a with
  | ⟨0, _⟩ => show win2_7.index t (0 : Fin 2) * 128 + 1 * (y 0).val = (y 0).val; omega
  | ⟨1, _⟩ => show win2_7.index t (1 : Fin 2) * 128 + 1 * (y 1).val = (y 1).val; omega
theorem r2_whole_8 (c : Dev nD) (t : Fin cfg2.N) :
    (iblk2 (F := Ideal) V c 8 t : S128x128.Idx → EReal) = (V c main_v31 : S128x128.Idx → EReal) := by
  obtain ⟨e0, e1⟩ := r2_idx_8 t
  funext y
  show V c main_v31 (((cfg2.win 8).blk t).view.emb y) = V c main_v31 y
  congr 1
  funext a; apply Fin.ext
  match a with
  | ⟨0, _⟩ => show win2_8.index t (0 : Fin 2) * 128 + 1 * (y 0).val = (y 0).val; omega
  | ⟨1, _⟩ => show win2_8.index t (1 : Fin 2) * 128 + 1 * (y 1).val = (y 1).val; omega
theorem r2_whole_9 (c : Dev nD) (t : Fin cfg2.N) :
    (iblk2 (F := Ideal) V c 9 t : S128x128.Idx → EReal) = (V c main_v33 : S128x128.Idx → EReal) := by
  obtain ⟨e0, e1⟩ := r2_idx_9 t
  funext y
  show V c main_v33 (((cfg2.win 9).blk t).view.emb y) = V c main_v33 y
  congr 1
  funext a; apply Fin.ext
  match a with
  | ⟨0, _⟩ => show win2_9.index t (0 : Fin 2) * 128 + 1 * (y 0).val = (y 0).val; omega
  | ⟨1, _⟩ => show win2_9.index t (1 : Fin 2) * 128 + 1 * (y 1).val = (y 1).val; omega
theorem r2_whole_12 (c : Dev nD) (t : Fin cfg2.N) :
    (iblk2 (F := Ideal) V c 12 t : S128x128.Idx → EReal) = (V c main_v35 : S128x128.Idx → EReal) := by
  obtain ⟨e0, e1⟩ := r2_idx_12 t
  funext y
  show V c main_v35 (((cfg2.win 12).blk t).view.emb y) = V c main_v35 y
  congr 1
  funext a; apply Fin.ext
  match a with
  | ⟨0, _⟩ => show win2_12.index t (0 : Fin 2) * 128 + 1 * (y 0).val = (y 0).val; omega
  | ⟨1, _⟩ => show win2_12.index t (1 : Fin 2) * 128 + 1 * (y 1).val = (y 1).val; omega
theorem r2_whole_13 (c : Dev nD) (t : Fin cfg2.N) :
    (iblk2 (F := Ideal) V c 13 t : S128x128.Idx → EReal) = (V c main_v37 : S128x128.Idx → EReal) := by
  obtain ⟨e0, e1⟩ := r2_idx_13 t
  funext y
  show V c main_v37 (((cfg2.win 13).blk t).view.emb y) = V c main_v37 y
  congr 1
  funext a; apply Fin.ext
  match a with
  | ⟨0, _⟩ => show win2_13.index t (0 : Fin 2) * 128 + 1 * (y 0).val = (y 0).val; omega
  | ⟨1, _⟩ => show win2_13.index t (1 : Fin 2) * 128 + 1 * (y 1).val = (y 1).val; omega
theorem r2_whole_14 (c : Dev nD) (t : Fin cfg2.N) :
    (iblk2 (F := Ideal) V c 14 t : S128x128.Idx → EReal) = (V c main_v39 : S128x128.Idx → EReal) := by
  obtain ⟨e0, e1⟩ := r2_idx_14 t
  funext y
  show V c main_v39 (((cfg2.win 14).blk t).view.emb y) = V c main_v39 y
  congr 1
  funext a; apply Fin.ext
  match a with
  | ⟨0, _⟩ => show win2_14.index t (0 : Fin 2) * 128 + 1 * (y 0).val = (y 0).val; omega
  | ⟨1, _⟩ => show win2_14.index t (1 : Fin 2) * 128 + 1 * (y 1).val = (y 1).val; omega
theorem r2_whole_15 (c : Dev nD) (t : Fin cfg2.N) :
    (iblk2 (F := Ideal) V c 15 t : S128x128.Idx → EReal) = (V c main_v41 : S128x128.Idx → EReal) := by
  obtain ⟨e0, e1⟩ := r2_idx_15 t
  funext y
  show V c main_v41 (((cfg2.win 15).blk t).view.emb y) = V c main_v41 y
  congr 1
  funext a; apply Fin.ext
  match a with
  | ⟨0, _⟩ => show win2_15.index t (0 : Fin 2) * 128 + 1 * (y 0).val = (y 0).val; omega
  | ⟨1, _⟩ => show win2_15.index t (1 : Fin 2) * 128 + 1 * (y 1).val = (y 1).val; omega
theorem r2_whole_16 (c : Dev nD) (t : Fin cfg2.N) :
    (iblk2 (F := Ideal) V c 16 t : S1x128.Idx → EReal) = (V c main_v19 : S1x128.Idx → EReal) := by
  obtain ⟨e0, e1⟩ := r2_idx_16 t
  funext y
  show V c main_v19 (((cfg2.win 16).blk t).view.emb y) = V c main_v19 y
  congr 1
  funext a; apply Fin.ext
  match a with
  | ⟨0, _⟩ => show win2_16.index t (0 : Fin 2) * 1 + 1 * (y 0).val = (y 0).val; omega
  | ⟨1, _⟩ => show win2_16.index t (1 : Fin 2) * 128 + 1 * (y 1).val = (y 1).val; omega
theorem r2_whole_17 (c : Dev nD) (t : Fin cfg2.N) :
    (iblk2 (F := Ideal) V c 17 t : S1x128.Idx → EReal) = (V c main_v25 : S1x128.Idx → EReal) := by
  obtain ⟨e0, e1⟩ := r2_idx_17 t
  funext y
  show V c main_v25 (((cfg2.win 17).blk t).view.emb y) = V c main_v25 y
  congr 1
  funext a; apply Fin.ext
  match a with
  | ⟨0, _⟩ => show win2_17.index t (0 : Fin 2) * 1 + 1 * (y 0).val = (y 0).val; omega
  | ⟨1, _⟩ => show win2_17.index t (1 : Fin 2) * 128 + 1 * (y 1).val = (y 1).val; omega

/-! ## A row-blocked window's block is rows `200 t …` of the array; an output block's coordinates -/

theorem r2_row_0 (c : Dev nD) (t : Fin cfg2.N) (p : Fin 200) (P : Fin 10000) (hP : P.val = t.val * 200 + p.val) (k : Fin 10000) :
    (iblk2 (F := Ideal) V c 0 t : S200x10000.Idx → EReal) (ix2 (n0 := 200) (n1 := 10000) p k)
      = (V c main_arg2 : S10000x10000.Idx → EReal) (ix2 (n0 := 10000) (n1 := 10000) P k) := by
  obtain ⟨e0, e1⟩ := r2_idx_0 t
  show V c main_arg2 (((cfg2.win 0).blk t).view.emb (ix2 (n0 := 200) (n1 := 10000) p k)) = _
  congr 1
  funext a; apply Fin.ext
  match a with
  | ⟨0, _⟩ => show win2_0.index t (0 : Fin 2) * 200 + 1 * p.val = P.val; omega
  | ⟨1, _⟩ => show win2_0.index t (1 : Fin 2) * 10000 + 1 * k.val = k.val; omega
theorem r2_row_1 (c : Dev nD) (t : Fin cfg2.N) (p : Fin 200) (P : Fin 10000) (hP : P.val = t.val * 200 + p.val) (k : Fin 10000) :
    (iblk2 (F := Ideal) V c 1 t : S200x10000.Idx → EReal) (ix2 (n0 := 200) (n1 := 10000) p k)
      = (V c main_arg4 : S10000x10000.Idx → EReal) (ix2 (n0 := 10000) (n1 := 10000) P k) := by
  obtain ⟨e0, e1⟩ := r2_idx_1 t
  show V c main_arg4 (((cfg2.win 1).blk t).view.emb (ix2 (n0 := 200) (n1 := 10000) p k)) = _
  congr 1
  funext a; apply Fin.ext
  match a with
  | ⟨0, _⟩ => show win2_1.index t (0 : Fin 2) * 200 + 1 * p.val = P.val; omega
  | ⟨1, _⟩ => show win2_1.index t (1 : Fin 2) * 10000 + 1 * k.val = k.val; omega
theorem r2_row_10 (c : Dev nD) (t : Fin cfg2.N) (p : Fin 200) (P : Fin 10000) (hP : P.val = t.val * 200 + p.val) (k : Fin 128) :
    (iblk2 (F := Ideal) V c 10 t : S200x128.Idx → EReal) (ix2 (n0 := 200) (n1 := 128) p k)
      = (V c main_arg0 : S10000x128.Idx → EReal) (ix2 (n0 := 10000) (n1 := 128) P k) := by
  obtain ⟨e0, e1⟩ := r2_idx_10 t
  show V c main_arg0 (((cfg2.win 10).blk t).view.emb (ix2 (n0 := 200) (n1 := 128) p k)) = _
  congr 1
  funext a; apply Fin.ext
  match a with
  | ⟨0, _⟩ => show win2_10.index t (0 : Fin 2) * 200 + 1 * p.val = P.val; omega
  | ⟨1, _⟩ => show win2_10.index t (1 : Fin 2) * 128 + 1 * k.val = k.val; omega
theorem r2_row_11 (c : Dev nD) (t : Fin cfg2.N) (p : Fin 200) (P : Fin 10000) (hP : P.val = t.val * 200 + p.val) (k : Fin 128) :
    (iblk2 (F := Ideal) V c 11 t : S200x128.Idx → EReal) (ix2 (n0 := 200) (n1 := 128) p k)
      = (V c main_arg1 : S10000x128.Idx → EReal) (ix2 (n0 := 10000) (n1 := 128) P k) := by
  obtain ⟨e0, e1⟩ := r2_idx_11 t
  show V c main_arg1 (((cfg2.win 11).blk t).view.emb (ix2 (n0 := 200) (n1 := 128) p k)) = _
  congr 1
  funext a; apply Fin.ext
  match a with
  | ⟨0, _⟩ => show win2_11.index t (0 : Fin 2) * 200 + 1 * p.val = P.val; omega
  | ⟨1, _⟩ => show win2_11.index t (1 : Fin 2) * 128 + 1 * k.val = k.val; omega
theorem r2_emb_18 (t : Fin cfg2.N) (j : S200x128.Idx) :
    ((((cfg2.win 18).blk t).view.emb j : S10000x128.Idx) 0).val = t.val * 200 + (j 0).val
      ∧ (j 1).val = ((((cfg2.win 18).blk t).view.emb j : S10000x128.Idx) 1).val := by
  obtain ⟨o0, o1⟩ := r2_idx_18 t
  constructor
  · show win2_18.index t (0 : Fin 2) * 200 + 1 * (j 0).val = t.val * 200 + (j 0).val; omega
  · show (j 1).val = win2_18.index t (1 : Fin 2) * 128 + 1 * (j 1).val; omega
theorem r2_emb_19 (t : Fin cfg2.N) (j : S200x128.Idx) :
    ((((cfg2.win 19).blk t).view.emb j : S10000x128.Idx) 0).val = t.val * 200 + (j 0).val
      ∧ (j 1).val = ((((cfg2.win 19).blk t).view.emb j : S10000x128.Idx) 1).val := by
  obtain ⟨o0, o1⟩ := r2_idx_19 t
  constructor
  · show win2_19.index t (0 : Fin 2) * 200 + 1 * (j 0).val = t.val * 200 + (j 0).val; omega
  · show (j 1).val = win2_19.index t (1 : Fin 2) * 128 + 1 * (j 1).val; omega

/-! ## Output window 18: the mean -/

/-- What point `t` writes back is block `t` of the left-half form over the whole arrays. -/
theorem r2_flushed_18_eq (c : Dev nD) (t : Fin cfg2.N) :
    (dat2 (F := Ideal) V c).flushed 18 t
      = ((cfg2.win 18).blk t).view.read (Elt Ideal)
          (tailLeft (r := 10000) (n := 10000) (d := 128) (V c main_arg2) (V c main_arg4) (V c main_v9_0) (V c main_v9_1) (V c main_v11) (V c main_v13)
          (V c main_v27) (V c main_v31) (V c main_arg0) (V c main_arg1) (V c main_v35) (V c main_v37) (V c main_v19)) := by
  show (cfg2.win 18).cut (grid2.coords t) ((dat2 V c).after 18 t) = _
  rw [after2_18]
  unfold out2_18
  rw [View.canon_unit_zero r2_zero_off]
  simp only [View.ld_unit_zero (S := S200x10000) r2_zero_off, View.ld_unit_zero (S := S10000x256) r2_zero_off,
    View.ld_unit_zero (S := S1x256) r2_zero_off, View.ld_unit_zero (S := S200x128) r2_zero_off,
    View.ld_unit_zero (S := S128x128) r2_zero_off, View.ld_unit_zero (S := S1x128) r2_zero_off]
  funext j
  obtain ⟨hr, hc⟩ := r2_emb_18 t j
  show k2_pay7 (F := Ideal) (k2_pay3 (iblk2 V c 1 t) (iblk2 V c 3 t) (iblk2 V c 5 t)) (k2_pay4 (iblk2 V c 10 t)) (k2_pay5 (iblk2 V c 11 t))
        (k2_pay6 (iblk2 V c 0 t) (iblk2 V c 2 t) (iblk2 V c 4 t)) (iblk2 V c 6 t) (iblk2 V c 12 t) (iblk2 V c 8 t) (iblk2 V c 13 t) (iblk2 V c 16 t) j
    = tailLeft (r := 10000) (n := 10000) (d := 128) (V c main_arg2) (V c main_arg4) (V c main_v9_0) (V c main_v9_1) (V c main_v11) (V c main_v13)
          (V c main_v27) (V c main_v31) (V c main_arg0) (V c main_arg1) (V c main_v35) (V c main_v37) (V c main_v19) (((cfg2.win 18).blk t).view.emb j)
  exact r2_mean_entry (V c main_arg2) (V c main_arg4) (V c main_v9_0) (V c main_v9_1) (V c main_v11) (V c main_v13)
    (V c main_v27) (V c main_v31) (V c main_arg0) (V c main_arg1) (V c main_v35) (V c main_v37) (V c main_v19)
    (iblk2 V c 0 t) (iblk2 V c 1 t) (iblk2 V c 2 t) (iblk2 V c 3 t) (iblk2 V c 4 t) (iblk2 V c 5 t)
    (iblk2 V c 6 t) (iblk2 V c 8 t) (iblk2 V c 12 t) (iblk2 V c 13 t) (iblk2 V c 10 t) (iblk2 V c 11 t) (iblk2 V c 16 t)
    j (((cfg2.win 18).blk t).view.emb j) (fun k => r2_row_0 V c t (j 0) _ hr k) (fun k => r2_row_1 V c t (j 0) _ hr k)
    (r2_whole_2 V c t) (r2_whole_3 V c t) (r2_whole_4 V c t) (r2_whole_5 V c t) (r2_whole_6 V c t) (r2_whole_8 V c t)
    (fun k => r2_row_10 V c t (j 0) _ hr k) (fun k => r2_row_11 V c t (j 0) _ hr k) (r2_whole_12 V c t) (r2_whole_13 V c t) (r2_whole_16 V c t) hc

/-- An index of the array is in point `t`'s block iff each coordinate is in the block's range on its axis. -/
theorem r2_mem_blk_18 (t : Fin cfg2.N) (i : S10000x128.Idx) :
    i ∈ ((cfg2.win 18).blk t).view.set ↔ ∀ a : Fin 2, win2_18.index t a * S200x128.size a ≤ (i a).val ∧ (i a).val < win2_18.index t a * S200x128.size a + S200x128.size a := by
  show i ∈ ((View.whole main_v42_0).slice (win2_18.rect t)).set ↔ _
  rw [View.set_slice_whole, Rect.mem_set_unit]
  exact Iff.rfl

/-- Row `r` of the array is in the block of point `r / 200`. -/
theorem r2_covered_18 (i : S10000x128.Idx) :
    ∃ t : Fin cfg2.N, (cfg2.win 18).flush t = true ∧ i ∈ ((cfg2.win 18).blk t).view.set := by
  have hi0 : (i 0).val < 10000 := (i 0).isLt
  have hi1 : (i 1).val < 128 := (i 1).isLt
  have hN : grid2.N = 50 := N_2
  have ht : (i 0).val / 200 < cfg2.N := by show (i 0).val / 200 < grid2.N; rw [hN]; omega
  obtain ⟨o0, o1⟩ := r2_idx_18 ⟨(i 0).val / 200, ht⟩
  have o0' : win2_18.index ⟨(i 0).val / 200, ht⟩ (0 : Fin 2) = (i 0).val / 200 := o0
  refine ⟨⟨(i 0).val / 200, ht⟩, flush2_18 _, ?_⟩
  rw [r2_mem_blk_18]
  intro a
  match a with
  | ⟨0, _⟩ => show win2_18.index ⟨(i 0).val / 200, ht⟩ (0 : Fin 2) * 200 ≤ (i 0).val ∧ (i 0).val < win2_18.index ⟨(i 0).val / 200, ht⟩ (0 : Fin 2) * 200 + 200; omega
  | ⟨1, _⟩ => show win2_18.index ⟨(i 0).val / 200, ht⟩ (1 : Fin 2) * 128 ≤ (i 1).val ∧ (i 1).val < win2_18.index ⟨(i 0).val / 200, ht⟩ (1 : Fin 2) * 128 + 128; omega

/-- The mean array after the region is the left-half form over the arrays the region found. -/
theorem arr2_18 (c : Dev nD) : (Gen.dat2 (F := Ideal) V c).arrAt 18 cfg2.N
      = Cert.Gcn.tailLeft (r := 10000) (n := 10000) (d := 128) (V c main_arg2) (V c main_arg4) (V c main_v9_0) (V c main_v9_1) (V c main_v11) (V c main_v13)
          (V c main_v27) (V c main_v31) (V c main_arg0) (V c main_arg1) (V c main_v35) (V c main_v37) (V c main_v19) :=
  (dat2 (F := Ideal) V c).arrAt_eq_of_cover 18 _ (fun t _ => r2_flushed_18_eq V c t) r2_covered_18

/-! ## Output window 19: the log-deviation -/

/-- What point `t` writes back is block `t` of the right-half form over the whole arrays. -/
theorem r2_flushed_19_eq (c : Dev nD) (t : Fin cfg2.N) :
    (dat2 (F := Ideal) V c).flushed 19 t
      = ((cfg2.win 19).blk t).view.read (Elt Ideal)
          (tailRight (r := 10000) (n := 10000) (d := 128) (V c main_arg2) (V c main_arg4) (V c main_v9_0) (V c main_v9_1) (V c main_v11) (V c main_v13)
          (V c main_v29) (V c main_v33) (V c main_arg0) (V c main_arg1) (V c main_v39) (V c main_v41) (V c main_v25)) := by
  show (cfg2.win 19).cut (grid2.coords t) ((dat2 V c).after 19 t) = _
  rw [after2_19]
  unfold out2_19
  rw [View.canon_unit_zero r2_zero_off]
  simp only [View.ld_unit_zero (S := S200x10000) r2_zero_off, View.ld_unit_zero (S := S10000x256) r2_zero_off,
    View.ld_unit_zero (S := S1x256) r2_zero_off, View.ld_unit_zero (S := S200x128) r2_zero_off,
    View.ld_unit_zero (S := S128x128) r2_zero_off, View.ld_unit_zero (S := S1x128) r2_zero_off]
  funext j
  obtain ⟨hr, hc⟩ := r2_emb_19 t j
  show k2_pay1 (F := Ideal) (k2_pay5 (iblk2 V c 11 t)) (k2_pay8 (k2_pay2 (iblk2 V c 0 t) (iblk2 V c 2 t) (iblk2 V c 4 t)) (k2_pay4 (iblk2 V c 10 t)) (iblk2 V c 7 t) (iblk2 V c 14 t))
        (k2_pay9 (k2_pay3 (iblk2 V c 1 t) (iblk2 V c 3 t) (iblk2 V c 5 t))) (iblk2 V c 9 t) (iblk2 V c 15 t) (iblk2 V c 17 t) j
    = tailRight (r := 10000) (n := 10000) (d := 128) (V c main_arg2) (V c main_arg4) (V c main_v9_0) (V c main_v9_1) (V c main_v11) (V c main_v13)
          (V c main_v29) (V c main_v33) (V c main_arg0) (V c main_arg1) (V c main_v39) (V c main_v41) (V c main_v25) (((cfg2.win 19).blk t).view.emb j)
  exact r2_logstd_entry (V c main_arg2) (V c main_arg4) (V c main_v9_0) (V c main_v9_1) (V c main_v11) (V c main_v13)
    (V c main_v29) (V c main_v33) (V c main_arg0) (V c main_arg1) (V c main_v39) (V c main_v41) (V c main_v25)
    (iblk2 V c 0 t) (iblk2 V c 1 t) (iblk2 V c 2 t) (iblk2 V c 3 t) (iblk2 V c 4 t) (iblk2 V c 5 t)
    (iblk2 V c 7 t) (iblk2 V c 9 t) (iblk2 V c 14 t) (iblk2 V c 15 t) (iblk2 V c 10 t) (iblk2 V c 11 t) (iblk2 V c 17 t)
    j (((cfg2.win 19).blk t).view.emb j) (fun k => r2_row_0 V c t (j 0) _ hr k) (fun k => r2_row_1 V c t (j 0) _ hr k)
    (r2_whole_2 V c t) (r2_whole_3 V c t) (r2_whole_4 V c t) (r2_whole_5 V c t) (r2_whole_7 V c t) (r2_whole_9 V c t)
    (fun k => r2_row_10 V c t (j 0) _ hr k) (fun k => r2_row_11 V c t (j 0) _ hr k) (r2_whole_14 V c t) (r2_whole_15 V c t) (r2_whole_17 V c t) hc

/-- An index of the array is in point `t`'s block iff each coordinate is in the block's range on its axis. -/
theorem r2_mem_blk_19 (t : Fin cfg2.N) (i : S10000x128.Idx) :
    i ∈ ((cfg2.win 19).blk t).view.set ↔ ∀ a : Fin 2, win2_19.index t a * S200x128.size a ≤ (i a).val ∧ (i a).val < win2_19.index t a * S200x128.size a + S200x128.size a := by
  show i ∈ ((View.whole main_v42_1).slice (win2_19.rect t)).set ↔ _
  rw [View.set_slice_whole, Rect.mem_set_unit]
  exact Iff.rfl

/-- Row `r` of the array is in the block of point `r / 200`. -/
theorem r2_covered_19 (i : S10000x128.Idx) :
    ∃ t : Fin cfg2.N, (cfg2.win 19).flush t = true ∧ i ∈ ((cfg2.win 19).blk t).view.set := by
  have hi0 : (i 0).val < 10000 := (i 0).isLt
  have hi1 : (i 1).val < 128 := (i 1).isLt
  have hN : grid2.N = 50 := N_2
  have ht : (i 0).val / 200 < cfg2.N := by show (i 0).val / 200 < grid2.N; rw [hN]; omega
  obtain ⟨o0, o1⟩ := r2_idx_19 ⟨(i 0).val / 200, ht⟩
  have o0' : win2_19.index ⟨(i 0).val / 200, ht⟩ (0 : Fin 2) = (i 0).val / 200 := o0
  refine ⟨⟨(i 0).val / 200, ht⟩, flush2_19 _, ?_⟩
  rw [r2_mem_blk_19]
  intro a
  match a with
  | ⟨0, _⟩ => show win2_19.index ⟨(i 0).val / 200, ht⟩ (0 : Fin 2) * 200 ≤ (i 0).val ∧ (i 0).val < win2_19.index ⟨(i 0).val / 200, ht⟩ (0 : Fin 2) * 200 + 200; omega
  | ⟨1, _⟩ => show win2_19.index ⟨(i 0).val / 200, ht⟩ (1 : Fin 2) * 128 ≤ (i 1).val ∧ (i 1).val < win2_19.index ⟨(i 0).val / 200, ht⟩ (1 : Fin 2) * 128 + 128; omega

/-- The log-deviation array after the region is the right-half form over the arrays the region found. -/
theorem arr2_19 (c : Dev nD) : (Gen.dat2 (F := Ideal) V c).arrAt 19 cfg2.N
      = Cert.Gcn.tailRight (r := 10000) (n := 10000) (d := 128) (V c main_arg2) (V c main_arg4) (V c main_v9_0) (V c main_v9_1) (V c main_v11) (V c main_v13)
          (V c main_v29) (V c main_v33) (V c main_arg0) (V c main_arg1) (V c main_v39) (V c main_v41) (V c main_v25) :=
  (dat2 (F := Ideal) V c).arrAt_eq_of_cover 19 _ (fun t _ => r2_flushed_19_eq V c t) r2_covered_19

end Cert.KernelIdeal.KValue

end
-- ==== Proof.KCompose.lean ====
/-
  The kernel program's value: its two results are the network, as the kernel arranges it.

  The launch memory's twenty-six argument arrays are the network's inputs `I`.  Following the run boundary by
  boundary: the first kernel region leaves the two first-layer supports `x · W`; the second, reading them, the first
  layers' biases as rows and the branches' weights side by side, leaves the wide supports `Ho · [Wm | Ws]`; the
  third, reading those, the branches' biases end to end, the union weights' halves, the features and the blended
  biases, leaves the two results — `I.kerMean` and `I.kerLogstd`.  Every other step is carrying: a buffer nothing
  wrote holds what the launch memory held.
-/
import proofs.«174822_g77111842832928_cont_sun_m_99_16_alg».proof.Proof.KRun
import proofs.«174822_g77111842832928_cont_sun_m_99_16_alg».proof.Proof.KCarry
import proofs.«174822_g77111842832928_cont_sun_m_99_16_alg».proof.Proof.KStretch
import proofs.«174822_g77111842832928_cont_sun_m_99_16_alg».proof.Proof.Region0
import proofs.«174822_g77111842832928_cont_sun_m_99_16_alg».proof.Proof.Region1
import proofs.«174822_g77111842832928_cont_sun_m_99_16_alg».proof.Proof.Region2

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo
open Cert.Gcn Cert.Linear

variable (m : (ℓ : Loc nD τ sig) → Buf (Elt Ideal) ℓ) (ρ : Dev nD → PrngReg)

/-- The kernel program's argument arrays as the network's inputs. -/
def inputs (c : Dev nD) : Cert.Gcn.Inputs where
  sx := m ((c.tc : Thread nD τ).loc main_arg0)
  tx := m ((c.tc : Thread nD τ).loc main_arg1)
  sUV := m ((c.tc : Thread nD τ).loc main_arg2)
  sVU := m ((c.tc : Thread nD τ).loc main_arg3)
  tUV := m ((c.tc : Thread nD τ).loc main_arg4)
  tVU := m ((c.tc : Thread nD τ).loc main_arg5)
  w1 := m ((c.tc : Thread nD τ).loc main_arg6)
  b1 := m ((c.tc : Thread nD τ).loc main_arg7)
  w3m := m ((c.tc : Thread nD τ).loc main_arg8)
  b3m := m ((c.tc : Thread nD τ).loc main_arg9)
  w3s := m ((c.tc : Thread nD τ).loc main_arg10)
  b3s := m ((c.tc : Thread nD τ).loc main_arg11)
  w2 := m ((c.tc : Thread nD τ).loc main_arg12)
  b2 := m ((c.tc : Thread nD τ).loc main_arg13)
  w4m := m ((c.tc : Thread nD τ).loc main_arg14)
  b4m := m ((c.tc : Thread nD τ).loc main_arg15)
  w4s := m ((c.tc : Thread nD τ).loc main_arg16)
  b4s := m ((c.tc : Thread nD τ).loc main_arg17)
  sumW := m ((c.tc : Thread nD τ).loc main_arg18)
  sumB := m ((c.tc : Thread nD τ).loc main_arg19)
  ssdW := m ((c.tc : Thread nD τ).loc main_arg20)
  ssdB := m ((c.tc : Thread nD τ).loc main_arg21)
  tumW := m ((c.tc : Thread nD τ).loc main_arg22)
  tumB := m ((c.tc : Thread nD τ).loc main_arg23)
  tsdW := m ((c.tc : Thread nD τ).loc main_arg24)
  tsdB := m ((c.tc : Thread nD τ).loc main_arg25)

/-! ## The first region: the first-layer supports -/

theorem V1_arg0 (c : Dev nD) : V1 m ρ c main_arg0 = (inputs m c).sx := W1_launch m ρ c main_arg0 (by decide)
theorem V1_arg1 (c : Dev nD) : V1 m ρ c main_arg1 = (inputs m c).tx := W1_launch m ρ c main_arg1 (by decide)
theorem V1_v0 (c : Dev nD) : V1 m ρ c main_v0 = (inputs m c).w1 := (s0_v0 (W0 m ρ c)).trans rfl
theorem V1_v1 (c : Dev nD) : V1 m ρ c main_v1 = (inputs m c).w2 := (s0_v1 (W0 m ρ c)).trans rfl

/-- The source side's first-layer support at the second region's entry. -/
theorem V3_v2_0 (c : Dev nD) : V3 m ρ c main_v2_0 = matProd (inputs m c).sx (inputs m c).w1 := by
  refine (W3_v2_0 m ρ c).trans ((arr0_4 (V1 m ρ) c).trans ?_)
  rw [V1_arg0, V1_v0]
/-- The target side's. -/
theorem V3_v2_1 (c : Dev nD) : V3 m ρ c main_v2_1 = matProd (inputs m c).tx (inputs m c).w2 := by
  refine (W3_v2_1 m ρ c).trans ((arr0_5 (V1 m ρ) c).trans ?_)
  rw [V1_arg1, V1_v1]

/-! ## The second region: the wide supports -/

theorem V3_arg3 (c : Dev nD) : V3 m ρ c main_arg3 = (inputs m c).sVU := W3_launch m ρ c main_arg3 (by decide) (by decide) (by decide)
theorem V3_arg5 (c : Dev nD) : V3 m ρ c main_arg5 = (inputs m c).tVU := W3_launch m ρ c main_arg5 (by decide) (by decide) (by decide)
theorem V3_v7 (c : Dev nD) : V3 m ρ c main_v7 = rowOf (inputs m c).b1 :=
  (s1_v7 (W2 m ρ c)).trans (congrArg rowOf (W2_launch m ρ c main_arg7 (by decide) (by decide)))
theorem V3_v8 (c : Dev nD) : V3 m ρ c main_v8 = rowOf (inputs m c).b2 :=
  (s1_v8 (W2 m ρ c)).trans (congrArg rowOf (W2_launch m ρ c main_arg13 (by decide) (by decide)))
theorem V3_v4 (c : Dev nD) : V3 m ρ c main_v4 = catCols (inputs m c).w3m (inputs m c).w3s :=
  (s1_v4 (W2 m ρ c)).trans (congrArg₂ catCols (W2_launch m ρ c main_arg8 (by decide) (by decide)) (W2_launch m ρ c main_arg10 (by decide) (by decide)))
theorem V3_v6 (c : Dev nD) : V3 m ρ c main_v6 = catCols (inputs m c).w4m (inputs m c).w4s :=
  (s1_v6 (W2 m ρ c)).trans (congrArg₂ catCols (W2_launch m ρ c main_arg14 (by decide) (by decide)) (W2_launch m ρ c main_arg16 (by decide) (by decide)))

/-- The source side's wide support at the third region's entry. -/
theorem V5_v9_0 (c : Dev nD) : V5 m ρ c main_v9_0 = matProd (inputs m c).sHo (catCols (inputs m c).w3m (inputs m c).w3s) := by
  refine (W5_v9_0 m ρ c).trans ((arr1_8 (V3 m ρ) c).trans ?_)
  rw [V3_arg3, V3_v2_0, V3_v7, V3_v4, ← Inputs.sHo_eq]
/-- The target side's. -/
theorem V5_v9_1 (c : Dev nD) : V5 m ρ c main_v9_1 = matProd (inputs m c).tHo (catCols (inputs m c).w4m (inputs m c).w4s) := by
  refine (W5_v9_1 m ρ c).trans ((arr1_9 (V3 m ρ) c).trans ?_)
  rw [V3_arg5, V3_v2_1, V3_v8, V3_v6, ← Inputs.tHo_eq]

/-! ## The third region: the results -/

/-- A never-written argument at the second region's exit. -/
theorem W4_arg (c : Dev nD) (b : Ref sig .tc) (h0 : b ∉ ops0_W) (hw0 : ∀ w, Pipeline.arrRef spec0 w ≠ b)
    (h1 : b ∉ ops1_W) (hw1 : ∀ w, Pipeline.arrRef spec1 w ≠ b) :
    W4 m ρ c (Proc.devRef .tc b) = m ((c : Thread nD τ).loc b) := W4_launch m ρ c b h0 hw0 h1 hw1

theorem V5_arg2 (c : Dev nD) : V5 m ρ c main_arg2 = (inputs m c).sUV := W5_launch m ρ c main_arg2 (by decide) (by decide) (by decide) (by decide) (by decide)
theorem V5_arg4 (c : Dev nD) : V5 m ρ c main_arg4 = (inputs m c).tUV := W5_launch m ρ c main_arg4 (by decide) (by decide) (by decide) (by decide) (by decide)
theorem V5_arg0 (c : Dev nD) : V5 m ρ c main_arg0 = (inputs m c).sx := W5_arg0 m ρ c
theorem V5_arg1 (c : Dev nD) : V5 m ρ c main_arg1 = (inputs m c).tx := W5_arg1 m ρ c
theorem V5_v11 (c : Dev nD) : V5 m ρ c main_v11 = rowOf (catVec (inputs m c).b3m (inputs m c).b3s) :=
  (s2_v11 (W4 m ρ c)).trans (congrArg rowOf (congrArg₂ catVec (W4_arg m ρ c main_arg9 (by decide) (by decide) (by decide) (by decide)) (W4_arg m ρ c main_arg11 (by decide) (by decide) (by decide) (by decide))))
theorem V5_v13 (c : Dev nD) : V5 m ρ c main_v13 = rowOf (catVec (inputs m c).b4m (inputs m c).b4s) :=
  (s2_v13 (W4 m ρ c)).trans (congrArg rowOf (congrArg₂ catVec (W4_arg m ρ c main_arg15 (by decide) (by decide) (by decide) (by decide)) (W4_arg m ρ c main_arg17 (by decide) (by decide) (by decide) (by decide))))
theorem V5_v19 (c : Dev nD) : V5 m ρ c main_v19 = blendRow (inputs m c).sumB (inputs m c).tumB :=
  (s2_v19 (W4 m ρ c)).trans (congrArg₂ blendRow (W4_arg m ρ c main_arg19 (by decide) (by decide) (by decide) (by decide)) (W4_arg m ρ c main_arg23 (by decide) (by decide) (by decide) (by decide)))
theorem V5_v25 (c : Dev nD) : V5 m ρ c main_v25 = blendRow (inputs m c).ssdB (inputs m c).tsdB :=
  (s2_v25 (W4 m ρ c)).trans (congrArg₂ blendRow (W4_arg m ρ c main_arg21 (by decide) (by decide) (by decide) (by decide)) (W4_arg m ρ c main_arg25 (by decide) (by decide) (by decide) (by decide)))
theorem V5_v27 (c : Dev nD) : V5 m ρ c main_v27 = topRows (d := 128) (inputs m c).sumW :=
  (s2_v27 (W4 m ρ c)).trans (congrArg (topRows (d := 128)) (W4_arg m ρ c main_arg18 (by decide) (by decide) (by decide) (by decide)))
theorem V5_v29 (c : Dev nD) : V5 m ρ c main_v29 = topRows (d := 128) (inputs m c).ssdW :=
  (s2_v29 (W4 m ρ c)).trans (congrArg (topRows (d := 128)) (W4_arg m ρ c main_arg20 (by decide) (by decide) (by decide) (by decide)))
theorem V5_v31 (c : Dev nD) : V5 m ρ c main_v31 = topRows (d := 128) (inputs m c).tumW :=
  (s2_v31 (W4 m ρ c)).trans (congrArg (topRows (d := 128)) (W4_arg m ρ c main_arg22 (by decide) (by decide) (by decide) (by decide)))
theorem V5_v33 (c : Dev nD) : V5 m ρ c main_v33 = topRows (d := 128) (inputs m c).tsdW :=
  (s2_v33 (W4 m ρ c)).trans (congrArg (topRows (d := 128)) (W4_arg m ρ c main_arg24 (by decide) (by decide) (by decide) (by decide)))
theorem V5_v35 (c : Dev nD) : V5 m ρ c main_v35 = botRows (d := 128) (inputs m c).sumW :=
  (s2_v35 (W4 m ρ c)).trans (congrArg (botRows (d := 128)) (W4_arg m ρ c main_arg18 (by decide) (by decide) (by decide) (by decide)))
theorem V5_v37 (c : Dev nD) : V5 m ρ c main_v37 = botRows (d := 128) (inputs m c).tumW :=
  (s2_v37 (W4 m ρ c)).trans (congrArg (botRows (d := 128)) (W4_arg m ρ c main_arg22 (by decide) (by decide) (by decide) (by decide)))
theorem V5_v39 (c : Dev nD) : V5 m ρ c main_v39 = botRows (d := 128) (inputs m c).ssdW :=
  (s2_v39 (W4 m ρ c)).trans (congrArg (botRows (d := 128)) (W4_arg m ρ c main_arg20 (by decide) (by decide) (by decide) (by decide)))
theorem V5_v41 (c : Dev nD) : V5 m ρ c main_v41 = botRows (d := 128) (inputs m c).tsdW :=
  (s2_v41 (W4 m ρ c)).trans (congrArg (botRows (d := 128)) (W4_arg m ρ c main_arg24 (by decide) (by decide) (by decide) (by decide)))

/-- The mean result at the end of the run is the network's mean, as the kernel arranges it. -/
theorem out_mean (c : Dev nD) : W6 m ρ c (Proc.devRef .tc main_v42_0) = (inputs m c).kerMean := by
  refine (W6_v42_0 m ρ c).trans ((arr2_18 (V5 m ρ) c).trans ?_)
  rw [V5_arg2, V5_arg4, V5_v9_0, V5_v9_1, V5_v11, V5_v13, V5_v27, V5_v31, V5_arg0, V5_arg1, V5_v35, V5_v37, V5_v19]
  exact (Inputs.kerMean_eq_tailLeft (inputs m c)).symm

/-- The log-deviation result at the end of the run is the network's, as the kernel arranges it. -/
theorem out_logstd (c : Dev nD) : W6 m ρ c (Proc.devRef .tc main_v42_1) = (inputs m c).kerLogstd := by
  refine (W6_v42_1 m ρ c).trans ((arr2_19 (V5 m ρ) c).trans ?_)
  rw [V5_arg2, V5_arg4, V5_v9_0, V5_v9_1, V5_v11, V5_v13, V5_v29, V5_v33, V5_arg0, V5_arg1, V5_v39, V5_v41, V5_v25]
  exact (Inputs.kerLogstd_eq_tailRight (inputs m c)).symm

/-- THE KERNEL PROGRAM'S RUN, READ: every weakly fair execution terminates with the two results at the network's
    mean and log-deviation of the argument arrays, as the kernel arranges them, and the arguments unchanged. -/
theorem run : θ_run (defs (F := Ideal)) (onTc (τ := τ) (main (F := Ideal))) ⟨m, fun _ => 0, ρ⟩ (fun r => ∀ c : Dev nD,
      r.2.mem ((c.tc : Thread nD τ).loc main_v42_0) = (inputs m c).kerMean
      ∧ r.2.mem ((c.tc : Thread nD τ).loc main_v42_1) = (inputs m c).kerLogstd
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c).1.trans (out_mean m ρ c), (h c).2.1.trans (out_logstd m ρ c), (h c).2.2⟩)
    (run_out m ρ)

end Cert.KernelIdeal.KValue

end
-- ==== Proof.LibAfter.lean ====
/-
  Two facts about a straight line of host operations, for running a long line in segments.

  The contents of the buffers after a line of operations is a fold over the line (each operation rewrites the buffers
  it writes and leaves the rest), so the contents after a concatenation of two lines are the contents after the second
  line, started from the contents after the first (`after_append`). And the side condition "no operation of the line
  allocates a buffer", which a run of the line asks for every member of the list, follows from the same condition
  stated as one conjunction over the list (`fresh_of_forall`), which splits along a concatenation (`forall_append`)
  and which, for a list written out operation by operation, holds by computation (`all_fresh`).
-/
import Idealize.ShloMosaic.Lib.StableHlo.Run

namespace Cert.LibAfter

open Idealize.ShloMosaic Idealize.ShloMosaic.StableHlo

variable {τ : Topo} {sig : RefSig} {Val : EltTy → Type}

/-- The buffer contents after a concatenation of two lines of operations are the contents after the second line,
    started from the contents after the first. -/
theorem after_append (a b : List (HloOp τ sig Val)) (V : Valuation τ sig Val) :
    after (a ++ b) V = after b (after a V) := by
  induction a generalizing V with
  | nil => rfl
  | cons op a ih => rw [List.cons_append, after_cons, after_cons, ih]

/-- A property of every operation of a concatenation is the property of every operation of each part. -/
theorem forall_append {α : Type} (p : α → Prop) (a b : List α) :
    (a ++ b).Forall p ↔ a.Forall p ∧ b.Forall p :=
  List.forall_append

/-- The property of each part gives the property of the concatenation. -/
theorem Forall.append {α : Type} {p : α → Prop} {a b : List α} (ha : a.Forall p) (hb : b.Forall p) :
    (a ++ b).Forall p :=
  (forall_append p a b).mpr ⟨ha, hb⟩

/-- "No operation allocates a buffer", stated as one conjunction over the list, gives it for every member. -/
theorem fresh_of_forall {ops : List (HloOp τ sig Val)} (h : ops.Forall fun op => op.fresh = ∅) :
    ∀ op ∈ ops, op.fresh = ∅ :=
  List.forall_iff_forall_mem.mp h

/-- The same for a family of lines, one per device: the form a run of the line asks for. -/
theorem fresh_of_forall_dev {ι : Type} {ops : ι → List (HloOp τ sig Val)}
    (h : ∀ d, (ops d).Forall fun op => op.fresh = ∅) : ∀ d, ∀ op ∈ ops d, op.fresh = ∅ :=
  fun d => fresh_of_forall (h d)

/-- `all_fresh ops` proves `ops.Forall fun op => op.fresh = ∅` for a list `ops` written out operation by operation
    (under a name, which is unfolded first): the conjunction over the list is split, and each operation built by a
    non-allocating builder has the empty set of fresh buffers by computation. -/
macro "all_fresh " ops:ident : tactic =>
  `(tactic| (first | simp only [$ops:ident, List.Forall] | simp only [List.Forall]
             repeat' constructor))

end Cert.LibAfter
-- ==== Proof.RefOps.lean ====
/-
  The reference program as a straight line of host operations.

  The reference is a function of tensor values only: two matrix products, a bias spread over the rows and a sum
  per graph-convolution layer, followed by the slope function (a comparison with zero, a product with the slope and
  a choice between the two, which the program states as a function of its own and which is substituted here at each
  of its six uses); a join along the columns, one matrix product and a bias per union layer; and at the end the blend
  of the two sides with the weight one half. The 112 operations are listed in eleven consecutive runs: one per layer
  (ending at the layer's choice), one per union layer (ending at its sum) and the final blend. The whole program is
  the concatenation of the runs, and every buffer ends at the runs' composed contents.
-/
import proofs.«174822_g77111842832928_cont_sun_m_99_16_alg».proof.Proof.Gen.ReferenceIdeal
import proofs.«174822_g77111842832928_cont_sun_m_99_16_alg».proof.Proof.LibAfter
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Operations 1 … 13 of the program, in order. -/
def seg1 : List (HloOp τ sig (Elt F)) :=
  [ StableHlo.binary main_arg0 main_arg6 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.binary main_arg3 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.unary main_arg7 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S10000x128 ![0, 1] bcast_S1x128_S10000x128_0_1 : (⟨S1x128, .f32⟩ : BufTy).Contents (Elt F) → (⟨S10000x128, .f32⟩ : BufTy).Contents (Elt F)),
    StableHlo.binary main_v1 main_v3 main_v4 (addf : (⟨S10000x128, .f32⟩ : BufTy).Contents (Elt F) → (⟨S10000x128, .f32⟩ : BufTy).Contents (Elt F) → (⟨S10000x128, .f32⟩ : BufTy).Contents (Elt F)),
    StableHlo.nullary main_cst (constant S_ .f32 0x3E4CCCCD#32),
    TRef.nullary main_call0.cst (constant S_ .f32 0x00000000#32),
    TRef.unary main_call0.cst main_call0.v0 (broadcastInDim S10000x128 ![] bcast_S_S10000x128),
    TRef.binary (.of main_v4 : TRef sig ⟨S10000x128, .f32⟩) main_call0.v0 main_call0.v1 (cmpf .oge),
    TRef.unary (.of main_cst : TRef sig ⟨S_, .f32⟩) main_call0.v2 id,
    TRef.unary main_call0.v2 main_call0.v3 (broadcastInDim S10000x128 ![] bcast_S_S10000x128),
    TRef.binary main_call0.v3 (.of main_v4 : TRef sig ⟨S10000x128, .f32⟩) main_call0.v4 mulf,
    TRef.ternary main_call0.v1 (.of main_v4 : TRef sig ⟨S10000x128, .f32⟩) main_call0.v4 main_call0.call0.v0 select ]

/-- Operations 14 … 26 of the program, in order. -/
def seg2 : List (HloOp τ sig (Elt F)) :=
  [ StableHlo.binary main_v5 main_arg8 main_v6 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.binary main_arg2 main_v6 main_v7 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.unary main_arg9 main_v8 (broadcastInDim S1x128 ![1] bcast_S128_S1x128_1 : (⟨S128, .f32⟩ : BufTy).Contents (Elt F) → (⟨S1x128, .f32⟩ : BufTy).Contents (Elt F)),
    StableHlo.unary main_v8 main_v9 (broadcastInDim S10000x128 ![0, 1] bcast_S1x128_S10000x128_0_1 : (⟨S1x128, .f32⟩ : BufTy).Contents (Elt F) → (⟨S10000x128, .f32⟩ : BufTy).Contents (Elt F)),
    StableHlo.binary main_v7 main_v9 main_v10 (addf : (⟨S10000x128, .f32⟩ : BufTy).Contents (Elt F) → (⟨S10000x128, .f32⟩ : BufTy).Contents (Elt F) → (⟨S10000x128, .f32⟩ : BufTy).Contents (Elt F)),
    StableHlo.nullary main_cst_0 (constant S_ .f32 0x3E4CCCCD#32),
    TRef.nullary main_call1.cst (constant S_ .f32 0x00000000#32),
    TRef.unary main_call1.cst main_call1.v0 (broadcastInDim S10000x128 ![] bcast_S_S10000x128),
    TRef.binary (.of main_v10 : TRef sig ⟨S10000x128, .f32⟩) main_call1.v0 main_call1.v1 (cmpf .oge),
    TRef.unary (.of main_cst_0 : TRef sig ⟨S_, .f32⟩) main_call1.v2 id,
    TRef.unary main_call1.v2 main_call1.v3 (broadcastInDim S10000x128 ![] bcast_S_S10000x128),
    TRef.binary main_call1.v3 (.of main_v10 : TRef sig ⟨S10000x128, .f32⟩) main_call1.v4 mulf,
    TRef.ternary main_call1.v1 (.of main_v10 : TRef sig ⟨S10000x128, .f32⟩) main_call1.v4 main_call1.call0.v0 select ]

/-- Operations 27 … 39 of the program, in order. -/
def seg3 : List (HloOp τ sig (Elt F)) :=
  [ StableHlo.binary main_v5 main_arg10 main_v12 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.binary main_arg2 main_v12 main_v13 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.unary main_arg11 main_v14 (broadcastInDim S1x128 ![1] bcast_S128_S1x128_1 : (⟨S128, .f32⟩ : BufTy).Contents (Elt F) → (⟨S1x128, .f32⟩ : BufTy).Contents (Elt F)),
    StableHlo.unary main_v14 main_v15 (broadcastInDim S10000x128 ![0, 1] bcast_S1x128_S10000x128_0_1 : (⟨S1x128, .f32⟩ : BufTy).Contents (Elt F) → (⟨S10000x128, .f32⟩ : BufTy).Contents (Elt F)),
    StableHlo.binary main_v13 main_v15 main_v16 (addf : (⟨S10000x128, .f32⟩ : BufTy).Contents (Elt F) → (⟨S10000x128, .f32⟩ : BufTy).Contents (Elt F) → (⟨S10000x128, .f32⟩ : BufTy).Contents (Elt F)),
    StableHlo.nullary main_cst_1 (constant S_ .f32 0x3E4CCCCD#32),
    TRef.nullary main_call2.cst (constant S_ .f32 0x00000000#32),
    TRef.unary main_call2.cst main_call2.v0 (broadcastInDim S10000x128 ![] bcast_S_S10000x128),
    TRef.binary (.of main_v16 : TRef sig ⟨S10000x128, .f32⟩) main_call2.v0 main_call2.v1 (cmpf .oge),
    TRef.unary (.of main_cst_1 : TRef sig ⟨S_, .f32⟩) main_call2.v2 id,
    TRef.unary main_call2.v2 main_call2.v3 (broadcastInDim S10000x128 ![] bcast_S_S10000x128),
    TRef.binary main_call2.v3 (.of main_v16 : TRef sig ⟨S10000x128, .f32⟩) main_call2.v4 mulf,
    TRef.ternary main_call2.v1 (.of main_v16 : TRef sig ⟨S10000x128, .f32⟩) main_call2.v4 main_call2.call0.v0 select ]

/-- Operations 40 … 44 of the program, in order. -/
def seg4 : List (HloOp τ sig (Elt F)) :=
  [ StableHlo.binary main_v11 main_arg0 main_v18 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.binary main_v18 main_arg18 main_v19 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    StableHlo.unary main_arg19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S10000x128 ![0, 1] bcast_S1x128_S10000x128_0_1 : (⟨S1x128, .f32⟩ : BufTy).Contents (Elt F) → (⟨S10000x128, .f32⟩ : BufTy).Contents (Elt F)),
    StableHlo.binary main_v19 main_v21 main_v22 (addf : (⟨S10000x128, .f32⟩ : BufTy).Contents (Elt F) → (⟨S10000x128, .f32⟩ : BufTy).Contents (Elt F) → (⟨S10000x128, .f32⟩ : BufTy).Contents (Elt F)) ]

/-- Operations 45 … 49 of the program, in order. -/
def seg5 : List (HloOp τ sig (Elt F)) :=
  [ StableHlo.binary main_v17 main_arg0 main_v23 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.binary main_v23 main_arg20 main_v24 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    StableHlo.unary main_arg21 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S10000x128 ![0, 1] bcast_S1x128_S10000x128_0_1 : (⟨S1x128, .f32⟩ : BufTy).Contents (Elt F) → (⟨S10000x128, .f32⟩ : BufTy).Contents (Elt F)),
    StableHlo.binary main_v24 main_v26 main_v27 (addf : (⟨S10000x128, .f32⟩ : BufTy).Contents (Elt F) → (⟨S10000x128, .f32⟩ : BufTy).Contents (Elt F) → (⟨S10000x128, .f32⟩ : BufTy).Contents (Elt F)) ]

/-- Operations 50 … 62 of the program, in order. -/
def seg6 : List (HloOp τ sig (Elt F)) :=
  [ StableHlo.binary main_arg1 main_arg12 main_v28 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.binary main_arg5 main_v28 main_v29 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.unary main_arg13 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S10000x128 ![0, 1] bcast_S1x128_S10000x128_0_1 : (⟨S1x128, .f32⟩ : BufTy).Contents (Elt F) → (⟨S10000x128, .f32⟩ : BufTy).Contents (Elt F)),
    StableHlo.binary main_v29 main_v31 main_v32 (addf : (⟨S10000x128, .f32⟩ : BufTy).Contents (Elt F) → (⟨S10000x128, .f32⟩ : BufTy).Contents (Elt F) → (⟨S10000x128, .f32⟩ : BufTy).Contents (Elt F)),
    StableHlo.nullary main_cst_2 (constant S_ .f32 0x3E4CCCCD#32),
    TRef.nullary main_call3.cst (constant S_ .f32 0x00000000#32),
    TRef.unary main_call3.cst main_call3.v0 (broadcastInDim S10000x128 ![] bcast_S_S10000x128),
    TRef.binary (.of main_v32 : TRef sig ⟨S10000x128, .f32⟩) main_call3.v0 main_call3.v1 (cmpf .oge),
    TRef.unary (.of main_cst_2 : TRef sig ⟨S_, .f32⟩) main_call3.v2 id,
    TRef.unary main_call3.v2 main_call3.v3 (broadcastInDim S10000x128 ![] bcast_S_S10000x128),
    TRef.binary main_call3.v3 (.of main_v32 : TRef sig ⟨S10000x128, .f32⟩) main_call3.v4 mulf,
    TRef.ternary main_call3.v1 (.of main_v32 : TRef sig ⟨S10000x128, .f32⟩) main_call3.v4 main_call3.call0.v0 select ]

/-- Operations 63 … 75 of the program, in order. -/
def seg7 : List (HloOp τ sig (Elt F)) :=
  [ StableHlo.binary main_v33 main_arg14 main_v34 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.binary main_arg4 main_v34 main_v35 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.unary main_arg15 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S10000x128 ![0, 1] bcast_S1x128_S10000x128_0_1 : (⟨S1x128, .f32⟩ : BufTy).Contents (Elt F) → (⟨S10000x128, .f32⟩ : BufTy).Contents (Elt F)),
    StableHlo.binary main_v35 main_v37 main_v38 (addf : (⟨S10000x128, .f32⟩ : BufTy).Contents (Elt F) → (⟨S10000x128, .f32⟩ : BufTy).Contents (Elt F) → (⟨S10000x128, .f32⟩ : BufTy).Contents (Elt F)),
    StableHlo.nullary main_cst_3 (constant S_ .f32 0x3E4CCCCD#32),
    TRef.nullary main_call4.cst (constant S_ .f32 0x00000000#32),
    TRef.unary main_call4.cst main_call4.v0 (broadcastInDim S10000x128 ![] bcast_S_S10000x128),
    TRef.binary (.of main_v38 : TRef sig ⟨S10000x128, .f32⟩) main_call4.v0 main_call4.v1 (cmpf .oge),
    TRef.unary (.of main_cst_3 : TRef sig ⟨S_, .f32⟩) main_call4.v2 id,
    TRef.unary main_call4.v2 main_call4.v3 (broadcastInDim S10000x128 ![] bcast_S_S10000x128),
    TRef.binary main_call4.v3 (.of main_v38 : TRef sig ⟨S10000x128, .f32⟩) main_call4.v4 mulf,
    TRef.ternary main_call4.v1 (.of main_v38 : TRef sig ⟨S10000x128, .f32⟩) main_call4.v4 main_call4.call0.v0 select ]

/-- Operations 76 … 88 of the program, in order. -/
def seg8 : List (HloOp τ sig (Elt F)) :=
  [ StableHlo.binary main_v33 main_arg16 main_v40 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.binary main_arg4 main_v40 main_v41 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    StableHlo.unary main_arg17 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S10000x128 ![0, 1] bcast_S1x128_S10000x128_0_1 : (⟨S1x128, .f32⟩ : BufTy).Contents (Elt F) → (⟨S10000x128, .f32⟩ : BufTy).Contents (Elt F)),
    StableHlo.binary main_v41 main_v43 main_v44 (addf : (⟨S10000x128, .f32⟩ : BufTy).Contents (Elt F) → (⟨S10000x128, .f32⟩ : BufTy).Contents (Elt F) → (⟨S10000x128, .f32⟩ : BufTy).Contents (Elt F)),
    StableHlo.nullary main_cst_4 (constant S_ .f32 0x3E4CCCCD#32),
    TRef.nullary main_call5.cst (constant S_ .f32 0x00000000#32),
    TRef.unary main_call5.cst main_call5.v0 (broadcastInDim S10000x128 ![] bcast_S_S10000x128),
    TRef.binary (.of main_v44 : TRef sig ⟨S10000x128, .f32⟩) main_call5.v0 main_call5.v1 (cmpf .oge),
    TRef.unary (.of main_cst_4 : TRef sig ⟨S_, .f32⟩) main_call5.v2 id,
    TRef.unary main_call5.v2 main_call5.v3 (broadcastInDim S10000x128 ![] bcast_S_S10000x128),
    TRef.binary main_call5.v3 (.of main_v44 : TRef sig ⟨S10000x128, .f32⟩) main_call5.v4 mulf,
    TRef.ternary main_call5.v1 (.of main_v44 : TRef sig ⟨S10000x128, .f32⟩) main_call5.v4 main_call5.call0.v0 select ]

/-- Operations 89 … 93 of the program, in order. -/
def seg9 : List (HloOp τ sig (Elt F)) :=
  [ StableHlo.binary main_v39 main_arg1 main_v46 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.binary main_v46 main_arg22 main_v47 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    StableHlo.unary main_arg23 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S10000x128 ![0, 1] bcast_S1x128_S10000x128_0_1 : (⟨S1x128, .f32⟩ : BufTy).Contents (Elt F) → (⟨S10000x128, .f32⟩ : BufTy).Contents (Elt F)),
    StableHlo.binary main_v47 main_v49 main_v50 (addf : (⟨S10000x128, .f32⟩ : BufTy).Contents (Elt F) → (⟨S10000x128, .f32⟩ : BufTy).Contents (Elt F) → (⟨S10000x128, .f32⟩ : BufTy).Contents (Elt F)) ]

/-- Operations 94 … 98 of the program, in order. -/
def seg10 : List (HloOp τ sig (Elt F)) :=
  [ StableHlo.binary main_v45 main_arg1 main_v51 ((fun a b => concatenate S10000x256 1 [⟨S10000x128, a⟩, ⟨S10000x128, b⟩] concatenates_S10000x128_S10000x128_S10000x256_d1) : (⟨S10000x128, .f32⟩ : BufTy).Contents (Elt F) → (⟨S10000x128, .f32⟩ : BufTy).Contents (Elt F) → (⟨S10000x256, .f32⟩ : BufTy).Contents (Elt F)),
    StableHlo.binary main_v51 main_arg24 main_v52 ((fun l r => Host.dotGeneral dot_S10000x256_S256x128_S10000x128_1_0_0_1_n_n none l r) : (⟨S10000x256, .f32⟩ : BufTy).Contents (Elt F) → (⟨S256x128, .f32⟩ : BufTy).Contents (Elt F) → (⟨S10000x128, .f32⟩ : BufTy).Contents (Elt F)),
    StableHlo.unary main_arg25 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S10000x128 ![0, 1] bcast_S1x128_S10000x128_0_1 : (⟨S1x128, .f32⟩ : BufTy).Contents (Elt F) → (⟨S10000x128, .f32⟩ : BufTy).Contents (Elt F)),
    StableHlo.binary main_v52 main_v54 main_v55 (addf : (⟨S10000x128, .f32⟩ : BufTy).Contents (Elt F) → (⟨S10000x128, .f32⟩ : BufTy).Contents (Elt F) → (⟨S10000x128, .f32⟩ : BufTy).Contents (Elt F)) ]

/-- Operations 99 … 112 of the program, in order. -/
def seg11 : List (HloOp τ sig (Elt F)) :=
  [ StableHlo.nullary main_cst_5 (constant S_ .f32 0x3F000000#32),
    StableHlo.unary main_cst_5 main_v56 (broadcastInDim S10000x128 ![] bcast_S_S10000x128 : (⟨S_, .f32⟩ : BufTy).Contents (Elt F) → (⟨S10000x128, .f32⟩ : BufTy).Contents (Elt F)),
    StableHlo.binary main_v56 main_v22 main_v57 (mulf : (⟨S10000x128, .f32⟩ : BufTy).Contents (Elt F) → (⟨S10000x128, .f32⟩ : BufTy).Contents (Elt F) → (⟨S10000x128, .f32⟩ : BufTy).Contents (Elt F)),
    StableHlo.nullary main_cst_6 (constant S_ .f32 0x3F000000#32),
    StableHlo.unary main_cst_6 main_v58 (broadcastInDim S10000x128 ![] bcast_S_S10000x128 : (⟨S_, .f32⟩ : BufTy).Contents (Elt F) → (⟨S10000x128, .f32⟩ : BufTy).Contents (Elt F)),
    StableHlo.binary main_v58 main_v50 main_v59 (mulf : (⟨S10000x128, .f32⟩ : BufTy).Contents (Elt F) → (⟨S10000x128, .f32⟩ : BufTy).Contents (Elt F) → (⟨S10000x128, .f32⟩ : BufTy).Contents (Elt F)),
    StableHlo.binary main_v57 main_v59 main_v60 (addf : (⟨S10000x128, .f32⟩ : BufTy).Contents (Elt F) → (⟨S10000x128, .f32⟩ : BufTy).Contents (Elt F) → (⟨S10000x128, .f32⟩ : BufTy).Contents (Elt F)),
    StableHlo.nullary main_cst_7 (constant S_ .f32 0x3F000000#32),
    StableHlo.unary main_cst_7 main_v61 (broadcastInDim S10000x128 ![] bcast_S_S10000x128 : (⟨S_, .f32⟩ : BufTy).Contents (Elt F) → (⟨S10000x128, .f32⟩ : BufTy).Contents (Elt F)),
    StableHlo.binary main_v61 main_v27 main_v62 (mulf : (⟨S10000x128, .f32⟩ : BufTy).Contents (Elt F) → (⟨S10000x128, .f32⟩ : BufTy).Contents (Elt F) → (⟨S10000x128, .f32⟩ : BufTy).Contents (Elt F)),
    StableHlo.nullary main_cst_8 (constant S_ .f32 0x3F000000#32),
    StableHlo.unary main_cst_8 main_v63 (broadcastInDim S10000x128 ![] bcast_S_S10000x128 : (⟨S_, .f32⟩ : BufTy).Contents (Elt F) → (⟨S10000x128, .f32⟩ : BufTy).Contents (Elt F)),
    StableHlo.binary main_v63 main_v55 main_v64 (mulf : (⟨S10000x128, .f32⟩ : BufTy).Contents (Elt F) → (⟨S10000x128, .f32⟩ : BufTy).Contents (Elt F) → (⟨S10000x128, .f32⟩ : BufTy).Contents (Elt F)),
    StableHlo.binary main_v62 main_v64 main_v65 (addf : (⟨S10000x128, .f32⟩ : BufTy).Contents (Elt F) → (⟨S10000x128, .f32⟩ : BufTy).Contents (Elt F) → (⟨S10000x128, .f32⟩ : BufTy).Contents (Elt F)) ]

/-- The program's 112 operations, in order: the eleven runs one after the other. -/
def ops : List (HloOp τ sig (Elt F)) :=
  seg1 ++ seg2 ++ seg3 ++ seg4 ++ seg5 ++ seg6 ++ seg7 ++ seg8 ++ seg9 ++ seg10 ++ seg11

set_option maxRecDepth 8192 in
/-- The program is that straight line: the slope function substituted at its six uses, both sides are one chain of
    the same steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem seg1_sub : (seg1 : List (HloOp τ sig (Elt F))).Forall fun op => op.bufs ⊆ tcRefs τ sig := by
  simp only [seg1, List.Forall, nullary_bufs_sub, unary_bufs_sub, binary_bufs_sub, ternary_bufs_sub, and_self]
theorem seg2_sub : (seg2 : List (HloOp τ sig (Elt F))).Forall fun op => op.bufs ⊆ tcRefs τ sig := by
  simp only [seg2, List.Forall, nullary_bufs_sub, unary_bufs_sub, binary_bufs_sub, ternary_bufs_sub, and_self]
theorem seg3_sub : (seg3 : List (HloOp τ sig (Elt F))).Forall fun op => op.bufs ⊆ tcRefs τ sig := by
  simp only [seg3, List.Forall, nullary_bufs_sub, unary_bufs_sub, binary_bufs_sub, ternary_bufs_sub, and_self]
theorem seg4_sub : (seg4 : List (HloOp τ sig (Elt F))).Forall fun op => op.bufs ⊆ tcRefs τ sig := by
  simp only [seg4, List.Forall, nullary_bufs_sub, unary_bufs_sub, binary_bufs_sub, ternary_bufs_sub, and_self]
theorem seg5_sub : (seg5 : List (HloOp τ sig (Elt F))).Forall fun op => op.bufs ⊆ tcRefs τ sig := by
  simp only [seg5, List.Forall, nullary_bufs_sub, unary_bufs_sub, binary_bufs_sub, ternary_bufs_sub, and_self]
theorem seg6_sub : (seg6 : List (HloOp τ sig (Elt F))).Forall fun op => op.bufs ⊆ tcRefs τ sig := by
  simp only [seg6, List.Forall, nullary_bufs_sub, unary_bufs_sub, binary_bufs_sub, ternary_bufs_sub, and_self]
theorem seg7_sub : (seg7 : List (HloOp τ sig (Elt F))).Forall fun op => op.bufs ⊆ tcRefs τ sig := by
  simp only [seg7, List.Forall, nullary_bufs_sub, unary_bufs_sub, binary_bufs_sub, ternary_bufs_sub, and_self]
theorem seg8_sub : (seg8 : List (HloOp τ sig (Elt F))).Forall fun op => op.bufs ⊆ tcRefs τ sig := by
  simp only [seg8, List.Forall, nullary_bufs_sub, unary_bufs_sub, binary_bufs_sub, ternary_bufs_sub, and_self]
theorem seg9_sub : (seg9 : List (HloOp τ sig (Elt F))).Forall fun op => op.bufs ⊆ tcRefs τ sig := by
  simp only [seg9, List.Forall, nullary_bufs_sub, unary_bufs_sub, binary_bufs_sub, ternary_bufs_sub, and_self]
theorem seg10_sub : (seg10 : List (HloOp τ sig (Elt F))).Forall fun op => op.bufs ⊆ tcRefs τ sig := by
  simp only [seg10, List.Forall, nullary_bufs_sub, unary_bufs_sub, binary_bufs_sub, ternary_bufs_sub, and_self]
theorem seg11_sub : (seg11 : List (HloOp τ sig (Elt F))).Forall fun op => op.bufs ⊆ tcRefs τ sig := by
  simp only [seg11, List.Forall, nullary_bufs_sub, unary_bufs_sub, binary_bufs_sub, ternary_bufs_sub, and_self]

/-- Every operation touches buffers of the tensor values only. -/
theorem ops_sub : (ops : List (HloOp τ sig (Elt F))).Forall fun op => op.bufs ⊆ tcRefs τ sig :=
  Cert.LibAfter.Forall.append (Cert.LibAfter.Forall.append (Cert.LibAfter.Forall.append (Cert.LibAfter.Forall.append (Cert.LibAfter.Forall.append (Cert.LibAfter.Forall.append (Cert.LibAfter.Forall.append (Cert.LibAfter.Forall.append (Cert.LibAfter.Forall.append (Cert.LibAfter.Forall.append (seg1_sub) seg2_sub) seg3_sub) seg4_sub) seg5_sub) seg6_sub) seg7_sub) seg8_sub) seg9_sub) seg10_sub) seg11_sub

theorem seg1_fresh : (seg1 : List (HloOp τ sig (Elt F))).Forall fun op => op.fresh = ∅ := by
  all_fresh seg1
theorem seg2_fresh : (seg2 : List (HloOp τ sig (Elt F))).Forall fun op => op.fresh = ∅ := by
  all_fresh seg2
theorem seg3_fresh : (seg3 : List (HloOp τ sig (Elt F))).Forall fun op => op.fresh = ∅ := by
  all_fresh seg3
theorem seg4_fresh : (seg4 : List (HloOp τ sig (Elt F))).Forall fun op => op.fresh = ∅ := by
  all_fresh seg4
theorem seg5_fresh : (seg5 : List (HloOp τ sig (Elt F))).Forall fun op => op.fresh = ∅ := by
  all_fresh seg5
theorem seg6_fresh : (seg6 : List (HloOp τ sig (Elt F))).Forall fun op => op.fresh = ∅ := by
  all_fresh seg6
theorem seg7_fresh : (seg7 : List (HloOp τ sig (Elt F))).Forall fun op => op.fresh = ∅ := by
  all_fresh seg7
theorem seg8_fresh : (seg8 : List (HloOp τ sig (Elt F))).Forall fun op => op.fresh = ∅ := by
  all_fresh seg8
theorem seg9_fresh : (seg9 : List (HloOp τ sig (Elt F))).Forall fun op => op.fresh = ∅ := by
  all_fresh seg9
theorem seg10_fresh : (seg10 : List (HloOp τ sig (Elt F))).Forall fun op => op.fresh = ∅ := by
  all_fresh seg10
theorem seg11_fresh : (seg11 : List (HloOp τ sig (Elt F))).Forall fun op => op.fresh = ∅ := by
  all_fresh seg11

/-- No operation allocates a buffer. -/
theorem ops_fresh : (ops : List (HloOp τ sig (Elt F))).Forall fun op => op.fresh = ∅ :=
  Cert.LibAfter.Forall.append (Cert.LibAfter.Forall.append (Cert.LibAfter.Forall.append (Cert.LibAfter.Forall.append (Cert.LibAfter.Forall.append (Cert.LibAfter.Forall.append (Cert.LibAfter.Forall.append (Cert.LibAfter.Forall.append (Cert.LibAfter.Forall.append (Cert.LibAfter.Forall.append (seg1_fresh) seg2_fresh) seg3_fresh) seg4_fresh) seg5_fresh) seg6_fresh) seg7_fresh) seg8_fresh) seg9_fresh) seg10_fresh) seg11_fresh

/-- On every device, for any float values, from any memory with zero counters: every weakly fair execution of the
    program terminates, and every final state has each buffer at the operations' composed contents of the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (Cert.LibAfter.fresh_of_forall_dev fun _ => ops_fresh)

end Cert.ReferenceIdeal.RefValue

end
-- ==== Proof.LibConcatProd.lean ====
/-
  GENERAL LEMMAS: a matrix product against a concatenation along the columns.

  If `X = [X₁ | X₂ | X₃]` is the concatenation along axis 1 of matrices with `A`, `B` and `C` columns (and the same
  `R` rows), then entry `(p, q)` of `X · W` is
      ∑ k < A, X₁ (p, k) · W (k, q)  +  ∑ k < B, X₂ (p, k) · W (A + k, q)  +  ∑ k < C, X₃ (p, k) · W (A + B + k, q):
  the sum over the `A + B + C` columns taken run by run, each column of `X` read in the piece that holds it. The same
  for two pieces. The only law used is that a finite sum over consecutive indices is the sum of the sums over its
  runs, which holds in any commutative monoid, so in the extended reals with no finiteness hypothesis.
  Imports the library and the matrix-product file only.
-/
import proofs.«174822_g77111842832928_cont_sun_m_99_16_alg».proof.Proof.LibMatProd
import Idealize.ShloMosaic.Lib.Pipeline.Value

noncomputable section

open scoped BigOperators

namespace Cert.Linear

open Idealize.ShloMosaic Idealize.ShloMosaic.ValueIdx

/-- A sum over `a + b + c` consecutive indices, run by run. -/
theorem sum_three_runs {M : Type} [AddCommMonoid M] (a b c : Nat) (f : Fin (a + b + c) → M) :
    ∑ k, f k = ∑ k : Fin a, f (Fin.castAdd c (Fin.castAdd b k)) + ∑ k : Fin b, f (Fin.castAdd c (Fin.natAdd a k))
      + ∑ k : Fin c, f (Fin.natAdd (a + b) k) := by
  rw [Fin.sum_univ_add, Fin.sum_univ_add]

/-- A product against three pieces joined along the columns, run by run. -/
theorem matProd_concat3 {R A B C N : Nat} (X1 : (Mat R A).Idx → EReal) (X2 : (Mat R B).Idx → EReal)
    (X3 : (Mat R C).Idx → EReal)
    (h : Shape.Concatenates [Mat R A, Mat R B, Mat R C] (Mat R (A + B + C)) 1)
    (W : (Mat (A + B + C) N).Idx → EReal) (p : Fin R) (q : Fin N) :
    matProd (concatenate (Mat R (A + B + C)) 1 [⟨Mat R A, X1⟩, ⟨Mat R B, X2⟩, ⟨Mat R C, X3⟩] h) W (ix2 p q)
      = ∑ k : Fin A, X1 (ix2 p k) * W (ix2 (Fin.castAdd C (Fin.castAdd B k)) q)
        + ∑ k : Fin B, X2 (ix2 p k) * W (ix2 (Fin.castAdd C (Fin.natAdd A k)) q)
        + ∑ k : Fin C, X3 (ix2 p k) * W (ix2 (Fin.natAdd (A + B) k) q) := by
  unfold matProd
  rw [sum_three_runs A B C]
  refine congrArg₂ (· + ·) (congrArg₂ (· + ·) ?_ ?_) ?_
  · refine Finset.sum_congr rfl fun k _ => congrArg (· * _) ?_
    exact concatenate_apply_piece (t := Mat R (A + B + C)) (1 : Fin 2) [⟨Mat R A, X1⟩, ⟨Mat R B, X2⟩, ⟨Mat R C, X3⟩] h _ 0 (by simp) (Mat R A) X1 rfl rfl 0 rfl (ix2 p k)
      (fun b hb => by
        match b with
        | ⟨0, _⟩ => rfl
        | ⟨1, _⟩ => exact absurd rfl hb)
      (by show 0 + k.val = k.val; omega)
  · refine Finset.sum_congr rfl fun k _ => congrArg (· * _) ?_
    exact concatenate_apply_piece (t := Mat R (A + B + C)) (1 : Fin 2) [⟨Mat R A, X1⟩, ⟨Mat R B, X2⟩, ⟨Mat R C, X3⟩] h _ 1 (by simp) (Mat R B) X2 rfl rfl A rfl (ix2 p k)
      (fun b hb => by
        match b with
        | ⟨0, _⟩ => rfl
        | ⟨1, _⟩ => exact absurd rfl hb)
      (by show A + k.val = A + k.val; rfl)
  · refine Finset.sum_congr rfl fun k _ => congrArg (· * _) ?_
    exact concatenate_apply_piece (t := Mat R (A + B + C)) (1 : Fin 2) [⟨Mat R A, X1⟩, ⟨Mat R B, X2⟩, ⟨Mat R C, X3⟩] h _ 2 (by simp) (Mat R C) X3 rfl rfl (A + B) rfl (ix2 p k)
      (fun b hb => by
        match b with
        | ⟨0, _⟩ => rfl
        | ⟨1, _⟩ => exact absurd rfl hb)
      (by show A + B + k.val = A + B + k.val; rfl)

/-- A product against two pieces joined along the columns, run by run. -/
theorem matProd_concat2 {R A B N : Nat} (X1 : (Mat R A).Idx → EReal) (X2 : (Mat R B).Idx → EReal)
    (h : Shape.Concatenates [Mat R A, Mat R B] (Mat R (A + B)) 1)
    (W : (Mat (A + B) N).Idx → EReal) (p : Fin R) (q : Fin N) :
    matProd (concatenate (Mat R (A + B)) 1 [⟨Mat R A, X1⟩, ⟨Mat R B, X2⟩] h) W (ix2 p q)
      = ∑ k : Fin A, X1 (ix2 p k) * W (ix2 (Fin.castAdd B k) q)
        + ∑ k : Fin B, X2 (ix2 p k) * W (ix2 (Fin.natAdd A k) q) := by
  unfold matProd
  rw [Fin.sum_univ_add]
  refine congrArg₂ (· + ·) ?_ ?_
  · refine Finset.sum_congr rfl fun k _ => congrArg (· * _) ?_
    exact concatenate_apply_piece (t := Mat R (A + B)) (1 : Fin 2) [⟨Mat R A, X1⟩, ⟨Mat R B, X2⟩] h _ 0 (by simp) (Mat R A) X1 rfl rfl 0 rfl (ix2 p k)
      (fun b hb => by
        match b with
        | ⟨0, _⟩ => rfl
        | ⟨1, _⟩ => exact absurd rfl hb)
      (by show 0 + k.val = k.val; omega)
  · refine Finset.sum_congr rfl fun k _ => congrArg (· * _) ?_
    exact concatenate_apply_piece (t := Mat R (A + B)) (1 : Fin 2) [⟨Mat R A, X1⟩, ⟨Mat R B, X2⟩] h _ 1 (by simp) (Mat R B) X2 rfl rfl A rfl (ix2 p k)
      (fun b hb => by
        match b with
        | ⟨0, _⟩ => rfl
        | ⟨1, _⟩ => exact absurd rfl hb)
      (by show A + k.val = A + k.val; rfl)

end Cert.Linear

end
-- ==== Proof.RefLayer.lean ====
/-
  The reference's three array-level building blocks, as the network's functions.

  * A graph-convolution layer as the reference spells it: the product `A · (S · W)` by two contractions of columns
    with rows, the bias vector made one row and then spread over all rows and added, then the slope function: the
    comparison with the zero splat, the product with the slope splat and the choice between the sum and that
    product. Entry by entry this is `leaky (∑ j, A (r, j) · (S · W) (j, q) + b q)`.
  * A union layer: the two feature arrays joined along the columns, one contraction with the weights, and the bias
    spread over the rows and added. The product over the joined columns is the sum of the products over the two
    runs of columns.
  * The blend: each side multiplied by the splat of one half, and the sum.

  Each is stated once, for arbitrary arrays of the program's shapes, and is equal to the corresponding function of
  the network's specification with no finiteness hypothesis: the two sides are the same expression entry by entry.
-/
import proofs.«174822_g77111842832928_cont_sun_m_99_16_alg».proof.Proof.Gen.ReferenceIdeal
import proofs.«174822_g77111842832928_cont_sun_m_99_16_alg».proof.Proof.Spec
import proofs.«174822_g77111842832928_cont_sun_m_99_16_alg».proof.Proof.LibMatProd
import proofs.«174822_g77111842832928_cont_sun_m_99_16_alg».proof.Proof.LibDotLists
import proofs.«174822_g77111842832928_cont_sun_m_99_16_alg».proof.Proof.LibConcatProd
import proofs.«174822_g77111842832928_cont_sun_m_99_16_alg».proof.Proof.LibSelfLoop

noncomputable section

open scoped BigOperators

namespace Cert.ReferenceIdeal.RefValue

open Cert.ReferenceIdeal Cert.ReferenceIdeal.Gen Idealize.ShloMosaic Idealize.ShloMosaic.ValueIdx Cert.Linear

/-- A feature array: one row per node. -/
abbrev Feat : Type := FVec Ideal S10000x128 .f32
/-- An adjacency matrix. -/
abbrev Adj : Type := FVec Ideal S10000x10000 .f32
/-- A layer's weights. -/
abbrev Wt : Type := FVec Ideal S128x128 .f32
/-- A union layer's weights. -/
abbrev Wt2 : Type := FVec Ideal S256x128 .f32
/-- A bias vector. -/
abbrev Bias : Type := FVec Ideal S128 .f32

/-- The features-by-weights contraction reads its operands at `(r, k)` and `(k, q)`. -/
theorem contracts128 :
    Contracts (R := 10000) (K := 128) (N := 128) dot_S10000x128_S128x128_S10000x128_1_0_0_1_n_n :=
  contracts_of_lists _ rfl rfl rfl rfl rfl rfl
/-- The adjacency-by-features contraction reads its operands at `(r, k)` and `(k, q)`. -/
theorem contractsNN :
    Contracts (R := 10000) (K := 10000) (N := 128) dot_S10000x10000_S10000x128_S10000x128_1_0_0_1_n_n :=
  contracts_of_lists _ rfl rfl rfl rfl rfl rfl
/-- The joined-features-by-weights contraction reads its operands at `(r, k)` and `(k, q)`. -/
theorem contracts256 :
    Contracts (R := 10000) (K := 128 + 128) (N := 128) dot_S10000x256_S256x128_S10000x128_1_0_0_1_n_n :=
  contracts_of_lists _ rfl rfl rfl rfl rfl rfl

/-- A bias vector made one row and spread over all rows reads, at `(p, q)`, the vector at `q`. -/
theorem biasRows_apply (b : Bias) (p : Fin 10000) (q : Fin 128) :
    broadcastInDim S10000x128 ![0, 1] bcast_S1x128_S10000x128_0_1 (broadcastInDim S1x128 ![1] bcast_S128_S1x128_1 b) (ix2 p q)
      = b (ix1 q) :=
  (Cert.SelfLoop.broadcastInDim_1b_ab_apply (a := 10000) (b := 128) _ bcast_S1x128_S10000x128_0_1 p q).trans
    (Cert.SelfLoop.broadcastInDim_b_1b_apply (b := 128) b bcast_S128_S1x128_1 q)

/-- The splat of a scalar constant reads, at any entry, the extended real its word encodes. -/
theorem splat_apply (w : BitVec 32) (i : S10000x128.Idx) :
    broadcastInDim S10000x128 ![] bcast_S_S10000x128 (constant (F := Ideal) S_ .f32 w) i = FloatOps.ofBits (F := Ideal) .f32 w :=
  (Cert.SelfLoop.broadcastInDim_scalar_apply _ bcast_S_S10000x128 i).trans rfl

/-- `A · (S · W) + b`, the bias spread over the rows: a layer before its slope function. -/
def preT (A : Adj) (S : Feat) (W : Wt) (b : Bias) : Feat :=
  addf (F := Ideal) (Host.dotGeneral dot_S10000x10000_S10000x128_S10000x128_1_0_0_1_n_n none A
      (Host.dotGeneral dot_S10000x128_S128x128_S10000x128_1_0_0_1_n_n none S W))
    (broadcastInDim S10000x128 ![0, 1] bcast_S1x128_S10000x128_0_1 (broadcastInDim S1x128 ![1] bcast_S128_S1x128_1 b))

/-- The slope function over an array: the entry where it is at least zero, the slope times the entry elsewhere. -/
def leakyT (x : Feat) : Feat :=
  select (cmpf (F := Ideal) .oge x (broadcastInDim S10000x128 ![] bcast_S_S10000x128 (constant (F := Ideal) S_ .f32 0x00000000#32))) x
    (mulf (F := Ideal) (broadcastInDim S10000x128 ![] bcast_S_S10000x128 (id (constant (F := Ideal) S_ .f32 0x3E4CCCCD#32))) x)

/-- One graph-convolution layer as the reference spells it. -/
def layerT (A : Adj) (S : Feat) (W : Wt) (b : Bias) : Feat := leakyT (preT A S W b)

/-- One union layer as the reference spells it. -/
def unionT (H X : Feat) (W : Wt2) (b : Bias) : Feat :=
  addf (F := Ideal) (Host.dotGeneral dot_S10000x256_S256x128_S10000x128_1_0_0_1_n_n none
      (concatenate S10000x256 1 [⟨S10000x128, H⟩, ⟨S10000x128, X⟩] concatenates_S10000x128_S10000x128_S10000x256_d1) W)
    (broadcastInDim S10000x128 ![0, 1] bcast_S1x128_S10000x128_0_1 (broadcastInDim S1x128 ![1] bcast_S128_S1x128_1 b))

/-- The blend of two arrays with the weight one half each, as the reference spells it. -/
def blendT (P Q : Feat) : Feat :=
  addf (F := Ideal) (mulf (F := Ideal) (broadcastInDim S10000x128 ![] bcast_S_S10000x128 (constant (F := Ideal) S_ .f32 0x3F000000#32)) P)
    (mulf (F := Ideal) (broadcastInDim S10000x128 ![] bcast_S_S10000x128 (constant (F := Ideal) S_ .f32 0x3F000000#32)) Q)

/-- The layer before its slope function, at an entry: the row of `A` against the column of `S · W`, plus the bias. -/
theorem preT_apply (A : Adj) (S : Feat) (W : Wt) (b : Bias) (p : Fin 10000) (q : Fin 128) :
    preT A S W b (ix2 p q)
      = matProd (R := 10000) (K := 10000) (N := 128) A (matProd (R := 10000) (K := 128) (N := 128) S W) (ix2 p q) + b (ix1 q) := by
  have h1 : Host.dotGeneral dot_S10000x128_S128x128_S10000x128_1_0_0_1_n_n none S W
      = matProd (R := 10000) (K := 128) (N := 128) S W := dotGeneral_eq contracts128 none .single S W
  have h2 : Host.dotGeneral (F := Ideal) (φ₁ := .f32) (φ₂ := .f32) dot_S10000x10000_S10000x128_S10000x128_1_0_0_1_n_n none A
        (matProd (R := 10000) (K := 128) (N := 128) S W : Feat)
      = matProd (R := 10000) (K := 10000) (N := 128) A (matProd (R := 10000) (K := 128) (N := 128) S W) :=
    dotGeneral_eq (φ₁ := .f32) (φ₂ := .f32) contractsNN none .single A _
  unfold preT
  rw [h1, h2]
  exact congrArg (matProd (R := 10000) (K := 10000) (N := 128) A (matProd (R := 10000) (K := 128) (N := 128) S W) (ix2 p q) + ·)
    (biasRows_apply b p q)

/-- The reference's layer is the network's layer over the product of the features and the weights. -/
theorem layerT_eq (A : Adj) (S : Feat) (W : Wt) (b : Bias) :
    layerT A S W b = Cert.Gcn.layer (n := 10000) (e := 128) A (matProd (R := 10000) (K := 128) (N := 128) S W) b := by
  funext i
  obtain ⟨p, q, rfl⟩ : ∃ (p : Fin 10000) (q : Fin 128), i = ix2 p q := ⟨i 0, i 1, eq_ix2 i⟩
  show Scalar.select
      (FloatOps.cmpf (F := Ideal) (φ := .f32) .oge (preT A S W b (ix2 p q))
        (broadcastInDim S10000x128 ![] bcast_S_S10000x128 (constant (F := Ideal) S_ .f32 0x00000000#32) (ix2 p q)))
      (preT A S W b (ix2 p q))
      (FloatOps.mulf (F := Ideal) (φ := .f32)
        (broadcastInDim S10000x128 ![] bcast_S_S10000x128 (constant (F := Ideal) S_ .f32 0x3E4CCCCD#32) (ix2 p q))
        (preT A S W b (ix2 p q)))
    = Cert.Gcn.leaky (matProd (R := 10000) (K := 10000) (N := 128) A (matProd (R := 10000) (K := 128) (N := 128) S W) (ix2 p q)
        + b (ix1 q))
  rw [splat_apply, splat_apply, preT_apply]
  rfl

/-- The reference's union layer is the network's. -/
theorem unionT_eq (H X : Feat) (W : Wt2) (b : Bias) :
    unionT H X W b = Cert.Gcn.union (n := 10000) (d := 128) H X W b := by
  funext i
  obtain ⟨p, q, rfl⟩ : ∃ (p : Fin 10000) (q : Fin 128), i = ix2 p q := ⟨i 0, i 1, eq_ix2 i⟩
  have h1 : Host.dotGeneral dot_S10000x256_S256x128_S10000x128_1_0_0_1_n_n none
        (concatenate S10000x256 1 [⟨S10000x128, H⟩, ⟨S10000x128, X⟩] concatenates_S10000x128_S10000x128_S10000x256_d1) W
      = matProd (R := 10000) (K := 128 + 128) (N := 128)
          (concatenate S10000x256 1 [⟨S10000x128, H⟩, ⟨S10000x128, X⟩] concatenates_S10000x128_S10000x128_S10000x256_d1) W :=
    dotGeneral_eq contracts256 none .single _ W
  unfold unionT
  rw [h1]
  show matProd (R := 10000) (K := 128 + 128) (N := 128)
        (concatenate S10000x256 1 [⟨S10000x128, H⟩, ⟨S10000x128, X⟩] concatenates_S10000x128_S10000x128_S10000x256_d1) W (ix2 p q)
      + broadcastInDim S10000x128 ![0, 1] bcast_S1x128_S10000x128_0_1 (broadcastInDim S1x128 ![1] bcast_S128_S1x128_1 b) (ix2 p q)
    = Cert.Gcn.joinedProd (n := 10000) (d := 128) H X W (ix2 p q) + b (ix1 q)
  rw [biasRows_apply]
  exact congrArg (· + b (ix1 q))
    (matProd_concat2 (R := 10000) (A := 128) (B := 128) (N := 128) H X concatenates_S10000x128_S10000x128_S10000x256_d1 W p q)

/-- The reference's blend at an entry: one half of each side, summed. -/
theorem blendT_apply (P Q : Feat) (i : S10000x128.Idx) :
    blendT P Q i = Cert.Gcn.half * P i + Cert.Gcn.half * Q i := by
  show broadcastInDim S10000x128 ![] bcast_S_S10000x128 (constant (F := Ideal) S_ .f32 0x3F000000#32) i * P i
      + broadcastInDim S10000x128 ![] bcast_S_S10000x128 (constant (F := Ideal) S_ .f32 0x3F000000#32) i * Q i = _
  rw [splat_apply]

end Cert.ReferenceIdeal.RefValue

end
-- ==== Proof.RefRead.lean ====
/-
  What each of the eleven runs of the reference's operations leaves in the buffers.

  For an arbitrary assignment of contents to the buffers: a layer's run leaves, at the layer's result buffer, the
  layer function of the contents of its adjacency, feature, weight and bias buffers; a union layer's run leaves the
  union function of its two feature buffers, weights and bias; the last run leaves the two blends. Every run leaves
  each buffer it does not write (the list of those it writes is stated beside it) as it was, which is what carries
  the arguments and the earlier results across the later runs.
-/
import proofs.«174822_g77111842832928_cont_sun_m_99_16_alg».proof.Proof.RefOps
import proofs.«174822_g77111842832928_cont_sun_m_99_16_alg».proof.Proof.RefLayer

noncomputable section

namespace Cert.ReferenceIdeal.RefValue

open Cert.ReferenceIdeal Cert.ReferenceIdeal.Gen Idealize.ShloMosaic Idealize.ShloMosaic.TcCoe Idealize.SL.Sem Idealize.ShloMosaic.StableHlo

/-- An operation whose one written buffer is in a list writes inside that list. -/
theorem single_sub_of_mem {W : List (Ref sig .tc)} (y : Ref sig .tc) (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The buffers run 1 writes. -/
def W1 : List (Ref sig .tc) := [main_v0, main_v1, main_v2, main_v3, main_v4, main_cst, main_call0_cst, main_call0_v0, main_call0_v1, main_call0_v2, main_call0_v3, main_call0_v4, main_v5]

theorem seg1_writes :
    (seg1 (F := Ideal)).Forall fun op => op.writes ⊆ (W1.map (Proc.devRef (τ := τ) .tc)).toFinset := by
  delta seg1
  exact ⟨single_sub_of_mem main_v0 (by decide),
    single_sub_of_mem main_v1 (by decide),
    single_sub_of_mem main_v2 (by decide),
    single_sub_of_mem main_v3 (by decide),
    single_sub_of_mem main_v4 (by decide),
    single_sub_of_mem main_cst (by decide),
    single_sub_of_mem main_call0_cst (by decide),
    single_sub_of_mem main_call0_v0 (by decide),
    single_sub_of_mem main_call0_v1 (by decide),
    single_sub_of_mem main_call0_v2 (by decide),
    single_sub_of_mem main_call0_v3 (by decide),
    single_sub_of_mem main_call0_v4 (by decide),
    single_sub_of_mem main_v5 (by decide)⟩

/-- Run 1 leaves every buffer it does not write as it was. -/
theorem seg1_frame (V : Valuation τ sig (Elt Ideal)) {r : Ref sig .tc} (hr : r ∉ W1) :
    after (seg1 (F := Ideal)) V (no_index (Proc.devRef .tc r)) = V (Proc.devRef .tc r) :=
  after_of_writes_sub (seg1 (F := Ideal)) V seg1_writes hr

/-- Run 1 leaves the layer of its adjacency, features, weights and bias at its result. -/
theorem seg1_out (V : Valuation τ sig (Elt Ideal)) :
    after (seg1 (F := Ideal)) V (no_index (main_v5 : DevRef τ sig))
      = layerT (V (main_arg3 : DevRef τ sig)) (V (main_arg0 : DevRef τ sig)) (V (main_arg6 : DevRef τ sig)) (V (main_arg7 : DevRef τ sig)) := by
  delta seg1
  after_results_simp
  simp only [TRef.toBuf, TRef.ofBuf, cast_eq]
  rfl

/-- The buffers run 2 writes. -/
def W2 : List (Ref sig .tc) := [main_v6, main_v7, main_v8, main_v9, main_v10, main_cst_0, main_call1_cst, main_call1_v0, main_call1_v1, main_call1_v2, main_call1_v3, main_call1_v4, main_v11]

theorem seg2_writes :
    (seg2 (F := Ideal)).Forall fun op => op.writes ⊆ (W2.map (Proc.devRef (τ := τ) .tc)).toFinset := by
  delta seg2
  exact ⟨single_sub_of_mem main_v6 (by decide),
    single_sub_of_mem main_v7 (by decide),
    single_sub_of_mem main_v8 (by decide),
    single_sub_of_mem main_v9 (by decide),
    single_sub_of_mem main_v10 (by decide),
    single_sub_of_mem main_cst_0 (by decide),
    single_sub_of_mem main_call1_cst (by decide),
    single_sub_of_mem main_call1_v0 (by decide),
    single_sub_of_mem main_call1_v1 (by decide),
    single_sub_of_mem main_call1_v2 (by decide),
    single_sub_of_mem main_call1_v3 (by decide),
    single_sub_of_mem main_call1_v4 (by decide),
    single_sub_of_mem main_v11 (by decide)⟩

/-- Run 2 leaves every buffer it does not write as it was. -/
theorem seg2_frame (V : Valuation τ sig (Elt Ideal)) {r : Ref sig .tc} (hr : r ∉ W2) :
    after (seg2 (F := Ideal)) V (no_index (Proc.devRef .tc r)) = V (Proc.devRef .tc r) :=
  after_of_writes_sub (seg2 (F := Ideal)) V seg2_writes hr

/-- Run 2 leaves the layer of its adjacency, features, weights and bias at its result. -/
theorem seg2_out (V : Valuation τ sig (Elt Ideal)) :
    after (seg2 (F := Ideal)) V (no_index (main_v11 : DevRef τ sig))
      = layerT (V (main_arg2 : DevRef τ sig)) (V (main_v5 : DevRef τ sig)) (V (main_arg8 : DevRef τ sig)) (V (main_arg9 : DevRef τ sig)) := by
  delta seg2
  after_results_simp
  simp only [TRef.toBuf, TRef.ofBuf, cast_eq]
  rfl

/-- The buffers run 3 writes. -/
def W3 : List (Ref sig .tc) := [main_v12, main_v13, main_v14, main_v15, main_v16, main_cst_1, main_call2_cst, main_call2_v0, main_call2_v1, main_call2_v2, main_call2_v3, main_call2_v4, main_v17]

theorem seg3_writes :
    (seg3 (F := Ideal)).Forall fun op => op.writes ⊆ (W3.map (Proc.devRef (τ := τ) .tc)).toFinset := by
  delta seg3
  exact ⟨single_sub_of_mem main_v12 (by decide),
    single_sub_of_mem main_v13 (by decide),
    single_sub_of_mem main_v14 (by decide),
    single_sub_of_mem main_v15 (by decide),
    single_sub_of_mem main_v16 (by decide),
    single_sub_of_mem main_cst_1 (by decide),
    single_sub_of_mem main_call2_cst (by decide),
    single_sub_of_mem main_call2_v0 (by decide),
    single_sub_of_mem main_call2_v1 (by decide),
    single_sub_of_mem main_call2_v2 (by decide),
    single_sub_of_mem main_call2_v3 (by decide),
    single_sub_of_mem main_call2_v4 (by decide),
    single_sub_of_mem main_v17 (by decide)⟩

/-- Run 3 leaves every buffer it does not write as it was. -/
theorem seg3_frame (V : Valuation τ sig (Elt Ideal)) {r : Ref sig .tc} (hr : r ∉ W3) :
    after (seg3 (F := Ideal)) V (no_index (Proc.devRef .tc r)) = V (Proc.devRef .tc r) :=
  after_of_writes_sub (seg3 (F := Ideal)) V seg3_writes hr

/-- Run 3 leaves the layer of its adjacency, features, weights and bias at its result. -/
theorem seg3_out (V : Valuation τ sig (Elt Ideal)) :
    after (seg3 (F := Ideal)) V (no_index (main_v17 : DevRef τ sig))
      = layerT (V (main_arg2 : DevRef τ sig)) (V (main_v5 : DevRef τ sig)) (V (main_arg10 : DevRef τ sig)) (V (main_arg11 : DevRef τ sig)) := by
  delta seg3
  after_results_simp
  simp only [TRef.toBuf, TRef.ofBuf, cast_eq]
  rfl

/-- The buffers run 4 writes. -/
def W4 : List (Ref sig .tc) := [main_v18, main_v19, main_v20, main_v21, main_v22]

theorem seg4_writes :
    (seg4 (F := Ideal)).Forall fun op => op.writes ⊆ (W4.map (Proc.devRef (τ := τ) .tc)).toFinset := by
  delta seg4
  exact ⟨single_sub_of_mem main_v18 (by decide),
    single_sub_of_mem main_v19 (by decide),
    single_sub_of_mem main_v20 (by decide),
    single_sub_of_mem main_v21 (by decide),
    single_sub_of_mem main_v22 (by decide)⟩

/-- Run 4 leaves every buffer it does not write as it was. -/
theorem seg4_frame (V : Valuation τ sig (Elt Ideal)) {r : Ref sig .tc} (hr : r ∉ W4) :
    after (seg4 (F := Ideal)) V (no_index (Proc.devRef .tc r)) = V (Proc.devRef .tc r) :=
  after_of_writes_sub (seg4 (F := Ideal)) V seg4_writes hr

/-- Run 4 leaves the union layer of its two feature arrays, weights and bias at its result. -/
theorem seg4_out (V : Valuation τ sig (Elt Ideal)) :
    after (seg4 (F := Ideal)) V (no_index (main_v22 : DevRef τ sig))
      = unionT (V (main_v11 : DevRef τ sig)) (V (main_arg0 : DevRef τ sig)) (V (main_arg18 : DevRef τ sig)) (V (main_arg19 : DevRef τ sig)) := by
  delta seg4
  after_results_simp
  rfl

/-- The buffers run 5 writes. -/
def W5 : List (Ref sig .tc) := [main_v23, main_v24, main_v25, main_v26, main_v27]

theorem seg5_writes :
    (seg5 (F := Ideal)).Forall fun op => op.writes ⊆ (W5.map (Proc.devRef (τ := τ) .tc)).toFinset := by
  delta seg5
  exact ⟨single_sub_of_mem main_v23 (by decide),
    single_sub_of_mem main_v24 (by decide),
    single_sub_of_mem main_v25 (by decide),
    single_sub_of_mem main_v26 (by decide),
    single_sub_of_mem main_v27 (by decide)⟩

/-- Run 5 leaves every buffer it does not write as it was. -/
theorem seg5_frame (V : Valuation τ sig (Elt Ideal)) {r : Ref sig .tc} (hr : r ∉ W5) :
    after (seg5 (F := Ideal)) V (no_index (Proc.devRef .tc r)) = V (Proc.devRef .tc r) :=
  after_of_writes_sub (seg5 (F := Ideal)) V seg5_writes hr

/-- Run 5 leaves the union layer of its two feature arrays, weights and bias at its result. -/
theorem seg5_out (V : Valuation τ sig (Elt Ideal)) :
    after (seg5 (F := Ideal)) V (no_index (main_v27 : DevRef τ sig))
      = unionT (V (main_v17 : DevRef τ sig)) (V (main_arg0 : DevRef τ sig)) (V (main_arg20 : DevRef τ sig)) (V (main_arg21 : DevRef τ sig)) := by
  delta seg5
  after_results_simp
  rfl

/-- The buffers run 6 writes. -/
def W6 : List (Ref sig .tc) := [main_v28, main_v29, main_v30, main_v31, main_v32, main_cst_2, main_call3_cst, main_call3_v0, main_call3_v1, main_call3_v2, main_call3_v3, main_call3_v4, main_v33]

theorem seg6_writes :
    (seg6 (F := Ideal)).Forall fun op => op.writes ⊆ (W6.map (Proc.devRef (τ := τ) .tc)).toFinset := by
  delta seg6
  exact ⟨single_sub_of_mem main_v28 (by decide),
    single_sub_of_mem main_v29 (by decide),
    single_sub_of_mem main_v30 (by decide),
    single_sub_of_mem main_v31 (by decide),
    single_sub_of_mem main_v32 (by decide),
    single_sub_of_mem main_cst_2 (by decide),
    single_sub_of_mem main_call3_cst (by decide),
    single_sub_of_mem main_call3_v0 (by decide),
    single_sub_of_mem main_call3_v1 (by decide),
    single_sub_of_mem main_call3_v2 (by decide),
    single_sub_of_mem main_call3_v3 (by decide),
    single_sub_of_mem main_call3_v4 (by decide),
    single_sub_of_mem main_v33 (by decide)⟩

/-- Run 6 leaves every buffer it does not write as it was. -/
theorem seg6_frame (V : Valuation τ sig (Elt Ideal)) {r : Ref sig .tc} (hr : r ∉ W6) :
    after (seg6 (F := Ideal)) V (no_index (Proc.devRef .tc r)) = V (Proc.devRef .tc r) :=
  after_of_writes_sub (seg6 (F := Ideal)) V seg6_writes hr

/-- Run 6 leaves the layer of its adjacency, features, weights and bias at its result. -/
theorem seg6_out (V : Valuation τ sig (Elt Ideal)) :
    after (seg6 (F := Ideal)) V (no_index (main_v33 : DevRef τ sig))
      = layerT (V (main_arg5 : DevRef τ sig)) (V (main_arg1 : DevRef τ sig)) (V (main_arg12 : DevRef τ sig)) (V (main_arg13 : DevRef τ sig)) := by
  delta seg6
  after_results_simp
  simp only [TRef.toBuf, TRef.ofBuf, cast_eq]
  rfl

/-- The buffers run 7 writes. -/
def W7 : List (Ref sig .tc) := [main_v34, main_v35, main_v36, main_v37, main_v38, main_cst_3, main_call4_cst, main_call4_v0, main_call4_v1, main_call4_v2, main_call4_v3, main_call4_v4, main_v39]

theorem seg7_writes :
    (seg7 (F := Ideal)).Forall fun op => op.writes ⊆ (W7.map (Proc.devRef (τ := τ) .tc)).toFinset := by
  delta seg7
  exact ⟨single_sub_of_mem main_v34 (by decide),
    single_sub_of_mem main_v35 (by decide),
    single_sub_of_mem main_v36 (by decide),
    single_sub_of_mem main_v37 (by decide),
    single_sub_of_mem main_v38 (by decide),
    single_sub_of_mem main_cst_3 (by decide),
    single_sub_of_mem main_call4_cst (by decide),
    single_sub_of_mem main_call4_v0 (by decide),
    single_sub_of_mem main_call4_v1 (by decide),
    single_sub_of_mem main_call4_v2 (by decide),
    single_sub_of_mem main_call4_v3 (by decide),
    single_sub_of_mem main_call4_v4 (by decide),
    single_sub_of_mem main_v39 (by decide)⟩

/-- Run 7 leaves every buffer it does not write as it was. -/
theorem seg7_frame (V : Valuation τ sig (Elt Ideal)) {r : Ref sig .tc} (hr : r ∉ W7) :
    after (seg7 (F := Ideal)) V (no_index (Proc.devRef .tc r)) = V (Proc.devRef .tc r) :=
  after_of_writes_sub (seg7 (F := Ideal)) V seg7_writes hr

/-- Run 7 leaves the layer of its adjacency, features, weights and bias at its result. -/
theorem seg7_out (V : Valuation τ sig (Elt Ideal)) :
    after (seg7 (F := Ideal)) V (no_index (main_v39 : DevRef τ sig))
      = layerT (V (main_arg4 : DevRef τ sig)) (V (main_v33 : DevRef τ sig)) (V (main_arg14 : DevRef τ sig)) (V (main_arg15 : DevRef τ sig)) := by
  delta seg7
  after_results_simp
  simp only [TRef.toBuf, TRef.ofBuf, cast_eq]
  rfl

/-- The buffers run 8 writes. -/
def W8 : List (Ref sig .tc) := [main_v40, main_v41, main_v42, main_v43, main_v44, main_cst_4, main_call5_cst, main_call5_v0, main_call5_v1, main_call5_v2, main_call5_v3, main_call5_v4, main_v45]

theorem seg8_writes :
    (seg8 (F := Ideal)).Forall fun op => op.writes ⊆ (W8.map (Proc.devRef (τ := τ) .tc)).toFinset := by
  delta seg8
  exact ⟨single_sub_of_mem main_v40 (by decide),
    single_sub_of_mem main_v41 (by decide),
    single_sub_of_mem main_v42 (by decide),
    single_sub_of_mem main_v43 (by decide),
    single_sub_of_mem main_v44 (by decide),
    single_sub_of_mem main_cst_4 (by decide),
    single_sub_of_mem main_call5_cst (by decide),
    single_sub_of_mem main_call5_v0 (by decide),
    single_sub_of_mem main_call5_v1 (by decide),
    single_sub_of_mem main_call5_v2 (by decide),
    single_sub_of_mem main_call5_v3 (by decide),
    single_sub_of_mem main_call5_v4 (by decide),
    single_sub_of_mem main_v45 (by decide)⟩

/-- Run 8 leaves every buffer it does not write as it was. -/
theorem seg8_frame (V : Valuation τ sig (Elt Ideal)) {r : Ref sig .tc} (hr : r ∉ W8) :
    after (seg8 (F := Ideal)) V (no_index (Proc.devRef .tc r)) = V (Proc.devRef .tc r) :=
  after_of_writes_sub (seg8 (F := Ideal)) V seg8_writes hr

/-- Run 8 leaves the layer of its adjacency, features, weights and bias at its result. -/
theorem seg8_out (V : Valuation τ sig (Elt Ideal)) :
    after (seg8 (F := Ideal)) V (no_index (main_v45 : DevRef τ sig))
      = layerT (V (main_arg4 : DevRef τ sig)) (V (main_v33 : DevRef τ sig)) (V (main_arg16 : DevRef τ sig)) (V (main_arg17 : DevRef τ sig)) := by
  delta seg8
  after_results_simp
  simp only [TRef.toBuf, TRef.ofBuf, cast_eq]
  rfl

/-- The buffers run 9 writes. -/
def W9 : List (Ref sig .tc) := [main_v46, main_v47, main_v48, main_v49, main_v50]

theorem seg9_writes :
    (seg9 (F := Ideal)).Forall fun op => op.writes ⊆ (W9.map (Proc.devRef (τ := τ) .tc)).toFinset := by
  delta seg9
  exact ⟨single_sub_of_mem main_v46 (by decide),
    single_sub_of_mem main_v47 (by decide),
    single_sub_of_mem main_v48 (by decide),
    single_sub_of_mem main_v49 (by decide),
    single_sub_of_mem main_v50 (by decide)⟩

/-- Run 9 leaves every buffer it does not write as it was. -/
theorem seg9_frame (V : Valuation τ sig (Elt Ideal)) {r : Ref sig .tc} (hr : r ∉ W9) :
    after (seg9 (F := Ideal)) V (no_index (Proc.devRef .tc r)) = V (Proc.devRef .tc r) :=
  after_of_writes_sub (seg9 (F := Ideal)) V seg9_writes hr

/-- Run 9 leaves the union layer of its two feature arrays, weights and bias at its result. -/
theorem seg9_out (V : Valuation τ sig (Elt Ideal)) :
    after (seg9 (F := Ideal)) V (no_index (main_v50 : DevRef τ sig))
      = unionT (V (main_v39 : DevRef τ sig)) (V (main_arg1 : DevRef τ sig)) (V (main_arg22 : DevRef τ sig)) (V (main_arg23 : DevRef τ sig)) := by
  delta seg9
  after_results_simp
  rfl

/-- The buffers run 10 writes. -/
def W10 : List (Ref sig .tc) := [main_v51, main_v52, main_v53, main_v54, main_v55]

theorem seg10_writes :
    (seg10 (F := Ideal)).Forall fun op => op.writes ⊆ (W10.map (Proc.devRef (τ := τ) .tc)).toFinset := by
  delta seg10
  exact ⟨single_sub_of_mem main_v51 (by decide),
    single_sub_of_mem main_v52 (by decide),
    single_sub_of_mem main_v53 (by decide),
    single_sub_of_mem main_v54 (by decide),
    single_sub_of_mem main_v55 (by decide)⟩

/-- Run 10 leaves every buffer it does not write as it was. -/
theorem seg10_frame (V : Valuation τ sig (Elt Ideal)) {r : Ref sig .tc} (hr : r ∉ W10) :
    after (seg10 (F := Ideal)) V (no_index (Proc.devRef .tc r)) = V (Proc.devRef .tc r) :=
  after_of_writes_sub (seg10 (F := Ideal)) V seg10_writes hr

/-- Run 10 leaves the union layer of its two feature arrays, weights and bias at its result. -/
theorem seg10_out (V : Valuation τ sig (Elt Ideal)) :
    after (seg10 (F := Ideal)) V (no_index (main_v55 : DevRef τ sig))
      = unionT (V (main_v45 : DevRef τ sig)) (V (main_arg1 : DevRef τ sig)) (V (main_arg24 : DevRef τ sig)) (V (main_arg25 : DevRef τ sig)) := by
  delta seg10
  after_results_simp
  rfl

/-- The buffers run 11 writes. -/
def W11 : List (Ref sig .tc) := [main_cst_5, main_v56, main_v57, main_cst_6, main_v58, main_v59, main_v60, main_cst_7, main_v61, main_v62, main_cst_8, main_v63, main_v64, main_v65]

theorem seg11_writes :
    (seg11 (F := Ideal)).Forall fun op => op.writes ⊆ (W11.map (Proc.devRef (τ := τ) .tc)).toFinset := by
  delta seg11
  exact ⟨single_sub_of_mem main_cst_5 (by decide),
    single_sub_of_mem main_v56 (by decide),
    single_sub_of_mem main_v57 (by decide),
    single_sub_of_mem main_cst_6 (by decide),
    single_sub_of_mem main_v58 (by decide),
    single_sub_of_mem main_v59 (by decide),
    single_sub_of_mem main_v60 (by decide),
    single_sub_of_mem main_cst_7 (by decide),
    single_sub_of_mem main_v61 (by decide),
    single_sub_of_mem main_v62 (by decide),
    single_sub_of_mem main_cst_8 (by decide),
    single_sub_of_mem main_v63 (by decide),
    single_sub_of_mem main_v64 (by decide),
    single_sub_of_mem main_v65 (by decide)⟩

/-- Run 11 leaves every buffer it does not write as it was. -/
theorem seg11_frame (V : Valuation τ sig (Elt Ideal)) {r : Ref sig .tc} (hr : r ∉ W11) :
    after (seg11 (F := Ideal)) V (no_index (Proc.devRef .tc r)) = V (Proc.devRef .tc r) :=
  after_of_writes_sub (seg11 (F := Ideal)) V seg11_writes hr

/-- The last run leaves the blend of the two sides' mean branches at the first result … -/
theorem seg11_mean (V : Valuation τ sig (Elt Ideal)) :
    after (seg11 (F := Ideal)) V (no_index (main_v60 : DevRef τ sig)) = blendT (V (main_v22 : DevRef τ sig)) (V (main_v50 : DevRef τ sig)) := by
  delta seg11
  after_results_simp
  rfl

/-- … and the blend of their log-deviation branches at the second. -/
theorem seg11_logstd (V : Valuation τ sig (Elt Ideal)) :
    after (seg11 (F := Ideal)) V (no_index (main_v65 : DevRef τ sig)) = blendT (V (main_v27 : DevRef τ sig)) (V (main_v55 : DevRef τ sig)) := by
  delta seg11
  after_results_simp
  rfl

end Cert.ReferenceIdeal.RefValue

end
-- ==== Proof.RefRun.lean ====
/-
  The reference's run and its value.

  Run from any memory, the reference ends with its two result buffers at the network's blended mean and blended
  log-deviation of its twenty-six argument arrays, in the reference's own arrangement — per side a first layer, a
  mean branch and a log-deviation branch over the other adjacency, a union layer with the raw features, and the two
  sides blended with the weight one half each — and with the argument arrays unchanged. The contents after the
  whole line are read run by run: each run's result in terms of the buffers before it, every other buffer carried
  across; the composed array-level term is the specification's, definition by definition.
-/
import proofs.«174822_g77111842832928_cont_sun_m_99_16_alg».proof.Proof.RefRead

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The reference's argument arrays as the network's inputs. -/
def inputs (m : (ℓ : Loc nD τ sig) → Buf (Elt Ideal) ℓ) (c : Dev nD) : Cert.Gcn.Inputs where
  sx := m ((c.tc : Thread nD τ).loc main_arg0)
  tx := m ((c.tc : Thread nD τ).loc main_arg1)
  sUV := m ((c.tc : Thread nD τ).loc main_arg2)
  sVU := m ((c.tc : Thread nD τ).loc main_arg3)
  tUV := m ((c.tc : Thread nD τ).loc main_arg4)
  tVU := m ((c.tc : Thread nD τ).loc main_arg5)
  w1 := m ((c.tc : Thread nD τ).loc main_arg6)
  b1 := m ((c.tc : Thread nD τ).loc main_arg7)
  w3m := m ((c.tc : Thread nD τ).loc main_arg8)
  b3m := m ((c.tc : Thread nD τ).loc main_arg9)
  w3s := m ((c.tc : Thread nD τ).loc main_arg10)
  b3s := m ((c.tc : Thread nD τ).loc main_arg11)
  w2 := m ((c.tc : Thread nD τ).loc main_arg12)
  b2 := m ((c.tc : Thread nD τ).loc main_arg13)
  w4m := m ((c.tc : Thread nD τ).loc main_arg14)
  b4m := m ((c.tc : Thread nD τ).loc main_arg15)
  w4s := m ((c.tc : Thread nD τ).loc main_arg16)
  b4s := m ((c.tc : Thread nD τ).loc main_arg17)
  sumW := m ((c.tc : Thread nD τ).loc main_arg18)
  sumB := m ((c.tc : Thread nD τ).loc main_arg19)
  ssdW := m ((c.tc : Thread nD τ).loc main_arg20)
  ssdB := m ((c.tc : Thread nD τ).loc main_arg21)
  tumW := m ((c.tc : Thread nD τ).loc main_arg22)
  tumB := m ((c.tc : Thread nD τ).loc main_arg23)
  tsdW := m ((c.tc : Thread nD τ).loc main_arg24)
  tsdB := m ((c.tc : Thread nD τ).loc main_arg25)

theorem not_mem_left {α : Type} {a : α} {l₁ l₂ : List α} (h : a ∉ l₁ ++ l₂) : a ∉ l₁ :=
  fun h' => h (List.mem_append_left _ h')
theorem not_mem_right {α : Type} {a : α} {l₁ l₂ : List α} (h : a ∉ l₁ ++ l₂) : a ∉ l₂ :=
  fun h' => h (List.mem_append_right _ h')

/-- Every buffer the program writes. -/
def Wall : List (Ref sig .tc) := W1 ++ W2 ++ W3 ++ W4 ++ W5 ++ W6 ++ W7 ++ W8 ++ W9 ++ W10 ++ W11

/-- The whole line leaves every buffer it does not write as it was. -/
theorem ops_frame (V : Valuation τ sig (Elt Ideal)) {r : Ref sig .tc} (h : r ∉ Wall) :
    after (ops (F := Ideal)) V (Proc.devRef .tc r) = V (Proc.devRef .tc r) := by
  delta ops
  simp only [Cert.LibAfter.after_append]
  have h11 : r ∉ W11 := not_mem_right h
  have g11 := not_mem_left h
  have h10 : r ∉ W10 := not_mem_right g11
  have g10 := not_mem_left g11
  have h9 : r ∉ W9 := not_mem_right g10
  have g9 := not_mem_left g10
  have h8 : r ∉ W8 := not_mem_right g9
  have g8 := not_mem_left g9
  have h7 : r ∉ W7 := not_mem_right g8
  have g7 := not_mem_left g8
  have h6 : r ∉ W6 := not_mem_right g7
  have g6 := not_mem_left g7
  have h5 : r ∉ W5 := not_mem_right g6
  have g5 := not_mem_left g6
  have h4 : r ∉ W4 := not_mem_right g5
  have g4 := not_mem_left g5
  have h3 : r ∉ W3 := not_mem_right g4
  have g3 := not_mem_left g4
  have h2 : r ∉ W2 := not_mem_right g3
  have g2 := not_mem_left g3
  have h1 : r ∉ W1 := g2
  exact ((seg11_frame _ h11).trans ((seg10_frame _ h10).trans ((seg9_frame _ h9).trans ((seg8_frame _ h8).trans ((seg7_frame _ h7).trans ((seg6_frame _ h6).trans ((seg5_frame _ h5).trans ((seg4_frame _ h4).trans ((seg3_frame _ h3).trans ((seg2_frame _ h2).trans (seg1_frame _ h1)))))))))))

/-- The first result after the whole line, as layers, union layers and the blend of the launch contents. -/
theorem ops_mean (V : Valuation τ sig (Elt Ideal)) :
    after (ops (F := Ideal)) V (main_v60 : DevRef τ sig)
      = blendT (unionT (layerT (V (main_arg2 : DevRef τ sig)) (layerT (V (main_arg3 : DevRef τ sig)) (V (main_arg0 : DevRef τ sig)) (V (main_arg6 : DevRef τ sig)) (V (main_arg7 : DevRef τ sig))) (V (main_arg8 : DevRef τ sig)) (V (main_arg9 : DevRef τ sig))) (V (main_arg0 : DevRef τ sig)) (V (main_arg18 : DevRef τ sig)) (V (main_arg19 : DevRef τ sig)))
        (unionT (layerT (V (main_arg4 : DevRef τ sig)) (layerT (V (main_arg5 : DevRef τ sig)) (V (main_arg1 : DevRef τ sig)) (V (main_arg12 : DevRef τ sig)) (V (main_arg13 : DevRef τ sig))) (V (main_arg14 : DevRef τ sig)) (V (main_arg15 : DevRef τ sig))) (V (main_arg1 : DevRef τ sig)) (V (main_arg22 : DevRef τ sig)) (V (main_arg23 : DevRef τ sig))) := by
  delta ops
  simp only [Cert.LibAfter.after_append]
  simp (disch := decide) only [seg11_mean, seg1_out, seg2_out, seg3_out, seg4_out, seg5_out, seg6_out, seg7_out, seg8_out, seg9_out, seg10_out, seg1_frame, seg2_frame, seg3_frame, seg4_frame, seg5_frame, seg6_frame, seg7_frame, seg8_frame, seg9_frame, seg10_frame, seg11_frame]

/-- The second result after the whole line, likewise. -/
theorem ops_logstd (V : Valuation τ sig (Elt Ideal)) :
    after (ops (F := Ideal)) V (main_v65 : DevRef τ sig)
      = blendT (unionT (layerT (V (main_arg2 : DevRef τ sig)) (layerT (V (main_arg3 : DevRef τ sig)) (V (main_arg0 : DevRef τ sig)) (V (main_arg6 : DevRef τ sig)) (V (main_arg7 : DevRef τ sig))) (V (main_arg10 : DevRef τ sig)) (V (main_arg11 : DevRef τ sig))) (V (main_arg0 : DevRef τ sig)) (V (main_arg20 : DevRef τ sig)) (V (main_arg21 : DevRef τ sig)))
        (unionT (layerT (V (main_arg4 : DevRef τ sig)) (layerT (V (main_arg5 : DevRef τ sig)) (V (main_arg1 : DevRef τ sig)) (V (main_arg12 : DevRef τ sig)) (V (main_arg13 : DevRef τ sig))) (V (main_arg16 : DevRef τ sig)) (V (main_arg17 : DevRef τ sig))) (V (main_arg1 : DevRef τ sig)) (V (main_arg24 : DevRef τ sig)) (V (main_arg25 : DevRef τ sig))) := by
  delta ops
  simp only [Cert.LibAfter.after_append]
  simp (disch := decide) only [seg11_logstd, seg1_out, seg2_out, seg3_out, seg4_out, seg5_out, seg6_out, seg7_out, seg8_out, seg9_out, seg10_out, seg1_frame, seg2_frame, seg3_frame, seg4_frame, seg5_frame, seg6_frame, seg7_frame, seg8_frame, seg9_frame, seg10_frame, seg11_frame]

/-- The composed term of the first result is the network's blended mean in the reference's arrangement. -/
theorem mean_eq (m : (ℓ : Loc nD τ sig) → Buf (Elt Ideal) ℓ) (c : Dev nD) :
    (fun V : Valuation τ sig (Elt Ideal) => blendT (unionT (layerT (V (main_arg2 : DevRef τ sig)) (layerT (V (main_arg3 : DevRef τ sig)) (V (main_arg0 : DevRef τ sig)) (V (main_arg6 : DevRef τ sig)) (V (main_arg7 : DevRef τ sig))) (V (main_arg8 : DevRef τ sig)) (V (main_arg9 : DevRef τ sig))) (V (main_arg0 : DevRef τ sig)) (V (main_arg18 : DevRef τ sig)) (V (main_arg19 : DevRef τ sig)))
        (unionT (layerT (V (main_arg4 : DevRef τ sig)) (layerT (V (main_arg5 : DevRef τ sig)) (V (main_arg1 : DevRef τ sig)) (V (main_arg12 : DevRef τ sig)) (V (main_arg13 : DevRef τ sig))) (V (main_arg14 : DevRef τ sig)) (V (main_arg15 : DevRef τ sig))) (V (main_arg1 : DevRef τ sig)) (V (main_arg22 : DevRef τ sig)) (V (main_arg23 : DevRef τ sig)))) (launchContents m c)
      = (inputs m c).refMean := by
  funext i
  simp only [blendT_apply, unionT_eq, layerT_eq]
  rfl

/-- The composed term of the second result is the network's blended log-deviation in the reference's arrangement. -/
theorem logstd_eq (m : (ℓ : Loc nD τ sig) → Buf (Elt Ideal) ℓ) (c : Dev nD) :
    (fun V : Valuation τ sig (Elt Ideal) => blendT (unionT (layerT (V (main_arg2 : DevRef τ sig)) (layerT (V (main_arg3 : DevRef τ sig)) (V (main_arg0 : DevRef τ sig)) (V (main_arg6 : DevRef τ sig)) (V (main_arg7 : DevRef τ sig))) (V (main_arg10 : DevRef τ sig)) (V (main_arg11 : DevRef τ sig))) (V (main_arg0 : DevRef τ sig)) (V (main_arg20 : DevRef τ sig)) (V (main_arg21 : DevRef τ sig)))
        (unionT (layerT (V (main_arg4 : DevRef τ sig)) (layerT (V (main_arg5 : DevRef τ sig)) (V (main_arg1 : DevRef τ sig)) (V (main_arg12 : DevRef τ sig)) (V (main_arg13 : DevRef τ sig))) (V (main_arg16 : DevRef τ sig)) (V (main_arg17 : DevRef τ sig))) (V (main_arg1 : DevRef τ sig)) (V (main_arg24 : DevRef τ sig)) (V (main_arg25 : DevRef τ sig)))) (launchContents m c)
      = (inputs m c).refLogstd := by
  funext i
  simp only [blendT_apply, unionT_eq, layerT_eq]
  rfl

/-- On every device, from any memory with zero counters: every weakly fair execution of the reference terminates
    with the first result at the network's blended mean and the second at its blended log-deviation of the argument
    arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v60) = (inputs m c).refMean
      ∧ r.2.mem ((c.tc : Thread nD τ).loc main_v65) = (inputs m c).refLogstd
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run (defs (F := Ideal)) _ _).mono (fun _ h c =>
    ⟨(h c main_v60).trans ((ops_mean _).trans (mean_eq m c)),
      (h c main_v65).trans ((ops_logstd _).trans (logstd_eq m c)),
      (h c main_arg0).trans (ops_frame _ (r := main_arg0) (by decide)),
      (h c main_arg1).trans (ops_frame _ (r := main_arg1) (by decide)),
      (h c main_arg2).trans (ops_frame _ (r := main_arg2) (by decide)),
      (h c main_arg3).trans (ops_frame _ (r := main_arg3) (by decide)),
      (h c main_arg4).trans (ops_frame _ (r := main_arg4) (by decide)),
      (h c main_arg5).trans (ops_frame _ (r := main_arg5) (by decide)),
      (h c main_arg6).trans (ops_frame _ (r := main_arg6) (by decide)),
      (h c main_arg7).trans (ops_frame _ (r := main_arg7) (by decide)),
      (h c main_arg8).trans (ops_frame _ (r := main_arg8) (by decide)),
      (h c main_arg9).trans (ops_frame _ (r := main_arg9) (by decide)),
      (h c main_arg10).trans (ops_frame _ (r := main_arg10) (by decide)),
      (h c main_arg11).trans (ops_frame _ (r := main_arg11) (by decide)),
      (h c main_arg12).trans (ops_frame _ (r := main_arg12) (by decide)),
      (h c main_arg13).trans (ops_frame _ (r := main_arg13) (by decide)),
      (h c main_arg14).trans (ops_frame _ (r := main_arg14) (by decide)),
      (h c main_arg15).trans (ops_frame _ (r := main_arg15) (by decide)),
      (h c main_arg16).trans (ops_frame _ (r := main_arg16) (by decide)),
      (h c main_arg17).trans (ops_frame _ (r := main_arg17) (by decide)),
      (h c main_arg18).trans (ops_frame _ (r := main_arg18) (by decide)),
      (h c main_arg19).trans (ops_frame _ (r := main_arg19) (by decide)),
      (h c main_arg20).trans (ops_frame _ (r := main_arg20) (by decide)),
      (h c main_arg21).trans (ops_frame _ (r := main_arg21) (by decide)),
      (h c main_arg22).trans (ops_frame _ (r := main_arg22) (by decide)),
      (h c main_arg23).trans (ops_frame _ (r := main_arg23) (by decide)),
      (h c main_arg24).trans (ops_frame _ (r := main_arg24) (by decide)),
      (h c main_arg25).trans (ops_frame _ (r := main_arg25) (by decide))⟩)
    (run_main (F := Ideal) m ρ)

end Cert.ReferenceIdeal.RefValue

end
-- ==== Proof.Bridge.lean ====
/-
  The two arrangements of the network are one function.

  Two facts join them.

  * COLUMN BLOCKS.  A layer whose weights and biases are two branches' laid side by side has, in its left half of
    columns, the first branch's layer and, in its right half, the second's: entry `(j, k)` of `H · [W₁ | W₂]` with
    `k` in the left run of columns is `∑ l, H (j, l) · W₁ (l, k)`, the joined bias there is the first bias, and the
    slope function is applied entry by entry.
  * THE BLEND.  One half is a finite nonnegative extended real, so multiplication by it distributes over every
    sum of extended reals, infinite ones included: `½ · (x + a) + ½ · (y + b) = (½ · x + ½ · y) + (½ · a + ½ · b)`,
    the rest being the commutativity and associativity of addition.
-/
import Mathlib.Data.EReal.Operations
import Idealize.ShloMosaic.PureOps.Ideal.Laws
import Idealize.ShloMosaic.Lib.ValueIdx
import proofs.«174822_g77111842832928_cont_sun_m_99_16_alg».proof.Proof.LibMatProd
import proofs.«174822_g77111842832928_cont_sun_m_99_16_alg».proof.Proof.Spec

noncomputable section

open scoped BigOperators

namespace Cert.Gcn

open Idealize.ShloMosaic Idealize.ShloMosaic.ValueIdx Cert.Linear

/-! ### The blending weight -/

/-- The word of the blending weight denotes the real one half: sign `0`, exponent `126`, fraction `0`, that is
    `2 ^ 23 · 2 ^ (126 - 127 - 23)`. -/
theorem half_eq : half = (((1 : ℝ) / 2 : ℝ) : EReal) := by
  show Ideal.ofBits .f32 0x3F000000#32 = _
  simp [Ideal.ofBits, Ideal.ieee, -EReal.coe_mul]; norm_num

/-- One half is nonnegative … -/
theorem half_nonneg : (0 : EReal) ≤ half := by
  rw [half_eq]; exact EReal.coe_nonneg.mpr (by norm_num)

/-- … and finite. -/
theorem half_ne_top : half ≠ ⊤ := by
  rw [half_eq]; exact EReal.coe_ne_top _

/-- Multiplication by one half distributes over a sum of ANY two extended reals (the factor is finite and
    nonnegative). -/
theorem half_mul_add (x y : EReal) : half * (x + y) = half * x + half * y :=
  EReal.left_distrib_of_nonneg_of_ne_top half_nonneg half_ne_top x y

/-- The blend of two biased sums is the blend of the sums plus the blend of the biases. -/
theorem blend (x y a b : EReal) :
    half * (x + a) + half * (y + b) = (half * x + half * y) + (half * a + half * b) := by
  rw [half_mul_add, half_mul_add, add_add_add_comm]

/-! ### Column blocks -/

/-- Two matrices laid side by side read, at a column of the left run, as the first. -/
theorem catCols_left {r a b : Nat} (X : (Mat r a).Idx → EReal) (Y : (Mat r b).Idx → EReal) (p : Fin r) (k : Fin a) :
    catCols X Y (ix2 (n0 := r) (n1 := a + b) p (Fin.castAdd b k)) = X (ix2 (n0 := r) (n1 := a) p k) := by
  show @Fin.addCases a b (fun _ => EReal) (fun k : Fin a => X (ix2 (n0 := r) (n1 := a) p k))
    (fun k : Fin b => Y (ix2 (n0 := r) (n1 := b) p k)) (Fin.castAdd b k) = _
  rw [Fin.addCases_left]

/-- Two matrices laid side by side read, at a column of the right run, as the second. -/
theorem catCols_right {r a b : Nat} (X : (Mat r a).Idx → EReal) (Y : (Mat r b).Idx → EReal) (p : Fin r) (k : Fin b) :
    catCols X Y (ix2 (n0 := r) (n1 := a + b) p (Fin.natAdd a k)) = Y (ix2 (n0 := r) (n1 := b) p k) := by
  show @Fin.addCases a b (fun _ => EReal) (fun k : Fin a => X (ix2 (n0 := r) (n1 := a) p k))
    (fun k : Fin b => Y (ix2 (n0 := r) (n1 := b) p k)) (Fin.natAdd a k) = _
  rw [Fin.addCases_right]

/-- Two vectors laid end to end read, at an entry of the first run, as the first. -/
theorem catVec_left {a b : Nat} (x : (Vc a).Idx → EReal) (y : (Vc b).Idx → EReal) (k : Fin a) :
    catVec x y (ix1 (n := a + b) (Fin.castAdd b k)) = x (ix1 (n := a) k) := by
  show @Fin.addCases a b (fun _ => EReal) (fun k : Fin a => x (ix1 (n := a) k)) (fun k : Fin b => y (ix1 (n := b) k)) (Fin.castAdd b k) = _
  rw [Fin.addCases_left]

/-- Two vectors laid end to end read, at an entry of the second run, as the second. -/
theorem catVec_right {a b : Nat} (x : (Vc a).Idx → EReal) (y : (Vc b).Idx → EReal) (k : Fin b) :
    catVec x y (ix1 (n := a + b) (Fin.natAdd a k)) = y (ix1 (n := b) k) := by
  show @Fin.addCases a b (fun _ => EReal) (fun k : Fin a => x (ix1 (n := a) k)) (fun k : Fin b => y (ix1 (n := b) k)) (Fin.natAdd a k) = _
  rw [Fin.addCases_right]

/-- A product's entry depends on the right factor only through the entry's column: if column `q` of `S` is column
    `q'` of `S'`, then `A · S` at `(r, q)` is `A · S'` at `(r, q')`. -/
theorem matProd_col_congr {m n e e' : Nat} (A : (Mat m n).Idx → EReal) (S : (Mat n e).Idx → EReal)
    (S' : (Mat n e').Idx → EReal) (r : Fin m) (q : Fin e) (q' : Fin e')
    (h : ∀ j : Fin n, S (ix2 (n0 := n) (n1 := e) j q) = S' (ix2 (n0 := n) (n1 := e') j q')) :
    matProd A S (ix2 (n0 := m) (n1 := e) r q) = matProd A S' (ix2 (n0 := m) (n1 := e') r q') := by
  show ∑ j : Fin n, A (ix2 (n0 := m) (n1 := n) r j) * S (ix2 (n0 := n) (n1 := e) j q)
    = ∑ j : Fin n, A (ix2 (n0 := m) (n1 := n) r j) * S' (ix2 (n0 := n) (n1 := e') j q')
  exact Finset.sum_congr rfl fun j _ => by rw [h j]

/-- The left half of a layer over side-by-side weights and end-to-end biases is the first branch's layer. -/
theorem leftCols_layer_cat {n d' d : Nat} (A : (Mat n n).Idx → EReal) (H : (Mat n d').Idx → EReal)
    (W1 W2 : (Mat d' d).Idx → EReal) (b1 b2 : (Vc d).Idx → EReal) :
    leftCols (layer A (matProd H (catCols W1 W2)) (catVec b1 b2)) = layer A (matProd H W1) b1 := by
  funext i
  obtain ⟨r, k, rfl⟩ : ∃ r k, i = ix2 (n0 := n) (n1 := d) r k := ⟨i 0, i 1, eq_ix2 i⟩
  show leaky (matProd A (matProd H (catCols W1 W2)) (ix2 (n0 := n) (n1 := d + d) r (Fin.castAdd d k))
      + catVec b1 b2 (ix1 (n := d + d) (Fin.castAdd d k)))
    = leaky (matProd A (matProd H W1) (ix2 (n0 := n) (n1 := d) r k) + b1 (ix1 (n := d) k))
  rw [catVec_left, matProd_col_congr A (matProd H (catCols W1 W2)) (matProd H W1) r (Fin.castAdd d k) k
    (fun j => matProd_col_congr H (catCols W1 W2) W1 j (Fin.castAdd d k) k (fun l => catCols_left W1 W2 l k))]

/-- The right half of a layer over side-by-side weights and end-to-end biases is the second branch's layer. -/
theorem rightCols_layer_cat {n d' d : Nat} (A : (Mat n n).Idx → EReal) (H : (Mat n d').Idx → EReal)
    (W1 W2 : (Mat d' d).Idx → EReal) (b1 b2 : (Vc d).Idx → EReal) :
    rightCols (layer A (matProd H (catCols W1 W2)) (catVec b1 b2)) = layer A (matProd H W2) b2 := by
  funext i
  obtain ⟨r, k, rfl⟩ : ∃ r k, i = ix2 (n0 := n) (n1 := d) r k := ⟨i 0, i 1, eq_ix2 i⟩
  show leaky (matProd A (matProd H (catCols W1 W2)) (ix2 (n0 := n) (n1 := d + d) r (Fin.natAdd d k))
      + catVec b1 b2 (ix1 (n := d + d) (Fin.natAdd d k)))
    = leaky (matProd A (matProd H W2) (ix2 (n0 := n) (n1 := d) r k) + b2 (ix1 (n := d) k))
  rw [catVec_right, matProd_col_congr A (matProd H (catCols W1 W2)) (matProd H W2) r (Fin.natAdd d k) k
    (fun j => matProd_col_congr H (catCols W1 W2) W2 j (Fin.natAdd d k) k (fun l => catCols_right W1 W2 l k))]

/-! ### The network's four shared layers, half by half -/

namespace Inputs

variable (I : Inputs)

theorem leftCols_sHcat : leftCols I.sHcat = I.sHm := leftCols_layer_cat I.sUV I.sHo I.w3m I.w3s I.b3m I.b3s
theorem rightCols_sHcat : rightCols I.sHcat = I.sHs := rightCols_layer_cat I.sUV I.sHo I.w3m I.w3s I.b3m I.b3s
theorem leftCols_tHcat : leftCols I.tHcat = I.tHm := leftCols_layer_cat I.tUV I.tHo I.w4m I.w4s I.b4m I.b4s
theorem rightCols_tHcat : rightCols I.tHcat = I.tHs := rightCols_layer_cat I.tUV I.tHo I.w4m I.w4s I.b4m I.b4s

end Inputs

/-! ### The two arrangements are one function -/

/-- The kernel's blended mean is the reference's. -/
theorem Inputs.kerMean_eq_refMean (I : Inputs) : I.kerMean = I.refMean := by
  funext i
  show (half * joinedProd (leftCols I.sHcat) I.sx I.sumW i + half * joinedProd (leftCols I.tHcat) I.tx I.tumW i)
      + (half * I.sumB (ix1 (n := 128) (i 1)) + half * I.tumB (ix1 (n := 128) (i 1)))
    = half * (joinedProd I.sHm I.sx I.sumW i + I.sumB (ix1 (n := 128) (i 1)))
      + half * (joinedProd I.tHm I.tx I.tumW i + I.tumB (ix1 (n := 128) (i 1)))
  rw [I.leftCols_sHcat, I.leftCols_tHcat, blend]

/-- The kernel's blended log-deviation is the reference's. -/
theorem Inputs.kerLogstd_eq_refLogstd (I : Inputs) : I.kerLogstd = I.refLogstd := by
  funext i
  show (half * joinedProd (rightCols I.sHcat) I.sx I.ssdW i + half * joinedProd (rightCols I.tHcat) I.tx I.tsdW i)
      + (half * I.ssdB (ix1 (n := 128) (i 1)) + half * I.tsdB (ix1 (n := 128) (i 1)))
    = half * (joinedProd I.sHs I.sx I.ssdW i + I.ssdB (ix1 (n := 128) (i 1)))
      + half * (joinedProd I.tHs I.tx I.tsdW i + I.tsdB (ix1 (n := 128) (i 1)))
  rw [I.rightCols_sHcat, I.rightCols_tHcat, blend]

end Cert.Gcn

end
-- ==== Proof.lean ====
/-
  The claim of this certificate: the kernel program and its reference compute one function.

  Both programs compute a two-layer graph-convolution network on two graphs: per side a first layer
  `leaky (A_vu · (x · W) + b)`, a mean and a log-deviation branch `leaky (A_uv · (h · W') + b')` over it, a union
  layer `[branch | x] · U + u`, and the two sides blended with the weight one half each.  The kernel program lays
  the two branches of a side side by side in one layer of twice the width, multiplies the blend into the products
  and adds the blended bias last, and streams the adjacency matrices in blocks of rows; on the extended reals
  (every float an exact extended real, a change of float format the identity) the two arrangements are one
  function of the twenty-six argument arrays, with no finiteness needed: a sum over the joined columns is the sum
  over its two runs, and a nonnegative finite factor distributes over a sum.

  The three frames: the kernel program's two are its frame certificates; the reference's is its run, the results
  dropped.  The idealization rewrote no operation, so `preserves` is trivial.  `algebraic`: the kernel program's
  run ends at `I.kerMean`, `I.kerLogstd` of its arguments `I`, the reference's at `I.refMean`, `I.refLogstd` of its
  own, the arguments agree, and the two arrangements are equal.
-/
import proofs.«174822_g77111842832928_cont_sun_m_99_16_alg».proof.Defs
import proofs.«174822_g77111842832928_cont_sun_m_99_16_alg».proof.Proof.Gen.Kernel
import proofs.«174822_g77111842832928_cont_sun_m_99_16_alg».proof.Proof.Gen.Kernel.Frame
import proofs.«174822_g77111842832928_cont_sun_m_99_16_alg».proof.Proof.Gen.KernelIdeal
import proofs.«174822_g77111842832928_cont_sun_m_99_16_alg».proof.Proof.Gen.KernelIdeal.Frame
import proofs.«174822_g77111842832928_cont_sun_m_99_16_alg».proof.Proof.Gen.ReferenceIdeal
import proofs.«174822_g77111842832928_cont_sun_m_99_16_alg».proof.Proof.Gen.Pre_finite_inputs
import proofs.«174822_g77111842832928_cont_sun_m_99_16_alg».proof.Proof.KCompose
import proofs.«174822_g77111842832928_cont_sun_m_99_16_alg».proof.Proof.RefRun
import proofs.«174822_g77111842832928_cont_sun_m_99_16_alg».proof.Proof.Bridge

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RefValue.run m ρ)

/-- Memories that agree on the twenty-six arguments give the two programs the same network inputs. -/
theorem inputs_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.ReferenceIdeal.RefValue.inputs m' c = Cert.KernelIdeal.KValue.inputs m c := by
  unfold Cert.ReferenceIdeal.RefValue.inputs Cert.KernelIdeal.KValue.inputs
  rw [h0, h1, h2, h3, h4, h5, h6, h7, h8, h9, h10, h11, h12, h13, h14, h15, h16, h17, h18, h19, h20, h21, h22, h23, h24, h25]

theorem algebraic : Cert.algebraic_KernelIdeal_ReferenceIdeal := by
  intro m ρ m' ρ' _ hagree
  refine ⟨fun c => (Cert.KernelIdeal.KValue.inputs m c).kerMean, fun c => (Cert.KernelIdeal.KValue.inputs m c).kerLogstd,
    Cert.KernelIdeal.KValue.run m ρ, ?_⟩
  refine (θ_run Cert.ReferenceIdeal.defs _ _).mono (fun _ h c => ?_) (Cert.ReferenceIdeal.RefValue.run m' ρ')
  obtain ⟨h0, h1, h2, h3, h4, h5, h6, h7, h8, h9, h10, h11, h12, h13, h14, h15, h16, h17, h18, h19, h20, h21, h22, h23, h24, h25⟩ := hagree c
  have hI := inputs_agree m m' c h0 h1 h2 h3 h4 h5 h6 h7 h8 h9 h10 h11 h12 h13 h14 h15 h16 h17 h18 h19 h20 h21 h22 h23 h24 h25
  refine ⟨(h c).1.trans ?_, (h c).2.1.trans ?_, (h c).2.2⟩
  · rw [hI]; exact (Cert.Gcn.Inputs.kerMean_eq_refMean _).symm
  · rw [hI]; exact (Cert.Gcn.Inputs.kerLogstd_eq_refLogstd _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
